-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S160000x16 : Shape := ⟨2, ![160000, 16]⟩
abbrev S528x256 : Shape := ⟨2, ![528, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x16 : S_.BroadcastsInDim S160000x16 (![] : Fin 0 → Fin S160000x16.rank)
  reducesTo_S160000x16_S_d0_1 : S160000x16.ReducesTo [0, 1] S_
  bcast_S_S528x256 : S_.BroadcastsInDim S528x256 (![] : Fin 0 → Fin S528x256.rank)
  reducesTo_S528x256_S_d0_1 : S528x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S528x256 .f32) (main_arg6 : FVec F S256 .f32) (main_arg7 : FVec F S256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S528x256 .f32 := Host.absf main_arg5
  let main_cst_6 : FVec F S_ .f32 := constant S_ .f32 0x7F800000#32
  let main_v20 : FVec F S528x256 .f32 := broadcastInDim S528x256 ![] bcast_S_S528x256 main_cst_6
  let main_v21 : IVec S528x256 1 := cmpf .olt main_v19 main_v20
  let main_c_7 : IVec S_ 1 := constantI S_ 1 1#1
  let main_v22 : IVec S_ 1 := (fun x v => Host.reduce IntOp.andi x v reducesTo_S528x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_v33

def fn {F : FTy → Type} [FloatOps F] (main_arg0 : FVec F S10000x256 .f32) (main_arg1 : IVec S2x160000 32) (main_arg2 : FVec F S160000x16 .f32) (main_arg3 : FVec F S528x256 .f32) (main_arg4 : FVec F S256 .f32) (main_arg5 : FVec F S528x256 .f32) (main_arg6 : FVec F S256 .f32) (main_arg7 : FVec F S256 .f32) (main_arg8 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x16 .f32 := Host.absf main_arg2
  let main_cst_0 : FVec F S_ .f32 := constant S_ .f32 0x7F800000#32
  let main_v5 : FVec F S160000x16 .f32 := broadcastInDim S160000x16 ![] bcast_S_S160000x16 main_cst_0
  let main_v6 : IVec S160000x16 1 := cmpf .olt main_v4 main_v5
  let main_c_1 : IVec S_ 1 := constantI S_ 1 1#1
  let main_v7 : IVec S_ 1 := (fun x v => Host.reduce IntOp.andi x v reducesTo_S160000x16_S_d0_1 h_S_) main_v6 main_c_1
  let main_v8 : IVec S_ 1 := andi main_v3 main_v7
  let main_v9 : FVec F S528x256 .f32 := Host.absf main_arg3
  let main_cst_2 : FVec F S_ .f32 := constant S_ .f32 0x7F800000#32
  let main_v10 : FVec F S528x256 .f32 := broadcastInDim S528x256 ![] bcast_S_S528x256 main_cst_2
  let main_v11 : IVec S528x256 1 := cmpf .olt main_v9 main_v10
  let main_c_3 : IVec S_ 1 := constantI S_ 1 1#1
  let main_v12 : IVec S_ 1 := (fun x v => Host.reduce IntOp.andi x v reducesTo_S528x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S10000x256 : Shape := ⟨2, ![10000, 256]⟩
abbrev S2x160000 : Shape := ⟨2, ![2, 160000]⟩
abbrev S160000x16 : Shape := ⟨2, ![160000, 16]⟩
abbrev S528x256 : Shape := ⟨2, ![528, 256]⟩
abbrev S256 : Shape := ⟨1, ![256]⟩
abbrev S1x160000 : Shape := ⟨2, ![1, 160000]⟩
abbrev S160000 : Shape := ⟨1, ![160000]⟩
abbrev S256x256 : Shape := ⟨2, ![256, 256]⟩
abbrev S256x512 : Shape := ⟨2, ![256, 512]⟩
abbrev S16x256 : Shape := ⟨2, ![16, 256]⟩
abbrev S16x512 : Shape := ⟨2, ![16, 512]⟩
abbrev S512 : Shape := ⟨1, ![512]⟩
abbrev S1x512 : Shape := ⟨2, ![1, 512]⟩
abbrev S10000x512 : Shape := ⟨2, ![10000, 512]⟩
abbrev S2000x256 : Shape := ⟨2, ![2000, 256]⟩
abbrev S2000x512 : Shape := ⟨2, ![2000, 512]⟩
abbrev S160000x512 : Shape := ⟨2, ![160000, 512]⟩
abbrev S2000x16 : Shape := ⟨2, ![2000, 16]⟩
abbrev S_ : Shape := ⟨0, ![]⟩
abbrev S160000x1 : Shape := ⟨2, ![160000, 1]⟩
abbrev S160000x256 : Shape := ⟨2, ![160000, 256]⟩
abbrev S2x256 : Shape := ⟨2, ![2, 256]⟩
abbrev S1x256 : Shape := ⟨2, ![1, 256]⟩

abbrev nBuf : Space → Nat
  | .hbm => 58
  | .vmem => 33
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x16, .f32⟩
  | .hbm, ⟨3, _⟩ => ⟨S528x256, .f32⟩
  | .hbm, ⟨4, _⟩ => ⟨S256, .f32⟩
  | .hbm, ⟨5, _⟩ => ⟨S528x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S256x256, .f32⟩
  | .hbm, ⟨14, _⟩ => ⟨S256x256, .f32⟩
  | .hbm, ⟨15, _⟩ => ⟨S256x512, .f32⟩
  | .hbm, ⟨16, _⟩ => ⟨S256x256, .f32⟩
  | .hbm, ⟨17, _⟩ => ⟨S256x256, .f32⟩
  | .hbm, ⟨18, _⟩ => ⟨S256x512, .f32⟩
  | .hbm, ⟨19, _⟩ => ⟨S16x256, .f32⟩
  | .hbm, ⟨20, _⟩ => ⟨S16x256, .f32⟩
  | .hbm, ⟨21, _⟩ => ⟨S16x512, .f32⟩
  | .hbm, ⟨22, _⟩ => ⟨S512, .f32⟩
  | .hbm, ⟨23, _⟩ => ⟨S1x512, .f32⟩
  | .hbm, ⟨24, _⟩ => ⟨S10000x512, .bf16⟩
  | .hbm, ⟨25, _⟩ => ⟨S10000x512, .bf16⟩
  | .hbm, ⟨26, _⟩ => ⟨S160000x512, .f32⟩
  | .hbm, ⟨27, _⟩ => ⟨S_, .i32⟩
  | .hbm, ⟨28, _⟩ => ⟨S160000, .i32⟩
  | .hbm, ⟨29, _⟩ => ⟨S160000, .i1⟩
  | .hbm, ⟨30, _⟩ => ⟨S_, .i32⟩
  | .hbm, ⟨31, _⟩ => ⟨S160000, .i32⟩
  | .hbm, ⟨32, _⟩ => ⟨S160000, .i32⟩
  | .hbm, ⟨33, _⟩ => ⟨S160000, .i32⟩
  | .hbm, ⟨34, _⟩ => ⟨S160000x1, .i32⟩
  | .hbm, ⟨35, _⟩ => ⟨S160000x512, .bf16⟩
  | .hbm, ⟨36, _⟩ => ⟨S160000x512, .f32⟩
  | .hbm, ⟨37, _⟩ => ⟨S_, .i32⟩
  | .hbm, ⟨38, _⟩ => ⟨S160000, .i32⟩
  | .hbm, ⟨39, _⟩ => ⟨S160000, .i1⟩
  | .hbm, ⟨40, _⟩ => ⟨S_, .i32⟩
  | .hbm, ⟨41, _⟩ => ⟨S160000, .i32⟩
  | .hbm, ⟨42, _⟩ => ⟨S160000, .i32⟩
  | .hbm, ⟨43, _⟩ => ⟨S160000, .i32⟩
  | .hbm, ⟨44, _⟩ => ⟨S160000x1, .i32⟩
  | .hbm, ⟨45, _⟩ => ⟨S160000x512, .bf16⟩
  | .hbm, ⟨46, _⟩ => ⟨S160000x512, .f32⟩
  | .hbm, ⟨47, _⟩ => ⟨S160000x512, .f32⟩
  | .hbm, ⟨48, _⟩ => ⟨S160000x512, .f32⟩
  | .hbm, ⟨49, _⟩ => ⟨S160000x256, .f32⟩
  | .hbm, ⟨50, _⟩ => ⟨S_, .f32⟩
  | .hbm, ⟨51, _⟩ => ⟨S10000x256, .f32⟩
  | .hbm, ⟨52, _⟩ => ⟨S160000x1, .i32⟩
  | .hbm, ⟨53, _⟩ => ⟨S10000x256, .f32⟩
  | .hbm, ⟨54, _⟩ => ⟨S2x256, .f32⟩
  | .hbm, ⟨55, _⟩ => ⟨S1x256, .f32⟩
  | .hbm, ⟨56, _⟩ => ⟨S1x256, .f32⟩
  | .hbm, ⟨57, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S2000x512, .bf16⟩
  | .local _ .vmem, ⟨6, _⟩ => ⟨S2000x512, .bf16⟩
  | .local _ .vmem, ⟨7, _⟩ => ⟨S2000x512, .bf16⟩
  | .local _ .vmem, ⟨8, _⟩ => ⟨S2000x512, .bf16⟩
  | .local _ .vmem, ⟨9, _⟩ => ⟨S2000x16, .f32⟩
  | .local _ .vmem, ⟨10, _⟩ => ⟨S2000x16, .f32⟩
  | .local _ .vmem, ⟨11, _⟩ => ⟨S16x512, .f32⟩
  | .local _ .vmem, ⟨12, _⟩ => ⟨S2000x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2x256, .f32⟩
  | .local _ .vmem, ⟨23, _⟩ => ⟨S2x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2x256, .f32⟩
  | .local _ .vmem, ⟨29, _⟩ => ⟨S1x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_c_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem5_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨1, ![5], ![false]⟩

def k3_cond3 (i : grid3.Coords) : BitVec 1 :=
  let arg0 : BitVec 32 := BitVec.ofNat 32 (i 0).val
  let c4_i32 : BitVec 32 := 4#32
  let v16 : BitVec 1 := Scalar.cmpi .eq arg0 c4_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  slices_S528x256_S256x256_0_0 : S528x256.Slices ![0, 0] S256x256
  concatenates_S256x256_S256x256_S256x512_d1 : Shape.Concatenates [S256x256, S256x256] S256x512 1
  slices_S528x256_S256x256_256_0 : S528x256.Slices ![256, 0] S256x256
  slices_S528x256_S16x256_512_0 : S528x256.Slices ![512, 0] S16x256
  concatenates_S16x256_S16x256_S16x512_d1 : Shape.Concatenates [S16x256, S16x256] S16x512 1
  concatenates_S256_S256_S512_d0 : Shape.Concatenates [S256, S256] S512 0
  shapeCasts_S512_S1x512 : S512.ShapeCasts S1x512
  inb_S2000x256_S2000x256_0_0 : ∀ a, (![0, 0] : Fin 2 → Nat) a + S2000x256.size a ≤ S2000x256.size a
  h_S2000x256 : 0 < S2000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  packedbf16_S2000x512_S2000x512_0_0 : (Rect.unit (s := S2000x512) ![0, 0] S2000x512.size inb_S2000x512_S2000x512_0_0).PackedRows (EltTy.packing .bf16)
  inb_S2000x16_S2000x16_0_0 : ∀ a, (![0, 0] : Fin 2 → Nat) a + S2000x16.size a ≤ S2000x16.size a
  h_S2000x16 : 0 < S2000x16.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  bcast_S_S160000 : S_.BroadcastsInDim S160000 (![] : Fin 0 → Fin S160000.rank)
  bcast_S160000_S160000x1_0 : S160000.BroadcastsInDim S160000x1 (![0] : Fin 1 → Fin S160000x1.rank)
  shapeCasts_S2000x512_S2000x512 : S2000x512.ShapeCasts S2000x512
  slices_S2000x512_o0_0_S2000x256 : S2000x512.Slices ![0, 0] S2000x256
  slices_S2000x512_o0_256_S2000x256 : S2000x512.Slices ![0, 256] S2000x256
  bcast_S_S10000x256 : S_.BroadcastsInDim S10000x256 (![] : Fin 0 → Fin S10000x256.rank)
  shapeCasts_S2000x256_S2000x256 : S2000x256.ShapeCasts S2000x256
  reduces_S2000x256_S256 : S2000x256.Reduces [0] S256
  shapeCasts_S256_S1x256 : S256.ShapeCasts S1x256
  concatenates_S1x256_S1x256_S2x256_d0 : Shape.Concatenates [S1x256, S1x256] S2x256 0
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S2x256_S1x256_0_0 : ∀ a, (![0, 0] : Fin 2 → Nat) a + S1x256.size a ≤ S2x256.size a
  h_S1x256 : 0 < S1x256.numel
  shapeCasts_S1x256_S1x256 : S1x256.ShapeCasts S1x256
  inb_S2x256_S1x256_1_0 : ∀ a, (![1, 0] : Fin 2 → Nat) a + S1x256.size a ≤ S2x256.size a
  broadcasts_S1x256_S2000x256 : S1x256.Broadcasts S2000x256
  inb_S1x256_S1x256_0_0 : ∀ a, (![0, 0] : Fin 2 → Nat) a + S1x256.size a ≤ S1x256.size a
  dot_S2000x256_S256x512_S2000x512_1_0_0_1_n_n_wf : DotDims.WF S2000x256 S256x512 S2000x512 [1] [0] [0] [1] [] []
  dot_S2000x16_S16x512_S2000x512_1_0_0_1_n_n_wf : DotDims.WF S2000x16 S16x512 S2000x512 [1] [0] [0] [1] [] []
  gather_S10000x512_S160000x1_S160000x512_1_0_n_n_0_1_1512_wf : GatherDims.WF S10000x512 S160000x1 S160000x512 [1] [0] [] [0] [] 1 ![1, 512]
  scatter_S10000x256_S160000x1_S160000x256_1_0_0_1_wf : ScatterDims.WF S10000x256 S160000x1 S160000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S10000x512.size a
  hwx0_4 : ∀ i : grid0.Coords, EltTy.bits .bf16 = 32 ∨ (Rect.block (s := S10000x512) S2000x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S10000x512.size a
  hwx0_5 : ∀ i : grid0.Coords, EltTy.bits .bf16 = 32 ∨ (Rect.block (s := S10000x512) S2000x512.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S160000x16.size a
  hwx1_0 : ∀ i : grid1.Coords, EltTy.bits .f32 = 32 ∨ (Rect.block (s := S160000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x512.size a ≤ S16x512.size a
  hwx1_1 : ∀ i : grid1.Coords, EltTy.bits .f32 = 32 ∨ (Rect.block (s := S16x512) S16x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S160000x512.size a
  hwx1_2 : ∀ i : grid1.Coords, EltTy.bits .f32 = 32 ∨ (Rect.block (s := S160000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S160000x512.size a
  hwx2_0 : ∀ i : grid2.Coords, EltTy.bits .f32 = 32 ∨ (Rect.block (s := S160000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S160000x256.size a
  hwx2_1 : ∀ i : grid2.Coords, EltTy.bits .f32 = 32 ∨ (Rect.block (s := S160000x256) S2000x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S10000x256.size a
  hwx3_0 : ∀ i : grid3.Coords, EltTy.bits .f32 = 32 ∨ (Rect.block (s := S10000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S10000x256.size a
  hwx3_1 : ∀ i : grid3.Coords, EltTy.bits .f32 = 32 ∨ (Rect.block (s := S10000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S2x256.size a ≤ S2x256.size a
  hwx3_2 : ∀ i : grid3.Coords, EltTy.bits .f32 = 32 ∨ (Rect.block (s := S2x256) S2x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S10000x256.size a
  hwx4_0 : ∀ i : grid4.Coords, EltTy.bits .f32 = 32 ∨ (Rect.block (s := S10000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S10000x256.size a
  hwx4_1 : ∀ i : grid4.Coords, EltTy.bits .f32 = 32 ∨ (Rect.block (s := S10000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x256.size a ≤ S2x256.size a
  hwx4_2 : ∀ i : grid4.Coords, EltTy.bits .f32 = 32 ∨ (Rect.block (s := S2x256) S2x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S10000x256.size a
  hwx4_5 : ∀ i : grid4.Coords, EltTy.bits .f32 = 32 ∨ (Rect.block (s := S10000x256) S2000x256.size (cc4_transform_5 i) (hinb4_5 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x16_S16x512_S2000x512_1_0_0_1_n_n : DotDims S2000x16 S16x512 S2000x512 where
  lhsContracting := [1]
  rhsContracting := [0]
  lhsNonContracting := [0]
  rhsNonContracting := [1]
  lhsBatch := []
  rhsBatch := []
  wf := dot_S2000x16_S16x512_S2000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S2000x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S16x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v38) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S2x256.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond3 i == 1#1) | ⟨_ + 3, h⟩ => absurd h (Nat.not_lt.2 (Nat.le_add_left _ _))

abbrev win4_0 : Pipeline.Window sig grid4 :=
  Pipeline.Window.ofSpec (Memref.whole main_v38) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S2x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v41) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v42) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S160000x16 : Shape := ⟨2, ![160000, 16]⟩
abbrev S528x256 : Shape := ⟨2, ![528, 256]⟩
abbrev S256 : Shape := ⟨1, ![256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x256 : Shape := ⟨2, ![160000, 256]⟩
abbrev S160000x528 : Shape := ⟨2, ![160000, 528]⟩
abbrev S1x256 : Shape := ⟨2, ![1, 256]⟩

abbrev nBuf : Space → Nat
  | .hbm => 122
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S160000x16, .f32⟩
  | .hbm, ⟨3, _⟩ => ⟨S528x256, .f32⟩
  | .hbm, ⟨4, _⟩ => ⟨S256, .f32⟩
  | .hbm, ⟨5, _⟩ => ⟨S528x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S_, .i32⟩
  | .hbm, ⟨14, _⟩ => ⟨S160000, .i32⟩
  | .hbm, ⟨15, _⟩ => ⟨S160000, .i1⟩
  | .hbm, ⟨16, _⟩ => ⟨S_, .i32⟩
  | .hbm, ⟨17, _⟩ => ⟨S160000, .i32⟩
  | .hbm, ⟨18, _⟩ => ⟨S160000, .i32⟩
  | .hbm, ⟨19, _⟩ => ⟨S160000, .i32⟩
  | .hbm, ⟨20, _⟩ => ⟨S160000x1, .i32⟩
  | .hbm, ⟨21, _⟩ => ⟨S160000x256, .f32⟩
  | .hbm, ⟨22, _⟩ => ⟨S_, .i32⟩
  | .hbm, ⟨23, _⟩ => ⟨S160000, .i32⟩
  | .hbm, ⟨24, _⟩ => ⟨S160000, .i1⟩
  | .hbm, ⟨25, _⟩ => ⟨S_, .i32⟩
  | .hbm, ⟨26, _⟩ => ⟨S160000, .i32⟩
  | .hbm, ⟨27, _⟩ => ⟨S160000, .i32⟩
  | .hbm, ⟨28, _⟩ => ⟨S160000, .i32⟩
  | .hbm, ⟨29, _⟩ => ⟨S160000x1, .i32⟩
  | .hbm, ⟨30, _⟩ => ⟨S160000x256, .f32⟩
  | .hbm, ⟨31, _⟩ => ⟨S160000x528, .f32⟩
  | .hbm, ⟨32, _⟩ => ⟨S160000x256, .f32⟩
  | .hbm, ⟨33, _⟩ => ⟨S1x256, .f32⟩
  | .hbm, ⟨34, _⟩ => ⟨S160000x256, .f32⟩
  | .hbm, ⟨35, _⟩ => ⟨S160000x256, .f32⟩
  | .hbm, ⟨36, _⟩ => ⟨S160000x256, .f32⟩
  | .hbm, ⟨37, _⟩ => ⟨S160000x256, .f32⟩
  | .hbm, ⟨38, _⟩ => ⟨S_, .f32⟩
  | .hbm, ⟨39, _⟩ => ⟨S160000x256, .f32⟩
  | .hbm, ⟨40, _⟩ => ⟨S160000x256, .f32⟩
  | .hbm, ⟨41, _⟩ => ⟨S_, .f32⟩
  | .hbm, ⟨42, _⟩ => ⟨S160000x256, .f32⟩
  | .hbm, ⟨43, _⟩ => ⟨S160000x256, .f32⟩
  | .hbm, ⟨44, _⟩ => ⟨S160000x256, .f32⟩
  | .hbm, ⟨45, _⟩ => ⟨S1x256, .f32⟩
  | .hbm, ⟨46, _⟩ => ⟨S160000x256, .f32⟩
  | .hbm, ⟨47, _⟩ => ⟨S160000x256, .f32⟩
  | .hbm, ⟨48, _⟩ => ⟨S_, .f32⟩
  | .hbm, ⟨49, _⟩ => ⟨S160000x256, .f32⟩
  | .hbm, ⟨50, _⟩ => ⟨S160000x256, .f32⟩
  | .hbm, ⟨51, _⟩ => ⟨S160000x256, .f32⟩
  | .hbm, ⟨52, _⟩ => ⟨S160000x256, .f32⟩
  | .hbm, ⟨53, _⟩ => ⟨S160000x256, .i1⟩
  | .hbm, ⟨54, _⟩ => ⟨S160000x256, .f32⟩
  | .hbm, ⟨55, _⟩ => ⟨S160000x256, .f32⟩
  | .hbm, ⟨56, _⟩ => ⟨S160000x256, .f32⟩
  | .hbm, ⟨57, _⟩ => ⟨S160000x256, .f32⟩
  | .hbm, ⟨58, _⟩ => ⟨S160000x256, .f32⟩
  | .hbm, ⟨59, _⟩ => ⟨S160000x256, .f32⟩
  | .hbm, ⟨60, _⟩ => ⟨S160000x256, .f32⟩
  | .hbm, ⟨61, _⟩ => ⟨S160000x256, .f32⟩
  | .hbm, ⟨62, _⟩ => ⟨S160000x256, .f32⟩
  | .hbm, ⟨63, _⟩ => ⟨S_, .f32⟩
  | .hbm, ⟨64, _⟩ => ⟨S10000x256, .f32⟩
  | .hbm, ⟨65, _⟩ => ⟨S160000x1, .i32⟩
  | .hbm, ⟨66, _⟩ => ⟨S10000x256, .f32⟩
  | .hbm, ⟨67, _⟩ => ⟨S10000x256, .f32⟩
  | .hbm, ⟨68, _⟩ => ⟨S_, .f32⟩
  | .hbm, ⟨69, _⟩ => ⟨S256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S_, .i32⟩
  | .hbm, ⟨74, _⟩ => ⟨S_, .f32⟩
  | .hbm, ⟨75, _⟩ => ⟨S256, .f32⟩
  | .hbm, ⟨76, _⟩ => ⟨S1x256, .f32⟩
  | .hbm, ⟨77, _⟩ => ⟨S_, .f32⟩
  | .hbm, ⟨78, _⟩ => ⟨S1x256, .f32⟩
  | .hbm, ⟨79, _⟩ => ⟨S1x256, .f32⟩
  | .hbm, ⟨80, _⟩ => ⟨S10000x256, .f32⟩
  | .hbm, ⟨81, _⟩ => ⟨S10000x256, .f32⟩
  | .hbm, ⟨82, _⟩ => ⟨S10000x256, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S_, .f32⟩
  | .hbm, ⟨91, _⟩ => ⟨S_, .i1⟩
  | .hbm, ⟨92, _⟩ => ⟨S_, .f32⟩
  | .hbm, ⟨93, _⟩ => ⟨S_, .f32⟩
  | .hbm, ⟨94, _⟩ => ⟨S256, .f32⟩
  | .hbm, ⟨95, _⟩ => ⟨S256, .f32⟩
  | .hbm, ⟨96, _⟩ => ⟨S1x256, .f32⟩
  | .hbm, ⟨97, _⟩ => ⟨S10000x256, .f32⟩
  | .hbm, ⟨98, _⟩ => ⟨S10000x256, .f32⟩
  | .hbm, ⟨99, _⟩ => ⟨S_, .f32⟩
  | .hbm, ⟨100, _⟩ => ⟨S256, .f32⟩
  | .hbm, ⟨101, _⟩ => ⟨S256, .f32⟩
  | .hbm, ⟨102, _⟩ => ⟨S256, .f32⟩
  | .hbm, ⟨103, _⟩ => ⟨S1x256, .f32⟩
  | .hbm, ⟨104, _⟩ => ⟨S10000x256, .f32⟩
  | .hbm, ⟨105, _⟩ => ⟨S10000x256, .f32⟩
  | .hbm, ⟨106, _⟩ => ⟨S1x256, .f32⟩
  | .hbm, ⟨107, _⟩ => ⟨S10000x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S10000x256, .f32⟩
  | .hbm, ⟨113, _⟩ => ⟨S10000x256, .f32⟩
  | .hbm, ⟨114, _⟩ => ⟨S_, .f32⟩
  | .hbm, ⟨115, _⟩ => ⟨S10000x256, .f32⟩
  | .hbm, ⟨116, _⟩ => ⟨S10000x256, .f32⟩
  | .hbm, ⟨117, _⟩ => ⟨S_, .f32⟩
  | .hbm, ⟨118, _⟩ => ⟨S10000x256, .f32⟩
  | .hbm, ⟨119, _⟩ => ⟨S10000x256, .f32⟩
  | .hbm, ⟨120, _⟩ => ⟨S10000x256, .f32⟩
  | .hbm, ⟨121, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_5 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_c_7 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_cst_3 : Ref sig .tc := ⟨.hbm, 90, rfl⟩
abbrev main_call1_v12 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_8 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_call2_v0 : Ref sig .tc := ⟨.hbm, 112, rfl⟩
abbrev main_call2_v1 : Ref sig .tc := ⟨.hbm, 113, rfl⟩
abbrev main_call2_cst : Ref sig .tc := ⟨.hbm, 114, rfl⟩
abbrev main_call2_v2 : Ref sig .tc := ⟨.hbm, 115, rfl⟩
abbrev main_call2_v3 : Ref sig .tc := ⟨.hbm, 116, rfl⟩
abbrev main_call2_cst_0 : Ref sig .tc := ⟨.hbm, 117, rfl⟩
abbrev main_call2_v4 : Ref sig .tc := ⟨.hbm, 118, rfl⟩
abbrev main_call2_v5 : Ref sig .tc := ⟨.hbm, 119, rfl⟩
abbrev main_v58 : Ref sig .tc := ⟨.hbm, 120, rfl⟩
abbrev main_v59 : Ref sig .tc := ⟨.hbm, 121, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x256_S160000x256_S160000x16_S160000x528_d1 : Shape.Concatenates [S160000x256, S160000x256, S160000x16] S160000x528 1
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  bcast_S_S160000x256 : S_.BroadcastsInDim S160000x256 (![] : Fin 0 → Fin S160000x256.rank)
  bcast_S_S10000x256 : S_.BroadcastsInDim S10000x256 (![] : Fin 0 → Fin S10000x256.rank)
  reducesTo_S10000x256_S256_d0 : S10000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S1x256_S10000x256_0_1 : S1x256.BroadcastsInDim S10000x256 (![0, 1] : Fin 2 → Fin S10000x256.rank)
  gather_S10000x256_S160000x1_S160000x256_1_0_n_n_0_1_1256_wf : GatherDims.WF S10000x256 S160000x1 S160000x256 [1] [0] [] [0] [] 1 ![1, 256]
  dot_S160000x528_S528x256_S160000x256_1_0_0_1_n_n_wf : DotDims.WF S160000x528 S528x256 S160000x256 [1] [0] [0] [1] [] []
  scatter_S10000x256_S160000x1_S160000x256_1_0_0_1_wf : ScatterDims.WF S10000x256 S160000x1 S160000x256 [1] [0] [0] 1

variable [Facts₀]

def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def dot_S160000x528_S528x256_S160000x256_1_0_0_1_n_n : DotDims S160000x528 S528x256 S160000x256 where
  lhsContracting := [1]
  rhsContracting := [0]
  lhsNonContracting := [0]
  rhsNonContracting := [1]
  lhsBatch := []
  rhsBatch := []
  wf := dot_S160000x528_S528x256_S160000x256_1_0_0_1_n_n_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf

class Facts : Prop extends Facts₀ where

variable [Facts]
-- ==== Proof.K.Reg0.lean ====
/- The node projection (the first pallas_call, grid of 5 points): at each point the body takes a block of 2000 rows of
   the node features x (2000 x 256) and the whole matrices Wg, Wh (256 x 512) and the bias row bg (1 x 512), and stores
   x·Wg + bg and x·Wh, each rounded to bf16, into two 2000 x 512 output blocks.
   This module states, at any region-entry contents `V`, what each window's staging buffer holds before and after the body at
   a point, proves the body's triple, and packs both into the pipeline's proof data and its body obligation. -/
import proofs.«151930_g64080912056811_cont_9to1c4b_125_51_alg».proof.Proof.Gen.Kernel.Launch
import proofs.«151930_g64080912056811_cont_9to1c4b_125_51_alg».proof.Proof.Gen.Kernel.Skeleton
import proofs.«151930_g64080912056811_cont_9to1c4b_125_51_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.Kernel.H

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The window of Wg holds the whole matrix at every point: fetched at the first point only, its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The window of Wh holds the whole matrix at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The window of the bias row holds the whole row at every point, for the same reason. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_0 : Rect S2000x256 := Rect.unit (s := S2000x256) ![0, 0] S2000x256.size inb_S2000x256_S2000x256_0_0
abbrev r0_1 : Rect S256x512 := Rect.unit (s := S256x512) ![0, 0] S256x512.size inb_S256x512_S256x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

/-! ## What the body leaves in each output window's buffer -/

/-- The first output's staging buffer after the body, from the blocks of x, Wg and bg: its one store. -/
def out0_4 (x0 : Vec F S2000x256 .f32) (x1 : Vec F S256x512 .f32) (x3 : Vec F S1x512 .f32) : Vec F S2000x512 .bf16 :=
  View.canon [⟨r0_3, k0_pay1 (View.ld x0 r0_0) (View.ld x1 r0_1) (View.ld x3 r0_2)⟩]

/-- The second output's staging buffer after the body, from the blocks of x and Wh: its one store. -/
def out0_5 (x0 : Vec F S2000x256 .f32) (x2 : Vec F S256x512 .f32) : Vec F S2000x512 .bf16 :=
  View.canon [⟨r0_3, k0_pay2 (View.ld x0 r0_0) (View.ld x2 r0_1)⟩]

/-- The one store covers the buffer. -/
theorem cover0_4 (p0 : Vec F S2000x512 .bf16) (y : S2000x512.Idx) :
    ∃ pc ∈ ([⟨r0_3, p0⟩] : List (View.Piece (Elt F) S2000x512 .bf16)), y ∈ pc.1.set :=
  View.cover_of_tiled [⟨r0_3, p0⟩] S2000x512.size (by rfl) y

/-! ## The body's triple -/

set_option maxHeartbeats 1000000 in
/-- The body on whole staging memrefs, the inputs' at contents `x0 … x3` and the outputs' at anything, runs to the
    continuation holding the inputs' as they were and the outputs' at `out0_4 x0 x1 x3` and `out0_5 x0 x2`. -/
theorem sound_kernel0 (c : Dev nD) (E : Set ℕ) (i : grid0.Coords)
    (arg1 : Memref sig .tc .vmem S2000x256 .f32) (harg1 : arg1.IsWhole) (arg2 : Memref sig .tc .vmem S256x512 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .bf16) (harg5 : arg5.IsWhole) (arg6 : Memref sig .tc .vmem S2000x512 .bf16) (harg6 : arg6.IsWhole)
    (x0 : Vec F S2000x256 .f32) (x1 : Vec F S256x512 .f32) (x2 : Vec F S256x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1 x3) ∗ owns (c : Thread nD τ) arg6 fullShare (out0_5 x0 x2)) -∗ K ⟨⟩))
      ⊢ wp frame (wpE (defs₀ (F := F)) Variants.none c none) E
          (cc0__proj_node_body i arg1 harg1 arg2 harg2 arg3 harg3 arg4 harg4 arg5 harg5 arg6 harg6) K := by
  simp only [cc0__proj_node_body_eq_skeleton]; unfold cc0__proj_node_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of the node projection on core `c`: the arrays as the region finds them; after the body at point `t`
    each input's buffer at its block and each output's at its product of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]
theorem after0_5 (c : Dev nD) (t : Fin cfg0.N) :
    (dat0 V c).after 5 t = out0_5 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.Reg1.lean ====
/- The edge projection (the second pallas_call, grid of 80 points): at each point the body multiplies a block of
   2000 rows of the edge attributes (2000 x 16) by the whole weight matrix (16 x 512) and stores the 2000 x 512 product.
   This module states, at any region-entry contents `V`, what each window's staging buffer holds before and after the body at
   a point, proves the body's triple, and packs both into the pipeline's proof data and its body obligation. -/
import proofs.«151930_g64080912056811_cont_9to1c4b_125_51_alg».proof.Proof.Gen.Kernel.Launch
import proofs.«151930_g64080912056811_cont_9to1c4b_125_51_alg».proof.Proof.Gen.Kernel.Skeleton
import proofs.«151930_g64080912056811_cont_9to1c4b_125_51_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.Kernel.H

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge-attribute window's current staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight matrix at every point: it is fetched at the first point only,
    its block index never moves, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S2000x16 := Rect.unit (s := S2000x16) ![0, 0] S2000x16.size inb_S2000x16_S2000x16_0_0
abbrev r1_1 : Rect S16x512 := Rect.unit (s := S16x512) ![0, 0] S16x512.size inb_S16x512_S16x512_0_0
abbrev r1_2 : Rect S2000x512 := Rect.unit (s := S2000x512) ![0, 0] S2000x512.size inb_S2000x512_S2000x512_0_0

/-! ## What the body leaves in the output window's buffer -/

/-- The product window's staging buffer after the body, from the two input blocks: its one store. -/
def out1_2 (x0 : Vec F S2000x16 .f32) (x1 : Vec F S16x512 .f32) : Vec F S2000x512 .f32 :=
  View.canon [⟨r1_2, k1_pay1 (View.ld x0 r1_0) (View.ld x1 r1_1)⟩]

/-- The one store covers the buffer. -/
theorem cover1_2 (p0 : Vec F S2000x512 .f32) (y : S2000x512.Idx) :
    ∃ pc ∈ ([⟨r1_2, p0⟩] : List (View.Piece (Elt F) S2000x512 .f32)), y ∈ pc.1.set :=
  View.cover_of_tiled [⟨r1_2, p0⟩] S2000x512.size (by rfl) y

/-! ## The body's triple -/

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords)
    (arg1 : Memref sig .tc .vmem S2000x16 .f32) (harg1 : arg1.IsWhole) (arg2 : Memref sig .tc .vmem S16x512 .f32) (harg2 : arg2.IsWhole)
    (arg3 : Memref sig .tc .vmem S2000x512 .f32) (harg3 : arg3.IsWhole)
    (x0 : Vec F S2000x16 .f32) (x1 : Vec F S16x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__proj_edge_body i arg1 harg1 arg2 harg2 arg3 harg3) K := by
  simp only [cc1__proj_edge_body_eq_skeleton]; unfold cc1__proj_edge_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the edge projection on core `c`: the arrays as the region finds them; after the body at point `t`
    each input's buffer at its block and the output's at the product of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.Reg2.lean ====
import proofs.«151930_g64080912056811_cont_9to1c4b_125_51_alg».proof.Proof.Gen.Kernel.Launch
import proofs.«151930_g64080912056811_cont_9to1c4b_125_51_alg».proof.Proof.Gen.Kernel.Skeleton
import proofs.«151930_g64080912056811_cont_9to1c4b_125_51_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.Kernel.H

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the edge activation, pointwise on a block of 2000 edge rows

The body reads the block `z` of shape 2000×512 of window 0, and stores into window 1's block of shape 2000×256 the
product `sigmoid(z[:, :256]) * softplus(z[:, 256:])`, entry by entry. Nothing is carried from point to point. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000×512 input block, as the one load reads it. -/
abbrev r2_in : Rect S2000x512 := Rect.unit (s := S2000x512) ![0, 0] S2000x512.size inb_S2000x512_S2000x512_0_0
/-- The whole 2000×256 output block, as the one store writes it. -/
abbrev r2_0 : Rect S2000x256 := Rect.unit (s := S2000x256) ![0, 0] S2000x256.size inb_S2000x256_S2000x256_0_0

/-! ## What the body leaves in the output window's buffer -/

/-- Window 1's staging buffer after the body, from the input block: its one store, of the payload of the one load. -/
def out2_1 (x0 : Vec F S2000x512 .f32) : Vec F S2000x256 .f32 :=
  View.canon [⟨r2_0, k2_pay1 (View.ld x0 r2_in)⟩]

/-- The one store tiles the buffer, so it covers it. -/
theorem cover2_1 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The body on whole staging memrefs, the input's at read contents `x0` and the output's at anything, runs to the
    continuation holding the input's as it was and the output's at `out2_1 x0`. -/
theorem sound_kernel2 (c : Dev nD) (E : Set ℕ) (i : grid2.Coords) (arg1 : Memref sig .tc .vmem S2000x512 .f32) (harg1 : arg1.IsWhole) (arg2 : Memref sig .tc .vmem S2000x256 .f32) (harg2 : arg2.IsWhole)
    (x0 : Vec F S2000x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__edge_act_body i arg1 harg1 arg2 harg2) K := by
  simp only [cc2__edge_act_body_eq_skeleton]; unfold cc2__edge_act_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them (`V`); after the body at point `t`
    the input's buffer at its block and the output's at `out2_1` of the input block; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Reg3.lean ====
import proofs.«151930_g64080912056811_cont_9to1c4b_125_51_alg».proof.Proof.Gen.Kernel.Launch
import proofs.«151930_g64080912056811_cont_9to1c4b_125_51_alg».proof.Proof.Gen.Kernel.Skeleton
import proofs.«151930_g64080912056811_cont_9to1c4b_125_51_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 3: the batch statistics

The region walks the 10000 x 256 array `conv = agg + x` in five blocks of 2000 rows. At each block it forms a
2 x 256 vector: row 0 the column sums of the block, row 1 the column sums of its entrywise square. A 2 x 256
scratch accumulator carries the running total from block to block: the first block overwrites it, each later block
adds to it, and at the last block the total is copied to the region's 2 x 256 output, which is written back to
its array only there. This module states what the accumulator holds after each block (`acc3`), carries that in
the region invariant, and proves the body's obligation block by block, in the three cases first / middle / last. -/

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The three conditions of the body, as the kernel computes them from the grid coordinate. -/
abbrev cond3_0 (i : grid3.Coords) : Prop := (Scalar.cmpi .ne (Scalar.extui (Scalar.cmpi .eq (BitVec.ofNat 32 (i 0).val) 0#32)) 0#32) = 1#1
abbrev cond3_1 (i : grid3.Coords) : Prop := (Scalar.cmpi .ne (Scalar.extui (Scalar.cmpi .sgt (BitVec.ofNat 32 (i 0).val) 0#32)) 0#32) = 1#1
abbrev cond3_2 (i : grid3.Coords) : Prop := k3_cond3 i = 1#1

/-- The whole-buffer rectangle of a 2 x 256 memref. -/
abbrev r3 : Rect S2x256 := Rect.unit (s := S2x256) ![0, 0] S2x256.size inb_S2x256_S2x256_0_0

theorem hz3 : (![0, 0] : Fin 2 → Nat) = fun _ => 0 := funext fun a => by fin_cases a <;> rfl

/-- One store through the whole-buffer rectangle covers the buffer. -/
theorem cover3 (p0 : Vec F S2x256 .f32) (y : S2x256.Idx) :
    ∃ pc ∈ ([⟨r3, p0⟩] : List (View.Piece (Elt F) S2x256 .f32)), y ∈ pc.1.set :=
  View.cover_of_tiled [⟨r3, p0⟩] S2x256.size (by rfl) y

set_option maxHeartbeats 1000000 in
/-- First point: the accumulator, holding anything, is overwritten with the block's statistics. -/
theorem sound_kernel3_A (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2x256 .f32) (harg3 : arg3.IsWhole) (arg4 : Memref sig .tc .vmem S2x256 .f32) (harg4 : arg4.IsWhole)
    (hc0 : cond3_0 i) (hc1 : ¬cond3_1 i) (hc2 : ¬cond3_2 i)
    (x0 x1 : Vec F S2000x256 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (k3_pay2 x0 x1)) -∗ K ⟨⟩))
      ⊢ wp frame (wpE (defs₀ (F := F)) Variants.none c none) E (cc3__stats_body i arg1 harg1 arg2 harg2 arg3 harg3 arg4 harg4) K := by
  simp only [cc3__stats_body_eq_skeleton]; unfold cc3__stats_body_skel
  unfold owns
  iintro ⟨⟨%f0, %hf0, H0⟩, ⟨%f1, %hf1, H1⟩, ⟨%ds0, %fs0, -, HS0⟩, Hk⟩
  subst hf0; subst hf1
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (cover3 _), View.canon_unit_zero hz3]
  simp only [View.readAt_eq_ld, View.ld_unit_zero (S := S2000x256) hz3]

set_option maxHeartbeats 1000000 in
/-- A middle point: the block's statistics are added to the accumulator. -/
theorem sound_kernel3_B (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2x256 .f32) (harg3 : arg3.IsWhole) (arg4 : Memref sig .tc .vmem S2x256 .f32) (harg4 : arg4.IsWhole)
    (hc0 : ¬cond3_0 i) (hc1 : cond3_1 i) (hc2 : ¬cond3_2 i)
    (x0 x1 : Vec F S2000x256 .f32) (xs : Vec F S2x256 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1 ∗ owns (c : Thread nD τ) arg4 fullShare (k3_pay3 x0 x1 xs)) -∗ K ⟨⟩))
      ⊢ wp frame (wpE (defs₀ (F := F)) Variants.none c none) E (cc3__stats_body i arg1 harg1 arg2 harg2 arg3 harg3 arg4 harg4) K := by
  simp only [cc3__stats_body_eq_skeleton]; unfold cc3__stats_body_skel
  unfold owns
  iintro ⟨⟨%f0, %hf0, H0⟩, ⟨%f1, %hf1, H1⟩, ⟨%fs0, %hfs0, HS0⟩, Hk⟩
  subst hf0; subst hf1; subst hfs0
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (cover3 _), View.canon_unit_zero hz3]
  simp only [View.readAt_eq_ld, View.ld_unit_zero (S := S2000x256) hz3, View.ld_unit_zero (S := S2x256) hz3]

set_option maxHeartbeats 1000000 in
/-- Last point: the block's statistics are added to the accumulator, which is then copied to the output block. -/
theorem sound_kernel3_C (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2x256 .f32) (harg3 : arg3.IsWhole) (arg4 : Memref sig .tc .vmem S2x256 .f32) (harg4 : arg4.IsWhole)
    (hc0 : ¬cond3_0 i) (hc1 : cond3_1 i) (hc2 : cond3_2 i)
    (x0 x1 : Vec F S2000x256 .f32) (xs : Vec F S2x256 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k3_pay3 x0 x1 xs) ∗ owns (c : Thread nD τ) arg4 fullShare (k3_pay3 x0 x1 xs)) -∗ K ⟨⟩))
      ⊢ wp frame (wpE (defs₀ (F := F)) Variants.none c none) E (cc3__stats_body i arg1 harg1 arg2 harg2 arg3 harg3 arg4 harg4) K := by
  simp only [cc3__stats_body_eq_skeleton]; unfold cc3__stats_body_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3 _), View.canon_unit_zero hz3, View.readCov_unit_zero (S := S2x256) _ hz3]
    simp only [View.readAt_eq_ld, View.ld_unit_zero (S := S2000x256) hz3, View.ld_unit_zero (S := S2x256) hz3]
  iexists _; isplitr
  swap; · iexact HS0
  ipureintro
  sl_unfold_words
  rw [View.read_writes_eq_canon _ _ _ (cover3 _), View.canon_unit_zero hz3]
  simp only [View.readAt_eq_ld, View.ld_unit_zero (S := S2000x256) hz3, View.ld_unit_zero (S := S2x256) hz3]

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- What the scratch accumulator holds after the body at position `n`: at the first point the block's
    statistics (column sums of `agg + x` and of its square), afterwards the previous contents plus the block's. -/
def acc3 (c : Dev nD) : (n : ℕ) → n < cfg3.N → Vec F S2x256 .f32
  | 0, h => k3_pay2 (iblk3 V c 0 ⟨0, h⟩) (iblk3 V c 1 ⟨0, h⟩)
  | n + 1, h => k3_pay3 (iblk3 V c 0 ⟨n + 1, h⟩) (iblk3 V c 1 ⟨n + 1, h⟩) (acc3 c n (Nat.lt_of_succ_lt h))

theorem acc3_first (c : Dev nD) (t : Fin cfg3.N) (h0 : t.val = 0) :
    acc3 V c t.val t.isLt = k3_pay2 (iblk3 V c 0 t) (iblk3 V c 1 t) := by
  obtain ⟨n, hn⟩ := t
  cases n with
  | zero => rfl
  | succ n => exact absurd h0 (Nat.succ_ne_zero n)

theorem acc3_pos (c : Dev nD) (t : Fin cfg3.N) (h0 : t.val ≠ 0) :
    acc3 V c t.val t.isLt = k3_pay3 (iblk3 V c 0 t) (iblk3 V c 1 t) (acc3 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: every scoped buffer other than the windows' staging buffers and the scratch
    accumulator at some contents, the generator register at some state, and the accumulator — before the first point
    at some contents, afterwards at what the point before left in it. -/
def PhiS3 (c : Dev nD) : (n : ℕ) → n ≤ cfg3.N → sProp 𝕄
  | 0, _ => iprop(Pipeline.scopedRestBut (Ix := Unit) (Name := ℕ) (U := UR sig nD τ) (Lvl := ℕ) (Val := Elt F) spec3 c [cc3_scratch0]
      ∗ (∃ r, prngReg c r) ∗ (∃ d, owns (c : Thread nD τ) (Memref.whole cc3_scratch0) fullShare d))
  | n + 1, hn => iprop(Pipeline.scopedRestBut (Ix := Unit) (Name := ℕ) (U := UR sig nD τ) (Lvl := ℕ) (Val := Elt F) spec3 c [cc3_scratch0]
      ∗ (∃ r, prngReg c r) ∗ owns (c : Thread nD τ) (Memref.whole cc3_scratch0) fullShare (acc3 V c n hn))

theorem PhiS3_zero (c : Dev nD) (n : ℕ) (h : n ≤ cfg3.N) (hz : n = 0) :
    PhiS3 V c n h = iprop(Pipeline.scopedRestBut (Ix := Unit) (Name := ℕ) (U := UR sig nD τ) (Lvl := ℕ) (Val := Elt F) spec3 c [cc3_scratch0]
      ∗ (∃ r, prngReg c r) ∗ (∃ d, owns (c : Thread nD τ) (Memref.whole cc3_scratch0) fullShare d)) := by
  subst hz; rfl

theorem PhiS3_succ (c : Dev nD) (n : ℕ) (hn : n < cfg3.N) :
    PhiS3 V c (n + 1) hn = iprop(Pipeline.scopedRestBut (Ix := Unit) (Name := ℕ) (U := UR sig nD τ) (Lvl := ℕ) (Val := Elt F) spec3 c [cc3_scratch0]
      ∗ (∃ r, prngReg c r) ∗ owns (c : Thread nD τ) (Memref.whole cc3_scratch0) fullShare (acc3 V c n hn)) := rfl

theorem PhiS3_pos (c : Dev nD) (n : ℕ) (h : n ≤ cfg3.N) (hz : n ≠ 0) :
    PhiS3 V c n h = iprop(Pipeline.scopedRestBut (Ix := Unit) (Name := ℕ) (U := UR sig nD τ) (Lvl := ℕ) (Val := Elt F) spec3 c [cc3_scratch0]
      ∗ (∃ r, prngReg c r) ∗ owns (c : Thread nD τ) (Memref.whole cc3_scratch0) fullShare (acc3 V c (n - 1) (by omega))) := by
  cases n with
  | zero => exact absurd rfl hz
  | succ n => rfl

/-! ## The pipeline's proof data -/

/-- The proof data of pipeline 3 on core `c`: the arrays as the region finds them; after the body at point `t`
    each input's buffer at its block and the output's at the accumulator's contents there (consulted at the last
    point only: elsewhere the window is idle); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_eq (c : Dev nD) (t : Fin (cfg3.N + 1)) : (dat3 V c).Φ t = PhiS3 V c t.val (Nat.le_of_lt_succ t.isLt) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The conditions in closed form, and where the output window is idle -/

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val ≠ 0 :=
  (by decide +kernel : ∀ t : Fin grid3.N, cond3_1 (grid3.coords t) ↔ t.val ≠ 0)
theorem hcond3_2 : ∀ t : Fin cfg3.N, cond3_2 (grid3.coords t) ↔ t.val = 4 :=
  (by decide +kernel : ∀ t : Fin grid3.N, cond3_2 (grid3.coords t) ↔ t.val = 4)
theorem idleAt3_2 : ∀ t : Fin cfg3.N, ¬cond3_2 (grid3.coords t) → cfg3.idle 2 (grid3.coords t) = true := by decide +kernel
theorem noFlush3_2 : ∀ t : Fin cfg3.N, ¬cond3_2 (grid3.coords t) → (cfg3.win 2).flush t = false := by decide +kernel
theorem liveAt3_2 : ∀ t : Fin cfg3.N, cond3_2 (grid3.coords t) → cfg3.idle 2 (grid3.coords t) = false := by decide +kernel

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (dat3 V c).leavesExact 2 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1]
  have hN : t.val < 5 := lt_of_lt_of_eq t.isLt (show cfg3.N = 5 from N_3)
  by_cases h0 : t.val = 0
  · have hc0 : cond3_0 (grid3.coords t) := (hcond3_0 t).mpr h0
    have hc1 : ¬cond3_1 (grid3.coords t) := fun h => (hcond3_1 t).mp h h0
    have hc2 : ¬cond3_2 (grid3.coords t) := fun h => by have := (hcond3_2 t).mp h; omega
    rw [Dat.leavesExact_idle (dat3 V c) 2 t (idleAt3_2 t hc2) (noFlush3_2 t hc2)]
    rw [PhiS3_castSucc V c t, PhiS3_zero V c _ _ h0, acc3_first V c t h0]
    iintro ⟨⟨Hrest, Hg, HS⟩, Ho, ⟨%d0, H0⟩, ⟨%d1, H1⟩, H2⟩
    iapply (sound_kernel3_A c Set.univ (grid3.coords t) _ _ _ _ _ _ _ _ hc0 hc1 hc2 (iblk3 V c 0 t) (iblk3 V c 1 t) _)
    isplitl [H0]; · iexact H0
    isplitl [H1]; · iexact H1
    isplitl [HS]; · iexact HS
    iintro ⟨H0, H1, HS⟩
    isplitl [Hrest Hg HS]
    · isplitl [Hrest]; · iexact Hrest
      isplitl [Hg]; · iexact Hg
      iexact HS
    isplitl [Ho]; · iexact Ho
    isplitl [H0]; · iexact H0
    isplitl [H1]; · iexact H1
    iexact H2
  · have hc0 : ¬cond3_0 (grid3.coords t) := fun h => h0 ((hcond3_0 t).mp h)
    have hc1 : cond3_1 (grid3.coords t) := (hcond3_1 t).mpr h0
    rw [PhiS3_castSucc V c t, PhiS3_pos V c _ _ h0, acc3_pos V c t h0]
    by_cases h4 : t.val = 4
    · have hc2 : cond3_2 (grid3.coords t) := (hcond3_2 t).mpr h4
      rw [show (dat3 V c).leavesExact 2 t = owns (c : Thread nD τ) (st3_2 t) fullShare ((dat3 V c).after 2 t) from by
        unfold Dat.leavesExact; rw [liveAt3_2 t hc2], after3_2, acc3_pos V c t h0]
      iintro ⟨⟨Hrest, Hg, HS⟩, Ho, ⟨%d0, H0⟩, ⟨%d1, H1⟩, ⟨%d2, H2⟩⟩
      iapply (sound_kernel3_C c Set.univ (grid3.coords t) _ _ _ _ _ _ _ _ hc0 hc1 hc2 (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [Hrest Hg HS]
      · isplitl [Hrest]; · iexact Hrest
        isplitl [Hg]; · iexact Hg
        iexact HS
      isplitl [Ho]; · iexact Ho
      isplitl [H0]; · iexact H0
      isplitl [H1]; · iexact H1
      iexact H2
    · have hc2 : ¬cond3_2 (grid3.coords t) := fun h => h4 ((hcond3_2 t).mp h)
      rw [Dat.leavesExact_idle (dat3 V c) 2 t (idleAt3_2 t hc2) (noFlush3_2 t hc2)]
      iintro ⟨⟨Hrest, Hg, HS⟩, Ho, ⟨%d0, H0⟩, ⟨%d1, H1⟩, H2⟩
      iapply (sound_kernel3_B c Set.univ (grid3.coords t) _ _ _ _ _ _ _ _ hc0 hc1 hc2 (iblk3 V c 0 t) (iblk3 V c 1 t) _ _)
      isplitl [H0]; · iexact H0
      isplitl [H1]; · iexact H1
      isplitl [HS]; · iexact HS
      iintro ⟨H0, H1, HS⟩
      isplitl [Hrest Hg HS]
      · isplitl [Hrest]; · iexact Hrest
        isplitl [Hg]; · iexact Hg
        iexact HS
      isplitl [Ho]; · iexact Ho
      isplitl [H0]; · iexact H0
      isplitl [H1]; · iexact H1
      iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

section Region3InOut
variable (V : (c : Dev nD) → (b : Ref sig .tc) → Buf (Elt F) ((c : Thread nD τ).loc b))

/-- ENTRY: the generator register and the scoped buffers no window stages (whatever rides between them is dropped)
    make the invariant before the first point: the scratch accumulator is split out of the scoped rest, at some contents. -/
theorem hin3 (c : Dev nD) (T : sProp 𝕄) :
    iprop(iprop(∃ r, prngReg c r) ∗ T ∗ Pipeline.scopedRest (Ix := Unit) (Name := ℕ) (U := UR sig nD τ) (Lvl := ℕ) (Val := Elt F) spec3 c) ⊢ (dat3 V c).Φ 0 := by
  rw [show (dat3 V c).Φ 0 = PhiS3 V c 0 (Nat.zero_le _) from rfl, PhiS3_zero V c 0 _ rfl, scopedRest3_split]
  simp only [owns_whole]
  iintro ⟨Hp, -, ⟨HS, Hrest⟩⟩
  isplitl [Hrest]; · iexact Hrest
  isplitl [Hp]; · iexact Hp
  iexact HS

/-- After any point but the first the invariant gives the scoped rest and the generator register back: the accumulator's
    named contents are forgotten. -/
theorem Phi3_out (c : Dev nD) (t : Fin (cfg3.N + 1)) (ht : t.val ≠ 0) :
    (dat3 V c).Φ t ⊢ iprop(iprop(∃ r, prngReg c r) ∗ Pipeline.scopedRest (Ix := Unit) (Name := ℕ) (U := UR sig nD τ) (Lvl := ℕ) (Val := Elt F) spec3 c) := by
  rw [Phi3_eq, PhiS3_pos V c _ _ ht, scopedRest3_split]
  simp only [owns_whole]
  iintro ⟨Hrest, Hg, HS⟩
  isplitl [Hg]; · iexact Hg
  isplitl [HS]; · iexists _; iexact HS
  iexact Hrest

/-- EXIT: the same after the last point, with nothing for the kernel's own semaphores (it has none). -/
theorem hout3 (c : Dev nD) :
    (dat3 V c).Φ (Fin.last cfg3.N) ⊢ iprop(iprop(∃ r, prngReg c r) ∗ BI.emp ∗ Pipeline.scopedRest (Ix := Unit) (Name := ℕ) (U := UR sig nD τ) (Lvl := ℕ) (Val := Elt F) spec3 c) := by
  refine (Phi3_out V c _ (by rw [Fin.val_last]; have : cfg3.N = 5 := N_3; omega)).trans ?_
  iintro ⟨Hg, Hrest⟩
  isplitl [Hg]; · iexact Hg
  isplitr; · iempintro
  iexact Hrest

end Region3InOut

end Cert.Kernel.H
end
-- ==== Proof.K.Reg4.lean ====
import proofs.«151930_g64080912056811_cont_9to1c4b_125_51_alg».proof.Proof.Gen.Kernel.Launch
import proofs.«151930_g64080912056811_cont_9to1c4b_125_51_alg».proof.Proof.Gen.Kernel.Skeleton
import proofs.«151930_g64080912056811_cont_9to1c4b_125_51_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.Kernel.H

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4: batch normalisation, SiLU and the residual, pointwise on a block of 2000 node rows

The body reads the blocks of the aggregate (window 0) and of the node features (window 1), both 2000×256, the two
rows of column statistics (window 2, 2×256: the column sums and the column sums of squares), the scale and the shift
(windows 3 and 4, 1×256), and stores into window 5's block `x + silu(normalised (agg + x) * gamma + beta)`, entry
by entry, the mean and variance of a column computed from the statistics' two rows. Windows 2, 3 and 4 have a constant
block index: the pipeline fetches them at the first point only, and they hold the same block at every point. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not (unfetched, the
    block index has not moved), for any proof data whose array is `V`'s (`hA`) and whose body leaves the block in
    place (`hafter`): the windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- A whole 2000×256 block: the loads of windows 0, 1 and 5, and the one store. -/
abbrev r4_0 : Rect S2000x256 := Rect.unit (s := S2000x256) ![0, 0] S2000x256.size inb_S2000x256_S2000x256_0_0
/-- Row 0 of the statistics: the column sums. -/
abbrev r4_s0 : Rect S2x256 := Rect.unit (s := S2x256) ![0, 0] S1x256.size inb_S2x256_S1x256_0_0
/-- Row 1 of the statistics: the column sums of squares. -/
abbrev r4_s1 : Rect S2x256 := Rect.unit (s := S2x256) ![1, 0] S1x256.size inb_S2x256_S1x256_1_0
/-- A whole 1×256 row: the loads of the scale and of the shift. -/
abbrev r4_g : Rect S1x256 := Rect.unit (s := S1x256) ![0, 0] S1x256.size inb_S1x256_S1x256_0_0

/-! ## What the body leaves in the output window's buffer -/

/-- Window 5's staging buffer after the body, from the input windows' blocks (`x0` the aggregate, `x1` the
    features, `x2` the statistics, `x3` the scale, `x4` the shift): its one store, of the payload of the loads. -/
def out4_5 (x0 : Vec F S2000x256 .f32) (x1 : Vec F S2000x256 .f32) (x2 : Vec F S2x256 .f32) (x3 : Vec F S1x256 .f32) (x4 : Vec F S1x256 .f32) : Vec F S2000x256 .f32 :=
  View.canon [⟨r4_0, k4_pay1 (View.ld x1 r4_0) (View.ld x0 r4_0) (View.ld x2 r4_s0) (View.ld x2 r4_s1) (View.ld x3 r4_g) (View.ld x4 r4_g)⟩]

/-- The one store tiles the buffer, so it covers it. -/
theorem cover4_5 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The body on whole staging memrefs, the inputs' at read contents `x0 … x4` and the output's at anything, runs to
    the continuation holding the inputs' as they were and the output's at `out4_5` of the inputs'. -/
theorem sound_kernel4 (c : Dev nD) (E : Set ℕ) (i : grid4.Coords) (arg1 : Memref sig .tc .vmem S2000x256 .f32) (harg1 : arg1.IsWhole) (arg2 : Memref sig .tc .vmem S2000x256 .f32) (harg2 : arg2.IsWhole) (arg3 : Memref sig .tc .vmem S2x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S2000x256 .f32) (x2 : Vec F S2x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__final_body i arg1 harg1 arg2 harg2 arg3 harg3 arg4 harg4 arg5 harg5 arg6 harg6) K := by
  simp only [cc4__final_body_eq_skeleton]; unfold cc4__final_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point `t`
    each input's buffer at its block and the output's at `out4_5` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.H

end
-- ==== Proof.K.Run.lean ====
/-
  The run of the kernel's @main: four stretches of host operations around five kernel regions. Each region is entered with
  the TensorCore's unscoped buffers whole at known contents and left with its output arrays at what its write-backs put
  there; the contents at the nine boundaries are a fold from the launch memory. From the run: the frame (no argument array
  changes) and the result array named as region 4's written-back output.
-/
import proofs.«151930_g64080912056811_cont_9to1c4b_125_51_alg».proof.Proof.K.Reg0
import proofs.«151930_g64080912056811_cont_9to1c4b_125_51_alg».proof.Proof.K.Reg1
import proofs.«151930_g64080912056811_cont_9to1c4b_125_51_alg».proof.Proof.K.Reg2
import proofs.«151930_g64080912056811_cont_9to1c4b_125_51_alg».proof.Proof.K.Reg3
import proofs.«151930_g64080912056811_cont_9to1c4b_125_51_alg».proof.Proof.K.Reg4
import proofs.«151930_g64080912056811_cont_9to1c4b_125_51_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

/-! # The run of @main: host stretches and kernel regions in order

The contents of the TensorCore's buffers at each boundary are a fold from the launch memory: a host stretch applies its
operations, a region replaces its windows' arrays by what its write-backs leave. -/

section Run
variable {F : FTy → Type} [FloatOps F]
local notation "𝕄" => MT nD τ sig Unit (Elt F) ℕ (UR sig nD τ) ℕ
variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev En0 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (En0 m) c).arrAt w cfg0.N
theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev Ex0 : (c : Dev nD) → (b : Ref sig .tc) → Buf (Elt F) ((c : Thread nD τ).loc b) := fun c b => W2 m c b
theorem hF0 (c : Dev nD) (w : Fin cfg0.W) : (dat0 (En0 m) c).arrAt w cfg0.N = Ex0 m c (Pipeline.arrRef spec0 w) :=
  (W2_arr m c w).symm
theorem hrest0 (c : Dev nD) : ∀ b, b ∉ Finset.univ.image (Pipeline.arrRef spec0) → Ex0 m c b = En0 m c b :=
  fun b hb => W2_of_ne m c b fun w e => hb (Finset.mem_image.mpr ⟨w, Finset.mem_univ _, e⟩)

abbrev En1 : (c : Dev nD) → (b : Ref sig .tc) → Buf (Elt F) ((c : Thread nD τ).loc b) := fun c b => W2 m c b

/-- At region 1's exit: its arrays at what the pipeline leaves, every other buffer as entered. -/
def W3 (c : Dev nD) : Valuation τ sig (Elt F) :=
  Pipeline.withArrays spec1 c (W2 m c) fun w => (dat1 (En1 m) c).arrAt w cfg1.N
theorem W3_arr (c : Dev nD) (w : Fin cfg1.W) :
    W3 m c (Proc.devRef .tc (Pipeline.arrRef spec1 w)) = (dat1 (En1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents). -/
abbrev Ex1 : (c : Dev nD) → (b : Ref sig .tc) → Buf (Elt F) ((c : Thread nD τ).loc b) := fun c b => W3 m c b
theorem hF1 (c : Dev nD) (w : Fin cfg1.W) : (dat1 (En1 m) c).arrAt w cfg1.N = Ex1 m c (Pipeline.arrRef spec1 w) :=
  (W3_arr m c w).symm
theorem hrest1 (c : Dev nD) : ∀ b, b ∉ Finset.univ.image (Pipeline.arrRef spec1) → Ex1 m c b = En1 m c b :=
  fun b hb => W3_of_ne m c b fun w e => hb (Finset.mem_image.mpr ⟨w, Finset.mem_univ _, e⟩)

/-- After the second host stretch (region 2's entry). -/
abbrev W4 : Dev nD → Valuation τ sig (Elt F) := fun c => StableHlo.after hostOps2 (W3 m c)
abbrev En2 : (c : Dev nD) → (b : Ref sig .tc) → Buf (Elt F) ((c : Thread nD τ).loc b) := fun c b => W4 m c b

/-- At region 2's exit: its arrays at what the pipeline leaves, every other buffer as entered. -/
def W5 (c : Dev nD) : Valuation τ sig (Elt F) :=
  Pipeline.withArrays spec2 c (W4 m c) fun w => (dat2 (En2 m) c).arrAt w cfg2.N
theorem W5_arr (c : Dev nD) (w : Fin cfg2.W) :
    W5 m c (Proc.devRef .tc (Pipeline.arrRef spec2 w)) = (dat2 (En2 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references (region 2's exit contents). -/
abbrev Ex2 : (c : Dev nD) → (b : Ref sig .tc) → Buf (Elt F) ((c : Thread nD τ).loc b) := fun c b => W5 m c b
theorem hF2 (c : Dev nD) (w : Fin cfg2.W) : (dat2 (En2 m) c).arrAt w cfg2.N = Ex2 m c (Pipeline.arrRef spec2 w) :=
  (W5_arr m c w).symm
theorem hrest2 (c : Dev nD) : ∀ b, b ∉ Finset.univ.image (Pipeline.arrRef spec2) → Ex2 m c b = En2 m c b :=
  fun b hb => W5_of_ne m c b fun w e => hb (Finset.mem_image.mpr ⟨w, Finset.mem_univ _, e⟩)

/-- After the third host stretch (region 3's entry). -/
abbrev W6 : Dev nD → Valuation τ sig (Elt F) := fun c => StableHlo.after hostOps3 (W5 m c)
abbrev En3 : (c : Dev nD) → (b : Ref sig .tc) → Buf (Elt F) ((c : Thread nD τ).loc b) := fun c b => W6 m c b

/-- At region 3's exit: its arrays at what the pipeline leaves, every other buffer as entered. -/
def W7 (c : Dev nD) : Valuation τ sig (Elt F) :=
  Pipeline.withArrays spec3 c (W6 m c) fun w => (dat3 (En3 m) c).arrAt w cfg3.N
theorem W7_arr (c : Dev nD) (w : Fin cfg3.W) :
    W7 m c (Proc.devRef .tc (Pipeline.arrRef spec3 w)) = (dat3 (En3 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references (region 3's exit contents). -/
abbrev Ex3 : (c : Dev nD) → (b : Ref sig .tc) → Buf (Elt F) ((c : Thread nD τ).loc b) := fun c b => W7 m c b
theorem hF3 (c : Dev nD) (w : Fin cfg3.W) : (dat3 (En3 m) c).arrAt w cfg3.N = Ex3 m c (Pipeline.arrRef spec3 w) :=
  (W7_arr m c w).symm
theorem hrest3 (c : Dev nD) : ∀ b, b ∉ Finset.univ.image (Pipeline.arrRef spec3) → Ex3 m c b = En3 m c b :=
  fun b hb => W7_of_ne m c b fun w e => hb (Finset.mem_image.mpr ⟨w, Finset.mem_univ _, e⟩)

/-- After the fourth host stretch (region 4's entry). -/
abbrev W8 : Dev nD → Valuation τ sig (Elt F) := fun c => StableHlo.after hostOps4 (W7 m c)
abbrev En4 : (c : Dev nD) → (b : Ref sig .tc) → Buf (Elt F) ((c : Thread nD τ).loc b) := fun c b => W8 m c b

/-- At region 4's exit: its arrays at what the pipeline leaves, every other buffer as entered. -/
def W9 (c : Dev nD) : Valuation τ sig (Elt F) :=
  Pipeline.withArrays spec4 c (W8 m c) fun w => (dat4 (En4 m) c).arrAt w cfg4.N
theorem W9_arr (c : Dev nD) (w : Fin cfg4.W) :
    W9 m c (Proc.devRef .tc (Pipeline.arrRef spec4 w)) = (dat4 (En4 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- The same read at the TensorCore's references (region 4's exit contents). -/
abbrev Ex4 : (c : Dev nD) → (b : Ref sig .tc) → Buf (Elt F) ((c : Thread nD τ).loc b) := fun c b => W9 m c b
theorem hF4 (c : Dev nD) (w : Fin cfg4.W) : (dat4 (En4 m) c).arrAt w cfg4.N = Ex4 m c (Pipeline.arrRef spec4 w) :=
  (W9_arr m c w).symm
theorem hrest4 (c : Dev nD) : ∀ b, b ∉ Finset.univ.image (Pipeline.arrRef spec4) → Ex4 m c b = En4 m c b :=
  fun b hb => W9_of_ne m c b fun w e => hb (Finset.mem_image.mpr ⟨w, Finset.mem_univ _, e⟩)

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (En0 m c) (Ex0 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (En1 m c) (Ex1 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ LH lvH 2 fun _ _ => rfl
  pre c := iprop(StableHlo.held (c : Thread nD τ) (Pipeline.ucRefs τ sig) (W4 m c) ∗ RH c)
  post c := iprop(StableHlo.held (c : Thread nD τ) (Pipeline.ucRefs τ sig) (W5 m c) ∗ RH c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (En2 m c) (Ex2 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ LH lvH 3 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (En3 m) c _
  hout c := by rw [Pipeline.ownSems0_none]; exact hout3 (En3 m) c
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (En3 m c) (Ex3 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ LH lvH 4 fun _ _ => rfl
  pre c := iprop(StableHlo.held (c : Thread nD τ) (Pipeline.ucRefs τ sig) (W8 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (En4 m c) (Ex4 m c) ((pdatsH m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (W0 m)),
    .region (reg0 m),
    .region (reg1 m),
    .host (hsegH hostOps2 hostOps2_sub hostOps2_fresh (W3 m)),
    .region (reg2 m),
    .host (hsegH hostOps3 hostOps3_sub hostOps3_fresh (W5 m)),
    .region (reg3 m),
    .host (hsegH hostOps4 hostOps4_sub hostOps4_fresh (W7 m)),
    .region (reg4 m) ]
theorem main_run (c : Dev nD) : main (F := F) c = Pipeline.Seg.run (segsH m) := (main_chain c).trans (by chain_rfl)

set_option backward.isDefEq.respectTransparency.types false in
/-- Every weakly fair execution of @main terminates, nothing faulting, and the final memory holds every unscoped buffer of
    core `c` at the last boundary's contents `W9`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Run

/-! ## No segment changes an argument array -/
section Args
variable {F : FTy → Type} [FloatOps F]
variable (m : (ℓ : Loc nD τ sig) → Buf (Elt F) ℓ)

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W4_keep (c : Dev nD) (b : Ref sig .tc) (h : b ∉ hostOps2_W) : W4 m c (Proc.devRef .tc b) = W3 m c (Proc.devRef .tc b) :=
  StableHlo.after_of_writes_sub hostOps2 _ hostOps2_writes h
theorem W6_keep (c : Dev nD) (b : Ref sig .tc) (h : b ∉ hostOps3_W) : W6 m c (Proc.devRef .tc b) = W5 m c (Proc.devRef .tc b) :=
  StableHlo.after_of_writes_sub hostOps3 _ hostOps3_writes h
theorem W8_keep (c : Dev nD) (b : Ref sig .tc) (h : b ∉ hostOps4_W) : W8 m c (Proc.devRef .tc b) = W7 m c (Proc.devRef .tc b) :=
  StableHlo.after_of_writes_sub hostOps4 _ hostOps4_writes h
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (En0 m) c).arrAt_in w hin _).trans (A_eq0 (En0 m) c w))
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (En1 m) c).arrAt_in w hin _).trans (A_eq1 (En1 m) c w))
theorem W5_in (c : Dev nD) (w : Fin cfg2.W) (hin : (cfg2.win w).isOut = false) :
    W5 m c (Proc.devRef .tc (Pipeline.arrRef spec2 w)) = W4 m c (Proc.devRef .tc (Pipeline.arrRef spec2 w)) :=
  (W5_arr m c w).trans (((dat2 (En2 m) c).arrAt_in w hin _).trans (A_eq2 (En2 m) c w))
theorem W7_in (c : Dev nD) (w : Fin cfg3.W) (hin : (cfg3.win w).isOut = false) :
    W7 m c (Proc.devRef .tc (Pipeline.arrRef spec3 w)) = W6 m c (Proc.devRef .tc (Pipeline.arrRef spec3 w)) :=
  (W7_arr m c w).trans (((dat3 (En3 m) c).arrAt_in w hin _).trans (A_eq3 (En3 m) c w))
theorem W9_in (c : Dev nD) (w : Fin cfg4.W) (hin : (cfg4.win w).isOut = false) :
    W9 m c (Proc.devRef .tc (Pipeline.arrRef spec4 w)) = W8 m c (Proc.devRef .tc (Pipeline.arrRef spec4 w)) :=
  (W9_arr m c w).trans (((dat4 (En4 m) c).arrAt_in w hin _).trans (A_eq4 (En4 m) c w))
theorem W9_main_arg0 (c : Dev nD) : W9 m c (Proc.devRef .tc main_arg0) = m ((c : Thread nD τ).loc main_arg0) :=
  (W9_in m c 1 rfl).trans <| (W8_keep m c main_arg0 (by decide)).trans <| (W7_in m c 1 rfl).trans <| (W6_keep m c main_arg0 (by decide)).trans <| (W5_of_ne m c main_arg0 (by decide)).trans <| (W4_keep m c main_arg0 (by decide)).trans <| (W3_of_ne m c main_arg0 (by decide)).trans <| (W2_in m c 0 rfl).trans <| (W1_keep m c main_arg0 (by decide)).trans <| rfl
theorem W9_main_arg1 (c : Dev nD) : W9 m c (Proc.devRef .tc main_arg1) = m ((c : Thread nD τ).loc main_arg1) :=
  (W9_of_ne m c main_arg1 (by decide)).trans <| (W8_keep m c main_arg1 (by decide)).trans <| (W7_of_ne m c main_arg1 (by decide)).trans <| (W6_keep m c main_arg1 (by decide)).trans <| (W5_of_ne m c main_arg1 (by decide)).trans <| (W4_keep m c main_arg1 (by decide)).trans <| (W3_of_ne m c main_arg1 (by decide)).trans <| (W2_of_ne m c main_arg1 (by decide)).trans <| (W1_keep m c main_arg1 (by decide)).trans <| rfl
theorem W9_main_arg2 (c : Dev nD) : W9 m c (Proc.devRef .tc main_arg2) = m ((c : Thread nD τ).loc main_arg2) :=
  (W9_of_ne m c main_arg2 (by decide)).trans <| (W8_keep m c main_arg2 (by decide)).trans <| (W7_of_ne m c main_arg2 (by decide)).trans <| (W6_keep m c main_arg2 (by decide)).trans <| (W5_of_ne m c main_arg2 (by decide)).trans <| (W4_keep m c main_arg2 (by decide)).trans <| (W3_in m c 0 rfl).trans <| (W2_of_ne m c main_arg2 (by decide)).trans <| (W1_keep m c main_arg2 (by decide)).trans <| rfl
theorem W9_main_arg3 (c : Dev nD) : W9 m c (Proc.devRef .tc main_arg3) = m ((c : Thread nD τ).loc main_arg3) :=
  (W9_of_ne m c main_arg3 (by decide)).trans <| (W8_keep m c main_arg3 (by decide)).trans <| (W7_of_ne m c main_arg3 (by decide)).trans <| (W6_keep m c main_arg3 (by decide)).trans <| (W5_of_ne m c main_arg3 (by decide)).trans <| (W4_keep m c main_arg3 (by decide)).trans <| (W3_of_ne m c main_arg3 (by decide)).trans <| (W2_of_ne m c main_arg3 (by decide)).trans <| (W1_keep m c main_arg3 (by decide)).trans <| rfl
theorem W9_main_arg4 (c : Dev nD) : W9 m c (Proc.devRef .tc main_arg4) = m ((c : Thread nD τ).loc main_arg4) :=
  (W9_of_ne m c main_arg4 (by decide)).trans <| (W8_keep m c main_arg4 (by decide)).trans <| (W7_of_ne m c main_arg4 (by decide)).trans <| (W6_keep m c main_arg4 (by decide)).trans <| (W5_of_ne m c main_arg4 (by decide)).trans <| (W4_keep m c main_arg4 (by decide)).trans <| (W3_of_ne m c main_arg4 (by decide)).trans <| (W2_of_ne m c main_arg4 (by decide)).trans <| (W1_keep m c main_arg4 (by decide)).trans <| rfl
theorem W9_main_arg5 (c : Dev nD) : W9 m c (Proc.devRef .tc main_arg5) = m ((c : Thread nD τ).loc main_arg5) :=
  (W9_of_ne m c main_arg5 (by decide)).trans <| (W8_keep m c main_arg5 (by decide)).trans <| (W7_of_ne m c main_arg5 (by decide)).trans <| (W6_keep m c main_arg5 (by decide)).trans <| (W5_of_ne m c main_arg5 (by decide)).trans <| (W4_keep m c main_arg5 (by decide)).trans <| (W3_of_ne m c main_arg5 (by decide)).trans <| (W2_of_ne m c main_arg5 (by decide)).trans <| (W1_keep m c main_arg5 (by decide)).trans <| rfl
theorem W9_main_arg6 (c : Dev nD) : W9 m c (Proc.devRef .tc main_arg6) = m ((c : Thread nD τ).loc main_arg6) :=
  (W9_of_ne m c main_arg6 (by decide)).trans <| (W8_keep m c main_arg6 (by decide)).trans <| (W7_of_ne m c main_arg6 (by decide)).trans <| (W6_keep m c main_arg6 (by decide)).trans <| (W5_of_ne m c main_arg6 (by decide)).trans <| (W4_keep m c main_arg6 (by decide)).trans <| (W3_of_ne m c main_arg6 (by decide)).trans <| (W2_of_ne m c main_arg6 (by decide)).trans <| (W1_keep m c main_arg6 (by decide)).trans <| rfl
theorem W9_main_arg7 (c : Dev nD) : W9 m c (Proc.devRef .tc main_arg7) = m ((c : Thread nD τ).loc main_arg7) :=
  (W9_of_ne m c main_arg7 (by decide)).trans <| (W8_keep m c main_arg7 (by decide)).trans <| (W7_of_ne m c main_arg7 (by decide)).trans <| (W6_keep m c main_arg7 (by decide)).trans <| (W5_of_ne m c main_arg7 (by decide)).trans <| (W4_keep m c main_arg7 (by decide)).trans <| (W3_of_ne m c main_arg7 (by decide)).trans <| (W2_of_ne m c main_arg7 (by decide)).trans <| (W1_keep m c main_arg7 (by decide)).trans <| rfl
theorem W9_main_arg8 (c : Dev nD) : W9 m c (Proc.devRef .tc main_arg8) = m ((c : Thread nD τ).loc main_arg8) :=
  (W9_of_ne m c main_arg8 (by decide)).trans <| (W8_keep m c main_arg8 (by decide)).trans <| (W7_of_ne m c main_arg8 (by decide)).trans <| (W6_keep m c main_arg8 (by decide)).trans <| (W5_of_ne m c main_arg8 (by decide)).trans <| (W4_keep m c main_arg8 (by decide)).trans <| (W3_of_ne m c main_arg8 (by decide)).trans <| (W2_of_ne m c main_arg8 (by decide)).trans <| (W1_keep m c main_arg8 (by decide)).trans <| rfl

/-- The frame: every weakly fair execution terminates, nothing faulting, each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c)⟩) (run_all m ρ)

/-- The run with the result array named: what region 4's write-backs leave in its output window's array. -/
theorem run_result (ρ : Dev nD → PrngReg) : θ_run defs (onTc (τ := τ) (main (F := F))) ⟨m, fun _ => 0, ρ⟩ (fun r => ∀ c : Dev nD,
      r.2.mem ((c.tc : Thread nD τ).loc main_v42) = (dat4 (En4 m) c).arrAt 5 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v42 (by decide))).trans (W9_arr m c 5),
    (h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c)⟩) (run_all m ρ)
end Args

end Cert.Kernel.H

end
-- ==== Proof.KI.Reg0.lean ====
/- The node projection (the first pallas_call, grid of 5 points): at each point the body takes a block of 2000 rows of
   the node features x (2000 x 256) and the whole matrices Wg, Wh (256 x 512) and the bias row bg (1 x 512), and stores
   x·Wg + bg and x·Wh, each rounded to bf16, into two 2000 x 512 output blocks.
   This module states, at any region-entry contents `V`, what each window's staging buffer holds before and after the body at
   a point, proves the body's triple, and packs both into the pipeline's proof data and its body obligation. -/
import proofs.«151930_g64080912056811_cont_9to1c4b_125_51_alg».proof.Proof.Gen.KernelIdeal.Launch
import proofs.«151930_g64080912056811_cont_9to1c4b_125_51_alg».proof.Proof.Gen.KernelIdeal.Skeleton
import proofs.«151930_g64080912056811_cont_9to1c4b_125_51_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.KernelIdeal.H

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The window of Wg holds the whole matrix at every point: fetched at the first point only, its block index never moves, and the body leaves it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The window of Wh holds the whole matrix at every point, for the same reason. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The window of the bias row holds the whole row at every point, for the same reason. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole staging buffer -/

abbrev r0_0 : Rect S2000x256 := Rect.unit (s := S2000x256) ![0, 0] S2000x256.size inb_S2000x256_S2000x256_0_0
abbrev r0_1 : Rect S256x512 := Rect.unit (s := S256x512) ![0, 0] S256x512.size inb_S256x512_S256x512_0_0
abbrev r0_2 : Rect S1x512 := Rect.unit (s := S1x512) ![0, 0] S1x512.size inb_S1x512_S1x512_0_0
abbrev r0_3 : Rect S2000x512 := Rect.unit (s := S2000x512) ![0, 0] S2000x512.size inb_S2000x512_S2000x512_0_0

/-! ## What the body leaves in each output window's buffer -/

/-- The first output's staging buffer after the body, from the blocks of x, Wg and bg: its one store. -/
def out0_4 (x0 : Vec F S2000x256 .f32) (x1 : Vec F S256x512 .f32) (x3 : Vec F S1x512 .f32) : Vec F S2000x512 .bf16 :=
  View.canon [⟨r0_3, k0_pay1 (View.ld x0 r0_0) (View.ld x1 r0_1) (View.ld x3 r0_2)⟩]

/-- The second output's staging buffer after the body, from the blocks of x and Wh: its one store. -/
def out0_5 (x0 : Vec F S2000x256 .f32) (x2 : Vec F S256x512 .f32) : Vec F S2000x512 .bf16 :=
  View.canon [⟨r0_3, k0_pay2 (View.ld x0 r0_0) (View.ld x2 r0_1)⟩]

/-- The one store covers the buffer. -/
theorem cover0_4 (p0 : Vec F S2000x512 .bf16) (y : S2000x512.Idx) :
    ∃ pc ∈ ([⟨r0_3, p0⟩] : List (View.Piece (Elt F) S2000x512 .bf16)), y ∈ pc.1.set :=
  View.cover_of_tiled [⟨r0_3, p0⟩] S2000x512.size (by rfl) y

/-! ## The body's triple -/

set_option maxHeartbeats 1000000 in
/-- The body on whole staging memrefs, the inputs' at contents `x0 … x3` and the outputs' at anything, runs to the
    continuation holding the inputs' as they were and the outputs' at `out0_4 x0 x1 x3` and `out0_5 x0 x2`. -/
theorem sound_kernel0 (c : Dev nD) (E : Set ℕ) (i : grid0.Coords)
    (arg1 : Memref sig .tc .vmem S2000x256 .f32) (harg1 : arg1.IsWhole) (arg2 : Memref sig .tc .vmem S256x512 .f32) (harg2 : arg2.IsWhole)
    (arg3 : Memref sig .tc .vmem S256x512 .f32) (harg3 : arg3.IsWhole) (arg4 : Memref sig .tc .vmem S1x512 .f32) (harg4 : arg4.IsWhole)
    (arg5 : Memref sig .tc .vmem S2000x512 .bf16) (harg5 : arg5.IsWhole) (arg6 : Memref sig .tc .vmem S2000x512 .bf16) (harg6 : arg6.IsWhole)
    (x0 : Vec F S2000x256 .f32) (x1 : Vec F S256x512 .f32) (x2 : Vec F S256x512 .f32) (x3 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1 x3) ∗ owns (c : Thread nD τ) arg6 fullShare (out0_5 x0 x2)) -∗ K ⟨⟩))
      ⊢ wp frame (wpE (defs₀ (F := F)) Variants.none c none) E
          (cc0__proj_node_body i arg1 harg1 arg2 harg2 arg3 harg3 arg4 harg4 arg5 harg5 arg6 harg6) K := by
  simp only [cc0__proj_node_body_eq_skeleton]; unfold cc0__proj_node_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_4 _)

/-! ## The pipeline's proof data -/

/-- The proof data of the node projection on core `c`: the arrays as the region finds them; after the body at point `t`
    each input's buffer at its block and each output's at its product of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 3 t)
    | ⟨5, _⟩ => out0_5 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 3 t) := by dsimp only [dat0]
theorem after0_5 (c : Dev nD) (t : Fin cfg0.N) :
    (dat0 V c).after 5 t = out0_5 (iblk0 V c 0 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.Reg1.lean ====
/- The edge projection (the second pallas_call, grid of 80 points): at each point the body multiplies a block of
   2000 rows of the edge attributes (2000 x 16) by the whole weight matrix (16 x 512) and stores the 2000 x 512 product.
   This module states, at any region-entry contents `V`, what each window's staging buffer holds before and after the body at
   a point, proves the body's triple, and packs both into the pipeline's proof data and its body obligation. -/
import proofs.«151930_g64080912056811_cont_9to1c4b_125_51_alg».proof.Proof.Gen.KernelIdeal.Launch
import proofs.«151930_g64080912056811_cont_9to1c4b_125_51_alg».proof.Proof.Gen.KernelIdeal.Skeleton
import proofs.«151930_g64080912056811_cont_9to1c4b_125_51_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a rectangle of these extents recurses once per coordinate of the long axis
set_option maxRecDepth 16384

noncomputable section

namespace Cert.KernelIdeal.H

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge-attribute window's current staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight matrix at every point: it is fetched at the first point only,
    its block index never moves, and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole staging buffer -/

abbrev r1_0 : Rect S2000x16 := Rect.unit (s := S2000x16) ![0, 0] S2000x16.size inb_S2000x16_S2000x16_0_0
abbrev r1_1 : Rect S16x512 := Rect.unit (s := S16x512) ![0, 0] S16x512.size inb_S16x512_S16x512_0_0
abbrev r1_2 : Rect S2000x512 := Rect.unit (s := S2000x512) ![0, 0] S2000x512.size inb_S2000x512_S2000x512_0_0

/-! ## What the body leaves in the output window's buffer -/

/-- The product window's staging buffer after the body, from the two input blocks: its one store. -/
def out1_2 (x0 : Vec F S2000x16 .f32) (x1 : Vec F S16x512 .f32) : Vec F S2000x512 .f32 :=
  View.canon [⟨r1_2, k1_pay1 (View.ld x0 r1_0) (View.ld x1 r1_1)⟩]

/-- The one store covers the buffer. -/
theorem cover1_2 (p0 : Vec F S2000x512 .f32) (y : S2000x512.Idx) :
    ∃ pc ∈ ([⟨r1_2, p0⟩] : List (View.Piece (Elt F) S2000x512 .f32)), y ∈ pc.1.set :=
  View.cover_of_tiled [⟨r1_2, p0⟩] S2000x512.size (by rfl) y

/-! ## The body's triple -/

set_option maxHeartbeats 1000000 in
/-- The body on whole staging memrefs, the inputs' at contents `x0`, `x1` and the output's at anything, runs to the
    continuation holding the inputs' as they were and the output's at `out1_2 x0 x1`. -/
theorem sound_kernel1 (c : Dev nD) (E : Set ℕ) (i : grid1.Coords)
    (arg1 : Memref sig .tc .vmem S2000x16 .f32) (harg1 : arg1.IsWhole) (arg2 : Memref sig .tc .vmem S16x512 .f32) (harg2 : arg2.IsWhole)
    (arg3 : Memref sig .tc .vmem S2000x512 .f32) (harg3 : arg3.IsWhole)
    (x0 : Vec F S2000x16 .f32) (x1 : Vec F S16x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__proj_edge_body i arg1 harg1 arg2 harg2 arg3 harg3) K := by
  simp only [cc1__proj_edge_body_eq_skeleton]; unfold cc1__proj_edge_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the edge projection on core `c`: the arrays as the region finds them; after the body at point `t`
    each input's buffer at its block and the output's at the product of the two blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.Reg2.lean ====
import proofs.«151930_g64080912056811_cont_9to1c4b_125_51_alg».proof.Proof.Gen.KernelIdeal.Launch
import proofs.«151930_g64080912056811_cont_9to1c4b_125_51_alg».proof.Proof.Gen.KernelIdeal.Skeleton
import proofs.«151930_g64080912056811_cont_9to1c4b_125_51_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.KernelIdeal.H

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 2: the edge activation, pointwise on a block of 2000 edge rows

The body reads the block `z` of shape 2000×512 of window 0, and stores into window 1's block of shape 2000×256 the
product `sigmoid(z[:, :256]) * softplus(z[:, 256:])`, entry by entry. Nothing is carried from point to point. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, for any proof data whose array is
    `V`'s (`hA`) and whose body leaves the block in place (`hafter`): the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 2000×512 input block, as the one load reads it. -/
abbrev r2_in : Rect S2000x512 := Rect.unit (s := S2000x512) ![0, 0] S2000x512.size inb_S2000x512_S2000x512_0_0
/-- The whole 2000×256 output block, as the one store writes it. -/
abbrev r2_0 : Rect S2000x256 := Rect.unit (s := S2000x256) ![0, 0] S2000x256.size inb_S2000x256_S2000x256_0_0

/-! ## What the body leaves in the output window's buffer -/

/-- Window 1's staging buffer after the body, from the input block: its one store, of the payload of the one load. -/
def out2_1 (x0 : Vec F S2000x512 .f32) : Vec F S2000x256 .f32 :=
  View.canon [⟨r2_0, k2_pay1 (View.ld x0 r2_in)⟩]

/-- The one store tiles the buffer, so it covers it. -/
theorem cover2_1 (p0 : Vec F S2000x256 .f32) (y : S2000x256.Idx) :
    ∃ pc ∈ ([⟨r2_0, p0⟩] : List (View.Piece (Elt F) S2000x256 .f32)), y ∈ pc.1.set :=
  View.cover_of_tiled [⟨r2_0, p0⟩] S2000x256.size (by rfl) y

/-! ## The body's triple -/

set_option maxHeartbeats 1000000 in
/-- The body on whole staging memrefs, the input's at read contents `x0` and the output's at anything, runs to the
    continuation holding the input's as it was and the output's at `out2_1 x0`. -/
theorem sound_kernel2 (c : Dev nD) (E : Set ℕ) (i : grid2.Coords) (arg1 : Memref sig .tc .vmem S2000x512 .f32) (harg1 : arg1.IsWhole) (arg2 : Memref sig .tc .vmem S2000x256 .f32) (harg2 : arg2.IsWhole)
    (x0 : Vec F S2000x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2__edge_act_body i arg1 harg1 arg2 harg2) K := by
  simp only [cc2__edge_act_body_eq_skeleton]; unfold cc2__edge_act_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-! ## The pipeline's proof data -/

/-- The proof data of pipeline 2 on core `c`: the arrays as the region finds them (`V`); after the body at point `t`
    the input's buffer at its block and the output's at `out2_1` of the input block; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

/-- The input's current staging buffer holds its block at every point. -/
theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

/-- The body at any point: the input's memref holds its block, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ (grid2.coords t) _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Reg3.lean ====
import proofs.«151930_g64080912056811_cont_9to1c4b_125_51_alg».proof.Proof.Gen.KernelIdeal.Launch
import proofs.«151930_g64080912056811_cont_9to1c4b_125_51_alg».proof.Proof.Gen.KernelIdeal.Skeleton
import proofs.«151930_g64080912056811_cont_9to1c4b_125_51_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # Region 3: the batch statistics

The region walks the 10000 x 256 array `conv = agg + x` in five blocks of 2000 rows. At each block it forms a
2 x 256 vector: row 0 the column sums of the block, row 1 the column sums of its entrywise square. A 2 x 256
scratch accumulator carries the running total from block to block: the first block overwrites it, each later block
adds to it, and at the last block the total is copied to the region's 2 x 256 output, which is written back to
its array only there. This module states what the accumulator holds after each block (`acc3`), carries that in
the region invariant, and proves the body's obligation block by block, in the three cases first / middle / last. -/

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The three conditions of the body, as the kernel computes them from the grid coordinate. -/
abbrev cond3_0 (i : grid3.Coords) : Prop := (Scalar.cmpi .ne (Scalar.extui (Scalar.cmpi .eq (BitVec.ofNat 32 (i 0).val) 0#32)) 0#32) = 1#1
abbrev cond3_1 (i : grid3.Coords) : Prop := (Scalar.cmpi .ne (Scalar.extui (Scalar.cmpi .sgt (BitVec.ofNat 32 (i 0).val) 0#32)) 0#32) = 1#1
abbrev cond3_2 (i : grid3.Coords) : Prop := k3_cond3 i = 1#1

/-- The whole-buffer rectangle of a 2 x 256 memref. -/
abbrev r3 : Rect S2x256 := Rect.unit (s := S2x256) ![0, 0] S2x256.size inb_S2x256_S2x256_0_0

theorem hz3 : (![0, 0] : Fin 2 → Nat) = fun _ => 0 := funext fun a => by fin_cases a <;> rfl

/-- One store through the whole-buffer rectangle covers the buffer. -/
theorem cover3 (p0 : Vec F S2x256 .f32) (y : S2x256.Idx) :
    ∃ pc ∈ ([⟨r3, p0⟩] : List (View.Piece (Elt F) S2x256 .f32)), y ∈ pc.1.set :=
  View.cover_of_tiled [⟨r3, p0⟩] S2x256.size (by rfl) y

set_option maxHeartbeats 1000000 in
/-- First point: the accumulator, holding anything, is overwritten with the block's statistics. -/
theorem sound_kernel3_A (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2x256 .f32) (harg3 : arg3.IsWhole) (arg4 : Memref sig .tc .vmem S2x256 .f32) (harg4 : arg4.IsWhole)
    (hc0 : cond3_0 i) (hc1 : ¬cond3_1 i) (hc2 : ¬cond3_2 i)
    (x0 x1 : Vec F S2000x256 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (k3_pay2 x0 x1)) -∗ K ⟨⟩))
      ⊢ wp frame (wpE (defs₀ (F := F)) Variants.none c none) E (cc3__stats_body i arg1 harg1 arg2 harg2 arg3 harg3 arg4 harg4) K := by
  simp only [cc3__stats_body_eq_skeleton]; unfold cc3__stats_body_skel
  unfold owns
  iintro ⟨⟨%f0, %hf0, H0⟩, ⟨%f1, %hf1, H1⟩, ⟨%ds0, %fs0, -, HS0⟩, Hk⟩
  subst hf0; subst hf1
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (cover3 _), View.canon_unit_zero hz3]
  simp only [View.readAt_eq_ld, View.ld_unit_zero (S := S2000x256) hz3]

set_option maxHeartbeats 1000000 in
/-- A middle point: the block's statistics are added to the accumulator. -/
theorem sound_kernel3_B (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2x256 .f32) (harg3 : arg3.IsWhole) (arg4 : Memref sig .tc .vmem S2x256 .f32) (harg4 : arg4.IsWhole)
    (hc0 : ¬cond3_0 i) (hc1 : cond3_1 i) (hc2 : ¬cond3_2 i)
    (x0 x1 : Vec F S2000x256 .f32) (xs : Vec F S2x256 .f32) (K : PUnit → sProp 𝕄) :
    iprop(owns (c : Thread nD τ) arg1 fullShare x0 ∗ owns (c : Thread nD τ) arg2 fullShare x1 ∗ owns (c : Thread nD τ) arg4 fullShare xs
        ∗ (iprop(owns (c : Thread nD τ) arg1 fullShare x0 ∗ owns (c : Thread nD τ) arg2 fullShare x1 ∗ owns (c : Thread nD τ) arg4 fullShare (k3_pay3 x0 x1 xs)) -∗ K ⟨⟩))
      ⊢ wp frame (wpE (defs₀ (F := F)) Variants.none c none) E (cc3__stats_body i arg1 harg1 arg2 harg2 arg3 harg3 arg4 harg4) K := by
  simp only [cc3__stats_body_eq_skeleton]; unfold cc3__stats_body_skel
  unfold owns
  iintro ⟨⟨%f0, %hf0, H0⟩, ⟨%f1, %hf1, H1⟩, ⟨%fs0, %hfs0, HS0⟩, Hk⟩
  subst hf0; subst hf1; subst hfs0
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (cover3 _), View.canon_unit_zero hz3]
  simp only [View.readAt_eq_ld, View.ld_unit_zero (S := S2000x256) hz3, View.ld_unit_zero (S := S2x256) hz3]

set_option maxHeartbeats 1000000 in
/-- Last point: the block's statistics are added to the accumulator, which is then copied to the output block. -/
theorem sound_kernel3_C (c : Dev nD) (E : Set ℕ) (i : grid3.Coords)
    (arg1 : Memref sig .tc .vmem S2000x256 .f32) (harg1 : arg1.IsWhole) (arg2 : Memref sig .tc .vmem S2000x256 .f32) (harg2 : arg2.IsWhole)
    (arg3 : Memref sig .tc .vmem S2x256 .f32) (harg3 : arg3.IsWhole) (arg4 : Memref sig .tc .vmem S2x256 .f32) (harg4 : arg4.IsWhole)
    (hc0 : ¬cond3_0 i) (hc1 : cond3_1 i) (hc2 : cond3_2 i)
    (x0 x1 : Vec F S2000x256 .f32) (xs : Vec F S2x256 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k3_pay3 x0 x1 xs) ∗ owns (c : Thread nD τ) arg4 fullShare (k3_pay3 x0 x1 xs)) -∗ K ⟨⟩))
      ⊢ wp frame (wpE (defs₀ (F := F)) Variants.none c none) E (cc3__stats_body i arg1 harg1 arg2 harg2 arg3 harg3 arg4 harg4) K := by
  simp only [cc3__stats_body_eq_skeleton]; unfold cc3__stats_body_skel
  unfold owns
  iintro ⟨⟨%f0, %hf0, H0⟩, ⟨%f1, %hf1, H1⟩, ⟨%d2, %f2, -, H2⟩, ⟨%fs0, %hfs0, HS0⟩, Hk⟩
  subst hf0; subst hf1; subst hfs0
  sl_exec (disch := first | exact hc0 | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover3 _), View.canon_unit_zero hz3, View.readCov_unit_zero (S := S2x256) _ hz3]
    simp only [View.readAt_eq_ld, View.ld_unit_zero (S := S2000x256) hz3, View.ld_unit_zero (S := S2x256) hz3]
  iexists _; isplitr
  swap; · iexact HS0
  ipureintro
  sl_unfold_words
  rw [View.read_writes_eq_canon _ _ _ (cover3 _), View.canon_unit_zero hz3]
  simp only [View.readAt_eq_ld, View.ld_unit_zero (S := S2000x256) hz3, View.ld_unit_zero (S := S2x256) hz3]

section Region3
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The accumulator, point by point -/

/-- What the scratch accumulator holds after the body at position `n`: at the first point the block's
    statistics (column sums of `agg + x` and of its square), afterwards the previous contents plus the block's. -/
def acc3 (c : Dev nD) : (n : ℕ) → n < cfg3.N → Vec F S2x256 .f32
  | 0, h => k3_pay2 (iblk3 V c 0 ⟨0, h⟩) (iblk3 V c 1 ⟨0, h⟩)
  | n + 1, h => k3_pay3 (iblk3 V c 0 ⟨n + 1, h⟩) (iblk3 V c 1 ⟨n + 1, h⟩) (acc3 c n (Nat.lt_of_succ_lt h))

theorem acc3_first (c : Dev nD) (t : Fin cfg3.N) (h0 : t.val = 0) :
    acc3 V c t.val t.isLt = k3_pay2 (iblk3 V c 0 t) (iblk3 V c 1 t) := by
  obtain ⟨n, hn⟩ := t
  cases n with
  | zero => rfl
  | succ n => exact absurd h0 (Nat.succ_ne_zero n)

theorem acc3_pos (c : Dev nD) (t : Fin cfg3.N) (h0 : t.val ≠ 0) :
    acc3 V c t.val t.isLt = k3_pay3 (iblk3 V c 0 t) (iblk3 V c 1 t) (acc3 V c (t.val - 1) (Nat.lt_of_le_of_lt (Nat.sub_le _ _) t.isLt)) := by
  obtain ⟨n, hn⟩ := t
  cases n with
  | zero => exact absurd rfl h0
  | succ n => rfl

/-! ## The region invariant -/

/-- The invariant before position `n`: every scoped buffer other than the windows' staging buffers and the scratch
    accumulator at some contents, the generator register at some state, and the accumulator — before the first point
    at some contents, afterwards at what the point before left in it. -/
def PhiS3 (c : Dev nD) : (n : ℕ) → n ≤ cfg3.N → sProp 𝕄
  | 0, _ => iprop(Pipeline.scopedRestBut (Ix := Unit) (Name := ℕ) (U := UR sig nD τ) (Lvl := ℕ) (Val := Elt F) spec3 c [cc3_scratch0]
      ∗ (∃ r, prngReg c r) ∗ (∃ d, owns (c : Thread nD τ) (Memref.whole cc3_scratch0) fullShare d))
  | n + 1, hn => iprop(Pipeline.scopedRestBut (Ix := Unit) (Name := ℕ) (U := UR sig nD τ) (Lvl := ℕ) (Val := Elt F) spec3 c [cc3_scratch0]
      ∗ (∃ r, prngReg c r) ∗ owns (c : Thread nD τ) (Memref.whole cc3_scratch0) fullShare (acc3 V c n hn))

theorem PhiS3_zero (c : Dev nD) (n : ℕ) (h : n ≤ cfg3.N) (hz : n = 0) :
    PhiS3 V c n h = iprop(Pipeline.scopedRestBut (Ix := Unit) (Name := ℕ) (U := UR sig nD τ) (Lvl := ℕ) (Val := Elt F) spec3 c [cc3_scratch0]
      ∗ (∃ r, prngReg c r) ∗ (∃ d, owns (c : Thread nD τ) (Memref.whole cc3_scratch0) fullShare d)) := by
  subst hz; rfl

theorem PhiS3_succ (c : Dev nD) (n : ℕ) (hn : n < cfg3.N) :
    PhiS3 V c (n + 1) hn = iprop(Pipeline.scopedRestBut (Ix := Unit) (Name := ℕ) (U := UR sig nD τ) (Lvl := ℕ) (Val := Elt F) spec3 c [cc3_scratch0]
      ∗ (∃ r, prngReg c r) ∗ owns (c : Thread nD τ) (Memref.whole cc3_scratch0) fullShare (acc3 V c n hn)) := rfl

theorem PhiS3_pos (c : Dev nD) (n : ℕ) (h : n ≤ cfg3.N) (hz : n ≠ 0) :
    PhiS3 V c n h = iprop(Pipeline.scopedRestBut (Ix := Unit) (Name := ℕ) (U := UR sig nD τ) (Lvl := ℕ) (Val := Elt F) spec3 c [cc3_scratch0]
      ∗ (∃ r, prngReg c r) ∗ owns (c : Thread nD τ) (Memref.whole cc3_scratch0) fullShare (acc3 V c (n - 1) (by omega))) := by
  cases n with
  | zero => exact absurd rfl hz
  | succ n => rfl

/-! ## The pipeline's proof data -/

/-- The proof data of pipeline 3 on core `c`: the arrays as the region finds them; after the body at point `t`
    each input's buffer at its block and the output's at the accumulator's contents there (consulted at the last
    point only: elsewhere the window is idle); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_eq (c : Dev nD) (t : Fin (cfg3.N + 1)) : (dat3 V c).Φ t = PhiS3 V c t.val (Nat.le_of_lt_succ t.isLt) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The conditions in closed form, and where the output window is idle -/

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val ≠ 0 :=
  (by decide +kernel : ∀ t : Fin grid3.N, cond3_1 (grid3.coords t) ↔ t.val ≠ 0)
theorem hcond3_2 : ∀ t : Fin cfg3.N, cond3_2 (grid3.coords t) ↔ t.val = 4 :=
  (by decide +kernel : ∀ t : Fin grid3.N, cond3_2 (grid3.coords t) ↔ t.val = 4)
theorem idleAt3_2 : ∀ t : Fin cfg3.N, ¬cond3_2 (grid3.coords t) → cfg3.idle 2 (grid3.coords t) = true := by decide +kernel
theorem noFlush3_2 : ∀ t : Fin cfg3.N, ¬cond3_2 (grid3.coords t) → (cfg3.win 2).flush t = false := by decide +kernel
theorem liveAt3_2 : ∀ t : Fin cfg3.N, cond3_2 (grid3.coords t) → cfg3.idle 2 (grid3.coords t) = false := by decide +kernel

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (dat3 V c).leavesExact 2 t)

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [after3_0, after3_1]
  have hN : t.val < 5 := lt_of_lt_of_eq t.isLt (show cfg3.N = 5 from N_3)
  by_cases h0 : t.val = 0
  · have hc0 : cond3_0 (grid3.coords t) := (hcond3_0 t).mpr h0
    have hc1 : ¬cond3_1 (grid3.coords t) := fun h => (hcond3_1 t).mp h h0
    have hc2 : ¬cond3_2 (grid3.coords t) := fun h => by have := (hcond3_2 t).mp h; omega
    rw [Dat.leavesExact_idle (dat3 V c) 2 t (idleAt3_2 t hc2) (noFlush3_2 t hc2)]
    rw [PhiS3_castSucc V c t, PhiS3_zero V c _ _ h0, acc3_first V c t h0]
    iintro ⟨⟨Hrest, Hg, HS⟩, Ho, ⟨%d0, H0⟩, ⟨%d1, H1⟩, H2⟩
    iapply (sound_kernel3_A c Set.univ (grid3.coords t) _ _ _ _ _ _ _ _ hc0 hc1 hc2 (iblk3 V c 0 t) (iblk3 V c 1 t) _)
    isplitl [H0]; · iexact H0
    isplitl [H1]; · iexact H1
    isplitl [HS]; · iexact HS
    iintro ⟨H0, H1, HS⟩
    isplitl [Hrest Hg HS]
    · isplitl [Hrest]; · iexact Hrest
      isplitl [Hg]; · iexact Hg
      iexact HS
    isplitl [Ho]; · iexact Ho
    isplitl [H0]; · iexact H0
    isplitl [H1]; · iexact H1
    iexact H2
  · have hc0 : ¬cond3_0 (grid3.coords t) := fun h => h0 ((hcond3_0 t).mp h)
    have hc1 : cond3_1 (grid3.coords t) := (hcond3_1 t).mpr h0
    rw [PhiS3_castSucc V c t, PhiS3_pos V c _ _ h0, acc3_pos V c t h0]
    by_cases h4 : t.val = 4
    · have hc2 : cond3_2 (grid3.coords t) := (hcond3_2 t).mpr h4
      rw [show (dat3 V c).leavesExact 2 t = owns (c : Thread nD τ) (st3_2 t) fullShare ((dat3 V c).after 2 t) from by
        unfold Dat.leavesExact; rw [liveAt3_2 t hc2], after3_2, acc3_pos V c t h0]
      iintro ⟨⟨Hrest, Hg, HS⟩, Ho, ⟨%d0, H0⟩, ⟨%d1, H1⟩, ⟨%d2, H2⟩⟩
      iapply (sound_kernel3_C c Set.univ (grid3.coords t) _ _ _ _ _ _ _ _ hc0 hc1 hc2 (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [Hrest Hg HS]
      · isplitl [Hrest]; · iexact Hrest
        isplitl [Hg]; · iexact Hg
        iexact HS
      isplitl [Ho]; · iexact Ho
      isplitl [H0]; · iexact H0
      isplitl [H1]; · iexact H1
      iexact H2
    · have hc2 : ¬cond3_2 (grid3.coords t) := fun h => h4 ((hcond3_2 t).mp h)
      rw [Dat.leavesExact_idle (dat3 V c) 2 t (idleAt3_2 t hc2) (noFlush3_2 t hc2)]
      iintro ⟨⟨Hrest, Hg, HS⟩, Ho, ⟨%d0, H0⟩, ⟨%d1, H1⟩, H2⟩
      iapply (sound_kernel3_B c Set.univ (grid3.coords t) _ _ _ _ _ _ _ _ hc0 hc1 hc2 (iblk3 V c 0 t) (iblk3 V c 1 t) _ _)
      isplitl [H0]; · iexact H0
      isplitl [H1]; · iexact H1
      isplitl [HS]; · iexact HS
      iintro ⟨H0, H1, HS⟩
      isplitl [Hrest Hg HS]
      · isplitl [Hrest]; · iexact Hrest
        isplitl [Hg]; · iexact Hg
        iexact HS
      isplitl [Ho]; · iexact Ho
      isplitl [H0]; · iexact H0
      isplitl [H1]; · iexact H1
      iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

section Region3InOut
variable (V : (c : Dev nD) → (b : Ref sig .tc) → Buf (Elt F) ((c : Thread nD τ).loc b))

/-- ENTRY: the generator register and the scoped buffers no window stages (whatever rides between them is dropped)
    make the invariant before the first point: the scratch accumulator is split out of the scoped rest, at some contents. -/
theorem hin3 (c : Dev nD) (T : sProp 𝕄) :
    iprop(iprop(∃ r, prngReg c r) ∗ T ∗ Pipeline.scopedRest (Ix := Unit) (Name := ℕ) (U := UR sig nD τ) (Lvl := ℕ) (Val := Elt F) spec3 c) ⊢ (dat3 V c).Φ 0 := by
  rw [show (dat3 V c).Φ 0 = PhiS3 V c 0 (Nat.zero_le _) from rfl, PhiS3_zero V c 0 _ rfl, scopedRest3_split]
  simp only [owns_whole]
  iintro ⟨Hp, -, ⟨HS, Hrest⟩⟩
  isplitl [Hrest]; · iexact Hrest
  isplitl [Hp]; · iexact Hp
  iexact HS

/-- After any point but the first the invariant gives the scoped rest and the generator register back: the accumulator's
    named contents are forgotten. -/
theorem Phi3_out (c : Dev nD) (t : Fin (cfg3.N + 1)) (ht : t.val ≠ 0) :
    (dat3 V c).Φ t ⊢ iprop(iprop(∃ r, prngReg c r) ∗ Pipeline.scopedRest (Ix := Unit) (Name := ℕ) (U := UR sig nD τ) (Lvl := ℕ) (Val := Elt F) spec3 c) := by
  rw [Phi3_eq, PhiS3_pos V c _ _ ht, scopedRest3_split]
  simp only [owns_whole]
  iintro ⟨Hrest, Hg, HS⟩
  isplitl [Hg]; · iexact Hg
  isplitl [HS]; · iexists _; iexact HS
  iexact Hrest

/-- EXIT: the same after the last point, with nothing for the kernel's own semaphores (it has none). -/
theorem hout3 (c : Dev nD) :
    (dat3 V c).Φ (Fin.last cfg3.N) ⊢ iprop(iprop(∃ r, prngReg c r) ∗ BI.emp ∗ Pipeline.scopedRest (Ix := Unit) (Name := ℕ) (U := UR sig nD τ) (Lvl := ℕ) (Val := Elt F) spec3 c) := by
  refine (Phi3_out V c _ (by rw [Fin.val_last]; have : cfg3.N = 5 := N_3; omega)).trans ?_
  iintro ⟨Hg, Hrest⟩
  isplitl [Hg]; · iexact Hg
  isplitr; · iempintro
  iexact Hrest

end Region3InOut

end Cert.KernelIdeal.H
end
-- ==== Proof.KI.Reg4.lean ====
import proofs.«151930_g64080912056811_cont_9to1c4b_125_51_alg».proof.Proof.Gen.KernelIdeal.Launch
import proofs.«151930_g64080912056811_cont_9to1c4b_125_51_alg».proof.Proof.Gen.KernelIdeal.Skeleton
import proofs.«151930_g64080912056811_cont_9to1c4b_125_51_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the block's extents recurses once per coordinate of the long axes
set_option maxRecDepth 16384

noncomputable section

namespace Cert.KernelIdeal.H

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 4: batch normalisation, SiLU and the residual, pointwise on a block of 2000 node rows

The body reads the blocks of the aggregate (window 0) and of the node features (window 1), both 2000×256, the two
rows of column statistics (window 2, 2×256: the column sums and the column sums of squares), the scale and the shift
(windows 3 and 4, 1×256), and stores into window 5's block `x + silu(normalised (agg + x) * gamma + beta)`, entry
by entry, the mean and variance of a column computed from the statistics' two rows. Windows 2, 3 and 4 have a constant
block index: the pipeline fetches them at the first point only, and they hold the same block at every point. -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not (unfetched, the
    block index has not moved), for any proof data whose array is `V`'s (`hA`) and whose body leaves the block in
    place (`hafter`): the windows are uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

/-- A whole 2000×256 block: the loads of windows 0, 1 and 5, and the one store. -/
abbrev r4_0 : Rect S2000x256 := Rect.unit (s := S2000x256) ![0, 0] S2000x256.size inb_S2000x256_S2000x256_0_0
/-- Row 0 of the statistics: the column sums. -/
abbrev r4_s0 : Rect S2x256 := Rect.unit (s := S2x256) ![0, 0] S1x256.size inb_S2x256_S1x256_0_0
/-- Row 1 of the statistics: the column sums of squares. -/
abbrev r4_s1 : Rect S2x256 := Rect.unit (s := S2x256) ![1, 0] S1x256.size inb_S2x256_S1x256_1_0
/-- A whole 1×256 row: the loads of the scale and of the shift. -/
abbrev r4_g : Rect S1x256 := Rect.unit (s := S1x256) ![0, 0] S1x256.size inb_S1x256_S1x256_0_0

/-! ## What the body leaves in the output window's buffer -/

/-- Window 5's staging buffer after the body, from the input windows' blocks (`x0` the aggregate, `x1` the
    features, `x2` the statistics, `x3` the scale, `x4` the shift): its one store, of the payload of the loads. -/
def out4_5 (x0 : Vec F S2000x256 .f32) (x1 : Vec F S2000x256 .f32) (x2 : Vec F S2x256 .f32) (x3 : Vec F S1x256 .f32) (x4 : Vec F S1x256 .f32) : Vec F S2000x256 .f32 :=
  View.canon [⟨r4_0, k4_pay1 (View.ld x1 r4_0) (View.ld x0 r4_0) (View.ld x2 r4_s0) (View.ld x2 r4_s1) (View.ld x3 r4_g) (View.ld x4 r4_g)⟩]

/-- The one store tiles the buffer, so it covers it. -/
theorem cover4_5 (p0 : Vec F S2000x256 .f32) (y : S2000x256.Idx) :
    ∃ pc ∈ ([⟨r4_0, p0⟩] : List (View.Piece (Elt F) S2000x256 .f32)), y ∈ pc.1.set :=
  View.cover_of_tiled [⟨r4_0, p0⟩] S2000x256.size (by rfl) y

/-! ## The body's triple -/

set_option maxHeartbeats 1000000 in
/-- The body on whole staging memrefs, the inputs' at read contents `x0 … x4` and the output's at anything, runs to
    the continuation holding the inputs' as they were and the output's at `out4_5` of the inputs'. -/
theorem sound_kernel4 (c : Dev nD) (E : Set ℕ) (i : grid4.Coords) (arg1 : Memref sig .tc .vmem S2000x256 .f32) (harg1 : arg1.IsWhole) (arg2 : Memref sig .tc .vmem S2000x256 .f32) (harg2 : arg2.IsWhole) (arg3 : Memref sig .tc .vmem S2x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x256 .f32) (harg6 : arg6.IsWhole)
    (x0 : Vec F S2000x256 .f32) (x1 : Vec F S2000x256 .f32) (x2 : Vec F S2x256 .f32) (x3 : Vec F S1x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__final_body i arg1 harg1 arg2 harg2 arg3 harg3 arg4 harg4 arg5 harg5 arg6 harg6) K := by
  simp only [cc4__final_body_eq_skeleton]; unfold cc4__final_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them (`V`); after the body at point `t`
    each input's buffer at its block and the output's at `out4_5` of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and the
    core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.H

end
-- ==== Proof.KI.Run.lean ====
/-
  The run of the kernel's @main: four stretches of host operations around five kernel regions. Each region is entered with
  the TensorCore's unscoped buffers whole at known contents and left with its output arrays at what its write-backs put
  there; the contents at the nine boundaries are a fold from the launch memory. From the run: the frame (no argument array
  changes) and the result array named as region 4's written-back output.
-/
import proofs.«151930_g64080912056811_cont_9to1c4b_125_51_alg».proof.Proof.KI.Reg0
import proofs.«151930_g64080912056811_cont_9to1c4b_125_51_alg».proof.Proof.KI.Reg1
import proofs.«151930_g64080912056811_cont_9to1c4b_125_51_alg».proof.Proof.KI.Reg2
import proofs.«151930_g64080912056811_cont_9to1c4b_125_51_alg».proof.Proof.KI.Reg3
import proofs.«151930_g64080912056811_cont_9to1c4b_125_51_alg».proof.Proof.KI.Reg4
import proofs.«151930_g64080912056811_cont_9to1c4b_125_51_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The run of @main: host stretches and kernel regions in order

The contents of the TensorCore's buffers at each boundary are a fold from the launch memory: a host stretch applies its
operations, a region replaces its windows' arrays by what its write-backs leave. -/

section Run
variable {F : FTy → Type} [FloatOps F] [Named F]
local notation "𝕄" => MT nD τ sig Unit (Elt F) ℕ (UR sig nD τ) ℕ
variable (m : (ℓ : Loc nD τ sig) → Buf (Elt F) ℓ)

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev En0 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (En0 m) c).arrAt w cfg0.N
theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references (region 0's exit contents). -/
abbrev Ex0 : (c : Dev nD) → (b : Ref sig .tc) → Buf (Elt F) ((c : Thread nD τ).loc b) := fun c b => W2 m c b
theorem hF0 (c : Dev nD) (w : Fin cfg0.W) : (dat0 (En0 m) c).arrAt w cfg0.N = Ex0 m c (Pipeline.arrRef spec0 w) :=
  (W2_arr m c w).symm
theorem hrest0 (c : Dev nD) : ∀ b, b ∉ Finset.univ.image (Pipeline.arrRef spec0) → Ex0 m c b = En0 m c b :=
  fun b hb => W2_of_ne m c b fun w e => hb (Finset.mem_image.mpr ⟨w, Finset.mem_univ _, e⟩)

abbrev En1 : (c : Dev nD) → (b : Ref sig .tc) → Buf (Elt F) ((c : Thread nD τ).loc b) := fun c b => W2 m c b

/-- At region 1's exit: its arrays at what the pipeline leaves, every other buffer as entered. -/
def W3 (c : Dev nD) : Valuation τ sig (Elt F) :=
  Pipeline.withArrays spec1 c (W2 m c) fun w => (dat1 (En1 m) c).arrAt w cfg1.N
theorem W3_arr (c : Dev nD) (w : Fin cfg1.W) :
    W3 m c (Proc.devRef .tc (Pipeline.arrRef spec1 w)) = (dat1 (En1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the TensorCore's references (region 1's exit contents). -/
abbrev Ex1 : (c : Dev nD) → (b : Ref sig .tc) → Buf (Elt F) ((c : Thread nD τ).loc b) := fun c b => W3 m c b
theorem hF1 (c : Dev nD) (w : Fin cfg1.W) : (dat1 (En1 m) c).arrAt w cfg1.N = Ex1 m c (Pipeline.arrRef spec1 w) :=
  (W3_arr m c w).symm
theorem hrest1 (c : Dev nD) : ∀ b, b ∉ Finset.univ.image (Pipeline.arrRef spec1) → Ex1 m c b = En1 m c b :=
  fun b hb => W3_of_ne m c b fun w e => hb (Finset.mem_image.mpr ⟨w, Finset.mem_univ _, e⟩)

/-- After the second host stretch (region 2's entry). -/
abbrev W4 : Dev nD → Valuation τ sig (Elt F) := fun c => StableHlo.after hostOps2 (W3 m c)
abbrev En2 : (c : Dev nD) → (b : Ref sig .tc) → Buf (Elt F) ((c : Thread nD τ).loc b) := fun c b => W4 m c b

/-- At region 2's exit: its arrays at what the pipeline leaves, every other buffer as entered. -/
def W5 (c : Dev nD) : Valuation τ sig (Elt F) :=
  Pipeline.withArrays spec2 c (W4 m c) fun w => (dat2 (En2 m) c).arrAt w cfg2.N
theorem W5_arr (c : Dev nD) (w : Fin cfg2.W) :
    W5 m c (Proc.devRef .tc (Pipeline.arrRef spec2 w)) = (dat2 (En2 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
/-- The same read at the TensorCore's references (region 2's exit contents). -/
abbrev Ex2 : (c : Dev nD) → (b : Ref sig .tc) → Buf (Elt F) ((c : Thread nD τ).loc b) := fun c b => W5 m c b
theorem hF2 (c : Dev nD) (w : Fin cfg2.W) : (dat2 (En2 m) c).arrAt w cfg2.N = Ex2 m c (Pipeline.arrRef spec2 w) :=
  (W5_arr m c w).symm
theorem hrest2 (c : Dev nD) : ∀ b, b ∉ Finset.univ.image (Pipeline.arrRef spec2) → Ex2 m c b = En2 m c b :=
  fun b hb => W5_of_ne m c b fun w e => hb (Finset.mem_image.mpr ⟨w, Finset.mem_univ _, e⟩)

/-- After the third host stretch (region 3's entry). -/
abbrev W6 : Dev nD → Valuation τ sig (Elt F) := fun c => StableHlo.after hostOps3 (W5 m c)
abbrev En3 : (c : Dev nD) → (b : Ref sig .tc) → Buf (Elt F) ((c : Thread nD τ).loc b) := fun c b => W6 m c b

/-- At region 3's exit: its arrays at what the pipeline leaves, every other buffer as entered. -/
def W7 (c : Dev nD) : Valuation τ sig (Elt F) :=
  Pipeline.withArrays spec3 c (W6 m c) fun w => (dat3 (En3 m) c).arrAt w cfg3.N
theorem W7_arr (c : Dev nD) (w : Fin cfg3.W) :
    W7 m c (Proc.devRef .tc (Pipeline.arrRef spec3 w)) = (dat3 (En3 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
/-- The same read at the TensorCore's references (region 3's exit contents). -/
abbrev Ex3 : (c : Dev nD) → (b : Ref sig .tc) → Buf (Elt F) ((c : Thread nD τ).loc b) := fun c b => W7 m c b
theorem hF3 (c : Dev nD) (w : Fin cfg3.W) : (dat3 (En3 m) c).arrAt w cfg3.N = Ex3 m c (Pipeline.arrRef spec3 w) :=
  (W7_arr m c w).symm
theorem hrest3 (c : Dev nD) : ∀ b, b ∉ Finset.univ.image (Pipeline.arrRef spec3) → Ex3 m c b = En3 m c b :=
  fun b hb => W7_of_ne m c b fun w e => hb (Finset.mem_image.mpr ⟨w, Finset.mem_univ _, e⟩)

/-- After the fourth host stretch (region 4's entry). -/
abbrev W8 : Dev nD → Valuation τ sig (Elt F) := fun c => StableHlo.after hostOps4 (W7 m c)
abbrev En4 : (c : Dev nD) → (b : Ref sig .tc) → Buf (Elt F) ((c : Thread nD τ).loc b) := fun c b => W8 m c b

/-- At region 4's exit: its arrays at what the pipeline leaves, every other buffer as entered. -/
def W9 (c : Dev nD) : Valuation τ sig (Elt F) :=
  Pipeline.withArrays spec4 c (W8 m c) fun w => (dat4 (En4 m) c).arrAt w cfg4.N
theorem W9_arr (c : Dev nD) (w : Fin cfg4.W) :
    W9 m c (Proc.devRef .tc (Pipeline.arrRef spec4 w)) = (dat4 (En4 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
/-- The same read at the TensorCore's references (region 4's exit contents). -/
abbrev Ex4 : (c : Dev nD) → (b : Ref sig .tc) → Buf (Elt F) ((c : Thread nD τ).loc b) := fun c b => W9 m c b
theorem hF4 (c : Dev nD) (w : Fin cfg4.W) : (dat4 (En4 m) c).arrAt w cfg4.N = Ex4 m c (Pipeline.arrRef spec4 w) :=
  (W9_arr m c w).symm
theorem hrest4 (c : Dev nD) : ∀ b, b ∉ Finset.univ.image (Pipeline.arrRef spec4) → Ex4 m c b = En4 m c b :=
  fun b hb => W9_of_ne m c b fun w e => hb (Finset.mem_image.mpr ⟨w, Finset.mem_univ _, e⟩)

/-! ## The proof data family and the thread state -/

abbrev admH : (p : Fin 5) → (pcfgs (F := F) p).Adm := fun p => (cfgs p).toPCfg_adm
/-- Every pipeline's proof data, each at its region's entry contents. -/
def pdatsH : (p : Fin 5) → (c : Dev nD) → Dat τ (Elt F) Unit ℕ (UR sig nD τ) ℕ (Pipeline.pin (pcfgs (F := F)) admH p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
abbrev 𝒱H : Variants := Variants.none
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TH (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (En0 m c) (Ex0 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ LH lvH 1 fun _ _ => rfl
  pre c := iprop(StableHlo.held (c : Thread nD τ) (Pipeline.ucRefs τ sig) (W2 m c) ∗ RH c)
  post c := iprop(StableHlo.held (c : Thread nD τ) (Pipeline.ucRefs τ sig) (W3 m c) ∗ RH c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (En1 m c) (Ex1 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ LH lvH 2 fun _ _ => rfl
  pre c := iprop(StableHlo.held (c : Thread nD τ) (Pipeline.ucRefs τ sig) (W4 m c) ∗ RH c)
  post c := iprop(StableHlo.held (c : Thread nD τ) (Pipeline.ucRefs τ sig) (W5 m c) ∗ RH c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsH m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (En2 m c) (Ex2 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ LH lvH 3 fun _ _ => rfl
  pre c := iprop(StableHlo.held (c : Thread nD τ) (Pipeline.ucRefs τ sig) (W6 m c) ∗ RH c)
  post c := iprop(StableHlo.held (c : Thread nD τ) (Pipeline.ucRefs τ sig) (W7 m c) ∗ RH c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin3 (En3 m) c _
  hout c := by rw [Pipeline.ownSems0_none]; exact hout3 (En3 m) c
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (En3 m c) (Ex3 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W8`, left at `W9`. -/
def reg4 : Pipeline.RegionSeg (pcfgs (F := F)) admH (pdatsH m) () defs₀ 𝒱H LH lvH 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ LH lvH 4 fun _ _ => rfl
  pre c := iprop(StableHlo.held (c : Thread nD τ) (Pipeline.ucRefs τ sig) (W8 m c) ∗ RH c)
  post c := iprop(TH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) admH (pdatsH m) launch4.win launch4.arr_whole c
      ((pdatsH m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdatsH m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdatsH m) ((pdatsH m 4 c).share_full fun _ => rfl)
      (En4 m c) (Ex4 m c) ((pdatsH m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (W0 m)),
    .region (reg0 m),
    .region (reg1 m),
    .host (hsegH hostOps2 hostOps2_sub hostOps2_fresh (W3 m)),
    .region (reg2 m),
    .host (hsegH hostOps3 hostOps3_sub hostOps3_fresh (W5 m)),
    .region (reg3 m),
    .host (hsegH hostOps4 hostOps4_sub hostOps4_fresh (W7 m)),
    .region (reg4 m) ]
theorem main_run (c : Dev nD) : main (F := F) c = Pipeline.Seg.run (segsH m) := (main_chain c).trans (by chain_rfl)

set_option backward.isDefEq.respectTransparency.types false in
/-- Every weakly fair execution of @main terminates, nothing faulting, and the final memory holds every unscoped buffer of
    core `c` at the last boundary's contents `W9`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) admH (pdatsH m) () cellOf_inj emb₁ defs₀ 𝒱H LH lvH m ρ main (segsH m)
    (fun c Q => by rw [main_run m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TH m)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c => h c)

end Run

/-! ## No segment changes an argument array -/
section Args
variable {F : FTy → Type} [FloatOps F] [Named F]
variable (m : (ℓ : Loc nD τ sig) → Buf (Elt F) ℓ)

theorem W1_keep (c : Dev nD) (b : Ref sig .tc) (h : b ∉ hostOps0_W) : W1 m c (Proc.devRef .tc b) = W0 m c (Proc.devRef .tc b) :=
  StableHlo.after_of_writes_sub hostOps0 _ hostOps0_writes h
theorem W4_keep (c : Dev nD) (b : Ref sig .tc) (h : b ∉ hostOps2_W) : W4 m c (Proc.devRef .tc b) = W3 m c (Proc.devRef .tc b) :=
  StableHlo.after_of_writes_sub hostOps2 _ hostOps2_writes h
theorem W6_keep (c : Dev nD) (b : Ref sig .tc) (h : b ∉ hostOps3_W) : W6 m c (Proc.devRef .tc b) = W5 m c (Proc.devRef .tc b) :=
  StableHlo.after_of_writes_sub hostOps3 _ hostOps3_writes h
theorem W8_keep (c : Dev nD) (b : Ref sig .tc) (h : b ∉ hostOps4_W) : W8 m c (Proc.devRef .tc b) = W7 m c (Proc.devRef .tc b) :=
  StableHlo.after_of_writes_sub hostOps4 _ hostOps4_writes h
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (En0 m) c).arrAt_in w hin _).trans (A_eq0 (En0 m) c w))
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (En1 m) c).arrAt_in w hin _).trans (A_eq1 (En1 m) c w))
theorem W5_in (c : Dev nD) (w : Fin cfg2.W) (hin : (cfg2.win w).isOut = false) :
    W5 m c (Proc.devRef .tc (Pipeline.arrRef spec2 w)) = W4 m c (Proc.devRef .tc (Pipeline.arrRef spec2 w)) :=
  (W5_arr m c w).trans (((dat2 (En2 m) c).arrAt_in w hin _).trans (A_eq2 (En2 m) c w))
theorem W7_in (c : Dev nD) (w : Fin cfg3.W) (hin : (cfg3.win w).isOut = false) :
    W7 m c (Proc.devRef .tc (Pipeline.arrRef spec3 w)) = W6 m c (Proc.devRef .tc (Pipeline.arrRef spec3 w)) :=
  (W7_arr m c w).trans (((dat3 (En3 m) c).arrAt_in w hin _).trans (A_eq3 (En3 m) c w))
theorem W9_in (c : Dev nD) (w : Fin cfg4.W) (hin : (cfg4.win w).isOut = false) :
    W9 m c (Proc.devRef .tc (Pipeline.arrRef spec4 w)) = W8 m c (Proc.devRef .tc (Pipeline.arrRef spec4 w)) :=
  (W9_arr m c w).trans (((dat4 (En4 m) c).arrAt_in w hin _).trans (A_eq4 (En4 m) c w))
theorem W9_main_arg0 (c : Dev nD) : W9 m c (Proc.devRef .tc main_arg0) = m ((c : Thread nD τ).loc main_arg0) :=
  (W9_in m c 1 rfl).trans <| (W8_keep m c main_arg0 (by decide)).trans <| (W7_in m c 1 rfl).trans <| (W6_keep m c main_arg0 (by decide)).trans <| (W5_of_ne m c main_arg0 (by decide)).trans <| (W4_keep m c main_arg0 (by decide)).trans <| (W3_of_ne m c main_arg0 (by decide)).trans <| (W2_in m c 0 rfl).trans <| (W1_keep m c main_arg0 (by decide)).trans <| rfl
theorem W9_main_arg1 (c : Dev nD) : W9 m c (Proc.devRef .tc main_arg1) = m ((c : Thread nD τ).loc main_arg1) :=
  (W9_of_ne m c main_arg1 (by decide)).trans <| (W8_keep m c main_arg1 (by decide)).trans <| (W7_of_ne m c main_arg1 (by decide)).trans <| (W6_keep m c main_arg1 (by decide)).trans <| (W5_of_ne m c main_arg1 (by decide)).trans <| (W4_keep m c main_arg1 (by decide)).trans <| (W3_of_ne m c main_arg1 (by decide)).trans <| (W2_of_ne m c main_arg1 (by decide)).trans <| (W1_keep m c main_arg1 (by decide)).trans <| rfl
theorem W9_main_arg2 (c : Dev nD) : W9 m c (Proc.devRef .tc main_arg2) = m ((c : Thread nD τ).loc main_arg2) :=
  (W9_of_ne m c main_arg2 (by decide)).trans <| (W8_keep m c main_arg2 (by decide)).trans <| (W7_of_ne m c main_arg2 (by decide)).trans <| (W6_keep m c main_arg2 (by decide)).trans <| (W5_of_ne m c main_arg2 (by decide)).trans <| (W4_keep m c main_arg2 (by decide)).trans <| (W3_in m c 0 rfl).trans <| (W2_of_ne m c main_arg2 (by decide)).trans <| (W1_keep m c main_arg2 (by decide)).trans <| rfl
theorem W9_main_arg3 (c : Dev nD) : W9 m c (Proc.devRef .tc main_arg3) = m ((c : Thread nD τ).loc main_arg3) :=
  (W9_of_ne m c main_arg3 (by decide)).trans <| (W8_keep m c main_arg3 (by decide)).trans <| (W7_of_ne m c main_arg3 (by decide)).trans <| (W6_keep m c main_arg3 (by decide)).trans <| (W5_of_ne m c main_arg3 (by decide)).trans <| (W4_keep m c main_arg3 (by decide)).trans <| (W3_of_ne m c main_arg3 (by decide)).trans <| (W2_of_ne m c main_arg3 (by decide)).trans <| (W1_keep m c main_arg3 (by decide)).trans <| rfl
theorem W9_main_arg4 (c : Dev nD) : W9 m c (Proc.devRef .tc main_arg4) = m ((c : Thread nD τ).loc main_arg4) :=
  (W9_of_ne m c main_arg4 (by decide)).trans <| (W8_keep m c main_arg4 (by decide)).trans <| (W7_of_ne m c main_arg4 (by decide)).trans <| (W6_keep m c main_arg4 (by decide)).trans <| (W5_of_ne m c main_arg4 (by decide)).trans <| (W4_keep m c main_arg4 (by decide)).trans <| (W3_of_ne m c main_arg4 (by decide)).trans <| (W2_of_ne m c main_arg4 (by decide)).trans <| (W1_keep m c main_arg4 (by decide)).trans <| rfl
theorem W9_main_arg5 (c : Dev nD) : W9 m c (Proc.devRef .tc main_arg5) = m ((c : Thread nD τ).loc main_arg5) :=
  (W9_of_ne m c main_arg5 (by decide)).trans <| (W8_keep m c main_arg5 (by decide)).trans <| (W7_of_ne m c main_arg5 (by decide)).trans <| (W6_keep m c main_arg5 (by decide)).trans <| (W5_of_ne m c main_arg5 (by decide)).trans <| (W4_keep m c main_arg5 (by decide)).trans <| (W3_of_ne m c main_arg5 (by decide)).trans <| (W2_of_ne m c main_arg5 (by decide)).trans <| (W1_keep m c main_arg5 (by decide)).trans <| rfl
theorem W9_main_arg6 (c : Dev nD) : W9 m c (Proc.devRef .tc main_arg6) = m ((c : Thread nD τ).loc main_arg6) :=
  (W9_of_ne m c main_arg6 (by decide)).trans <| (W8_keep m c main_arg6 (by decide)).trans <| (W7_of_ne m c main_arg6 (by decide)).trans <| (W6_keep m c main_arg6 (by decide)).trans <| (W5_of_ne m c main_arg6 (by decide)).trans <| (W4_keep m c main_arg6 (by decide)).trans <| (W3_of_ne m c main_arg6 (by decide)).trans <| (W2_of_ne m c main_arg6 (by decide)).trans <| (W1_keep m c main_arg6 (by decide)).trans <| rfl
theorem W9_main_arg7 (c : Dev nD) : W9 m c (Proc.devRef .tc main_arg7) = m ((c : Thread nD τ).loc main_arg7) :=
  (W9_of_ne m c main_arg7 (by decide)).trans <| (W8_keep m c main_arg7 (by decide)).trans <| (W7_of_ne m c main_arg7 (by decide)).trans <| (W6_keep m c main_arg7 (by decide)).trans <| (W5_of_ne m c main_arg7 (by decide)).trans <| (W4_keep m c main_arg7 (by decide)).trans <| (W3_of_ne m c main_arg7 (by decide)).trans <| (W2_of_ne m c main_arg7 (by decide)).trans <| (W1_keep m c main_arg7 (by decide)).trans <| rfl
theorem W9_main_arg8 (c : Dev nD) : W9 m c (Proc.devRef .tc main_arg8) = m ((c : Thread nD τ).loc main_arg8) :=
  (W9_of_ne m c main_arg8 (by decide)).trans <| (W8_keep m c main_arg8 (by decide)).trans <| (W7_of_ne m c main_arg8 (by decide)).trans <| (W6_keep m c main_arg8 (by decide)).trans <| (W5_of_ne m c main_arg8 (by decide)).trans <| (W4_keep m c main_arg8 (by decide)).trans <| (W3_of_ne m c main_arg8 (by decide)).trans <| (W2_of_ne m c main_arg8 (by decide)).trans <| (W1_keep m c main_arg8 (by decide)).trans <| rfl

/-- The frame: every weakly fair execution terminates, nothing faulting, each argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨(h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c)⟩) (run_all m ρ)

/-- The run with the result array named: what region 4's write-backs leave in its output window's array. -/
theorem run_result (ρ : Dev nD → PrngReg) : θ_run defs (onTc (τ := τ) (main (F := F))) ⟨m, fun _ => 0, ρ⟩ (fun r => ∀ c : Dev nD,
      r.2.mem ((c.tc : Thread nD τ).loc main_v42) = (dat4 (En4 m) c).arrAt 5 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v42 (by decide))).trans (W9_arr m c 5),
    (h c _ (mem_uc main_arg0 (by decide))).trans (W9_main_arg0 m c),
    (h c _ (mem_uc main_arg1 (by decide))).trans (W9_main_arg1 m c),
    (h c _ (mem_uc main_arg2 (by decide))).trans (W9_main_arg2 m c),
    (h c _ (mem_uc main_arg3 (by decide))).trans (W9_main_arg3 m c),
    (h c _ (mem_uc main_arg4 (by decide))).trans (W9_main_arg4 m c),
    (h c _ (mem_uc main_arg5 (by decide))).trans (W9_main_arg5 m c),
    (h c _ (mem_uc main_arg6 (by decide))).trans (W9_main_arg6 m c),
    (h c _ (mem_uc main_arg7 (by decide))).trans (W9_main_arg7 m c),
    (h c _ (mem_uc main_arg8 (by decide))).trans (W9_main_arg8 m c)⟩) (run_all m ρ)
end Args

end Cert.KernelIdeal.H

end
-- ==== Proof.KI.Glue.lean ====
import proofs.«151930_g64080912056811_cont_9to1c4b_125_51_alg».proof.Proof.KI.Run
import Idealize.ShloMosaic.Lib.StableHlo.Run

noncomputable section

namespace Cert.KernelIdeal.H

open Idealize.ShloMosaic Idealize.ShloMosaic.TcCoe Idealize.SL.Sem
open Cert.KernelIdeal Cert.KernelIdeal.Gen

/-! # What the host stretches leave at each region's entry

Each buffer a region reads is followed back through the fold of boundary contents: a host operation's result is its
function of its operands' contents, a buffer that no segment in between writes keeps its contents, and a region's output
array holds what its write-backs left. -/

variable {F : FTy → Type} [FloatOps F] [Named F]
variable (m : (ℓ : Loc nD τ sig) → Buf (Elt F) ℓ) (c : Dev nD)

/-! ## The first stretch: the two index rows, the repacked weights and the joined bias -/

/-- Row 0 (sources) and row 1 (destinations) of the edge index array, each as a vector of 160000 words. -/
def srcOf (ei : IVec S2x160000 32) : IVec S160000 32 :=
  shapeCast S160000 (extractStridedSlice S1x160000 ![0, 0] ei slices_S2x160000_S1x160000_0_0) shapeCasts_S1x160000_S160000
def dstOf (ei : IVec S2x160000 32) : IVec S160000 32 :=
  shapeCast S160000 (extractStridedSlice S1x160000 ![1, 0] ei slices_S2x160000_S1x160000_1_0) shapeCasts_S1x160000_S160000
/-- The repacked weights: rows 0..255, 256..511 and 512..527 of the two weight matrices side by side. -/
def WgOf (Wf Ws : FVec F S528x256 .f32) : FVec F S256x512 .f32 :=
  concatenate S256x512 1 [⟨S256x256, extractStridedSlice S256x256 ![0, 0] Wf slices_S528x256_S256x256_0_0⟩,
    ⟨S256x256, extractStridedSlice S256x256 ![0, 0] Ws slices_S528x256_S256x256_0_0⟩] concatenates_S256x256_S256x256_S256x512_d1
def WhOf (Wf Ws : FVec F S528x256 .f32) : FVec F S256x512 .f32 :=
  concatenate S256x512 1 [⟨S256x256, extractStridedSlice S256x256 ![256, 0] Wf slices_S528x256_S256x256_256_0⟩,
    ⟨S256x256, extractStridedSlice S256x256 ![256, 0] Ws slices_S528x256_S256x256_256_0⟩] concatenates_S256x256_S256x256_S256x512_d1
def WeOf (Wf Ws : FVec F S528x256 .f32) : FVec F S16x512 .f32 :=
  concatenate S16x512 1 [⟨S16x256, extractStridedSlice S16x256 ![512, 0] Wf slices_S528x256_S16x256_512_0⟩,
    ⟨S16x256, extractStridedSlice S16x256 ![512, 0] Ws slices_S528x256_S16x256_512_0⟩] concatenates_S16x256_S16x256_S16x512_d1
/-- The two biases joined into one row. -/
def bgOf (bf bs : FVec F S256 .f32) : FVec F S1x512 .f32 :=
  shapeCast S1x512 (concatenate S512 0 [⟨S256, bf⟩, ⟨S256, bs⟩] concatenates_S256_S256_S512_d0) shapeCasts_S512_S1x512
/-- A vector of 256 entries as a one-row array. -/
def rowOf (g : FVec F S256 .f32) : FVec F S1x256 .f32 := shapeCast S1x256 g shapeCasts_S256_S1x256

theorem W1_v1 : W1 m c (Proc.devRef .tc main_v1)
    = srcOf (m ((c : Thread nD τ).loc main_arg1)) := by
  show StableHlo.after hostOps0 (W0 m c) (Proc.devRef .tc main_v1) = _
  after_results <;> rfl
theorem W1_v3 : W1 m c (Proc.devRef .tc main_v3)
    = dstOf (m ((c : Thread nD τ).loc main_arg1)) := by
  show StableHlo.after hostOps0 (W0 m c) (Proc.devRef .tc main_v3) = _
  after_results <;> rfl
theorem W1_v6 : W1 m c (Proc.devRef .tc main_v6)
    = WgOf (m ((c : Thread nD τ).loc main_arg3)) (m ((c : Thread nD τ).loc main_arg5)) := by
  show StableHlo.after hostOps0 (W0 m c) (Proc.devRef .tc main_v6) = _
  after_results <;> rfl
theorem W1_v9 : W1 m c (Proc.devRef .tc main_v9)
    = WhOf (m ((c : Thread nD τ).loc main_arg3)) (m ((c : Thread nD τ).loc main_arg5)) := by
  show StableHlo.after hostOps0 (W0 m c) (Proc.devRef .tc main_v9) = _
  after_results <;> rfl
theorem W1_v12 : W1 m c (Proc.devRef .tc main_v12)
    = WeOf (m ((c : Thread nD τ).loc main_arg3)) (m ((c : Thread nD τ).loc main_arg5)) := by
  show StableHlo.after hostOps0 (W0 m c) (Proc.devRef .tc main_v12) = _
  after_results <;> rfl
theorem W1_v14 : W1 m c (Proc.devRef .tc main_v14)
    = bgOf (m ((c : Thread nD τ).loc main_arg4)) (m ((c : Thread nD τ).loc main_arg6)) := by
  show StableHlo.after hostOps0 (W0 m c) (Proc.devRef .tc main_v14) = _
  after_results <;> rfl

/-! ## An argument array at any boundary is the launch contents -/

theorem W1_arg (b : Ref sig .tc) (h : b ∉ hostOps0_W) : W1 m c (Proc.devRef .tc b) = m ((c : Thread nD τ).loc b) := W1_keep m c b h

/-! ## Region 0's and region 1's entries -/

theorem En0_arg0 : En0 m c main_arg0 = m ((c : Thread nD τ).loc main_arg0) := W1_keep m c main_arg0 (by decide)
theorem En0_v6 : En0 m c main_v6 = WgOf (m ((c : Thread nD τ).loc main_arg3)) (m ((c : Thread nD τ).loc main_arg5)) := W1_v6 m c
theorem En0_v9 : En0 m c main_v9 = WhOf (m ((c : Thread nD τ).loc main_arg3)) (m ((c : Thread nD τ).loc main_arg5)) := W1_v9 m c
theorem En0_v14 : En0 m c main_v14 = bgOf (m ((c : Thread nD τ).loc main_arg4)) (m ((c : Thread nD τ).loc main_arg6)) := W1_v14 m c
theorem En1_arg2 : En1 m c main_arg2 = m ((c : Thread nD τ).loc main_arg2) :=
  (W2_of_ne m c main_arg2 (by decide)).trans (W1_keep m c main_arg2 (by decide))
theorem En1_v12 : En1 m c main_v12 = WeOf (m ((c : Thread nD τ).loc main_arg3)) (m ((c : Thread nD τ).loc main_arg5)) := (W2_of_ne m c main_v12 (by decide)).trans (W1_v12 m c)

/-! ## The second stretch: the gathered projections summed per edge -/

theorem W3_v1 : W3 m c (Proc.devRef .tc main_v1) = srcOf (m ((c : Thread nD τ).loc main_arg1)) :=
  (W3_of_ne m c main_v1 (by decide)).trans ((W2_of_ne m c main_v1 (by decide)).trans (W1_v1 m c))
theorem W3_v3 : W3 m c (Proc.devRef .tc main_v3) = dstOf (m ((c : Thread nD τ).loc main_arg1)) :=
  (W3_of_ne m c main_v3 (by decide)).trans ((W2_of_ne m c main_v3 (by decide)).trans (W1_v3 m c))
theorem W3_v15_0 : W3 m c (Proc.devRef .tc main_v15_0) = (dat0 (En0 m) c).arrAt 4 cfg0.N :=
  (W3_of_ne m c main_v15_0 (by decide)).trans (W2_arr m c 4)
theorem W3_v15_1 : W3 m c (Proc.devRef .tc main_v15_1) = (dat0 (En0 m) c).arrAt 5 cfg0.N :=
  (W3_of_ne m c main_v15_1 (by decide)).trans (W2_arr m c 5)
theorem W3_v16 : W3 m c (Proc.devRef .tc main_v16) = (dat1 (En1 m) c).arrAt 2 cfg1.N := W3_arr m c 2

/-- The signed-index wrap jnp applies before a gather: a negative index counts from the end. -/
def wrapIdx (v : IVec S160000 32) : IVec S160000 32 :=
  select (cmpi .slt v (broadcastInDim S160000 ![] bcast_S_S160000 (constantI S_ 32 0#32)))
    (addi v (broadcastInDim S160000 ![] bcast_S_S160000 (constantI S_ 32 10000#32))) v
/-- An index vector as the one-column index array a gather or scatter takes. -/
def idxCol (v : IVec S160000 32) : IVec S160000x1 32 := broadcastInDim S160000x1 ![0] bcast_S160000_S160000x1_0 v

/-- The per-edge projected row: the destination node's row of the first projection, the source node's row of the second,
    and the edge's own projection, summed. -/
def zOf (g h : FVec F S10000x512 .bf16) (cc : FVec F S160000x512 .f32) (src dst : IVec S160000 32) : FVec F S160000x512 .f32 :=
  addf (addf (extf .f32 (Host.gather gather_S10000x512_S160000x1_S160000x512_1_0_n_n_0_1_1512 g (idxCol (wrapIdx dst))) bitsLt_bf16_f32)
      (extf .f32 (Host.gather gather_S10000x512_S160000x1_S160000x512_1_0_n_n_0_1_1512 h (idxCol (wrapIdx src))) bitsLt_bf16_f32)) cc

set_option maxHeartbeats 4000000 in
theorem W4_v34 : W4 m c (Proc.devRef .tc main_v34)
    = zOf (W3 m c (Proc.devRef .tc main_v15_0)) (W3 m c (Proc.devRef .tc main_v15_1)) (W3 m c (Proc.devRef .tc main_v16))
        (W3 m c (Proc.devRef .tc main_v1)) (W3 m c (Proc.devRef .tc main_v3)) := by
  show StableHlo.after hostOps2 (W3 m c) (Proc.devRef .tc main_v34) = _
  after_results <;> rfl

/-! ## The third stretch: the messages summed into their destination rows -/

theorem W5_v3 : W5 m c (Proc.devRef .tc main_v3) = W3 m c (Proc.devRef .tc main_v3) :=
  (W5_of_ne m c main_v3 (by decide)).trans (W4_keep m c main_v3 (by decide))
theorem W5_v35 : W5 m c (Proc.devRef .tc main_v35) = (dat2 (En2 m) c).arrAt 1 cfg2.N := W5_arr m c 1

/-- Summing the rows of `u` into the rows the index names, from zeros. -/
def aggOf (dst : IVec S160000 32) (u : FVec F S160000x256 .f32) : FVec F S10000x256 .f32 :=
  Host.scatterAdd scatter_S10000x256_S160000x1_S160000x256_1_0_0_1
    (broadcastInDim S10000x256 ![] bcast_S_S10000x256 (constant S_ .f32 0x00000000#32)) (idxCol dst) u

theorem W6_v38 : W6 m c (Proc.devRef .tc main_v38) = aggOf (W5 m c (Proc.devRef .tc main_v3)) (W5 m c (Proc.devRef .tc main_v35)) := by
  show StableHlo.after hostOps3 (W5 m c) (Proc.devRef .tc main_v38) = _
  after_results <;> rfl
theorem En3_arg0 : En3 m c main_arg0 = m ((c : Thread nD τ).loc main_arg0) :=
  (W6_keep m c main_arg0 (by decide)).trans <| (W5_of_ne m c main_arg0 (by decide)).trans <| (W4_keep m c main_arg0 (by decide)).trans <|
    (W3_of_ne m c main_arg0 (by decide)).trans <| (W2_in m c 0 rfl).trans (W1_keep m c main_arg0 (by decide))

/-! ## The fourth stretch and region 4's entry -/

theorem En4_v38 : En4 m c main_v38 = W6 m c (Proc.devRef .tc main_v38) :=
  (W8_keep m c main_v38 (by decide)).trans (W7_in m c 0 rfl)
theorem En4_arg0 : En4 m c main_arg0 = m ((c : Thread nD τ).loc main_arg0) :=
  (W8_keep m c main_arg0 (by decide)).trans <| (W7_in m c 1 rfl).trans (En3_arg0 m c)
theorem En4_v39 : En4 m c main_v39 = (dat3 (En3 m) c).arrAt 2 cfg3.N :=
  (W8_keep m c main_v39 (by decide)).trans (W7_arr m c 2)
theorem W7_arg (b : Ref sig .tc) (h0 : b ∉ hostOps0_W) (h2 : b ∉ hostOps2_W) (h3 : b ∉ hostOps3_W)
    (n0 : ∀ w, Pipeline.arrRef spec0 w ≠ b) (n1 : ∀ w, Pipeline.arrRef spec1 w ≠ b) (n2 : ∀ w, Pipeline.arrRef spec2 w ≠ b) (n3 : ∀ w, Pipeline.arrRef spec3 w ≠ b) :
    W7 m c (Proc.devRef .tc b) = m ((c : Thread nD τ).loc b) :=
  (W7_of_ne m c b n3).trans <| (W6_keep m c b h3).trans <| (W5_of_ne m c b n2).trans <| (W4_keep m c b h2).trans <|
    (W3_of_ne m c b n1).trans <| (W2_of_ne m c b n0).trans (W1_keep m c b h0)
theorem En4_v40 : En4 m c main_v40 = rowOf (m ((c : Thread nD τ).loc main_arg7)) := by
  show StableHlo.after hostOps4 (W7 m c) (Proc.devRef .tc main_v40) = _
  after_results
  rw [W7_arg m c main_arg7 (by decide) (by decide) (by decide) (by decide) (by decide) (by decide) (by decide)]; rfl
theorem En4_v41 : En4 m c main_v41 = rowOf (m ((c : Thread nD τ).loc main_arg8)) := by
  show StableHlo.after hostOps4 (W7 m c) (Proc.devRef .tc main_v41) = _
  after_results
  rw [W7_arg m c main_arg8 (by decide) (by decide) (by decide) (by decide) (by decide) (by decide) (by decide)]; rfl

end Cert.KernelIdeal.H

end
-- ==== Proof.KI.Val0.lean ====
/- The node projection read as whole arrays, over the extended reals: after the region has run, the first output holds at
   (r, q) the sum over k of x (r, k) · Wg (k, q) plus bg (0, q), and the second the sum over k of x (r, k) · Wh (k, q), the
   entry arrays being those the region finds (rounding to bf16 is the identity on extended reals). A point's body works on a block
   of 2000 rows of x and the whole of Wg, Wh, bg; the 5 blocks of rows tile each output. -/
import proofs.«151930_g64080912056811_cont_9to1c4b_125_51_alg».proof.Proof.KI.Reg0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Cert.KernelIdeal.Gen
open Idealize.ShloMosaic Idealize.ShloMosaic.TcCoe Idealize.SL.Sem
open Idealize.ShloMosaic.Pipeline (Dat)
open Idealize.ShloMosaic.ValueIdx
open scoped BigOperators

/-! ## The matmuls' operand indices -/

/-- The dimension numbers of the body's two matmuls: rows x contraction times contraction x columns. -/
abbrev D0 := dot_S2000x256_S256x512_S2000x512_1_0_0_1_n_n

/-- At output index (p, q) and contraction position k the left operand is read at (p, k) … -/
theorem D0_lhs (p : Fin 2000) (q : Fin 512) (k : D0.contr.Idx) :
    D0.lhsIdx (ix2 p q) k = ix2 p (contrEquiv1 D0 256 rfl rfl k) := by
  funext a
  match a with
  | ⟨0, _⟩ => rfl
  | ⟨1, _⟩ => rfl

/-- … and the right operand at (k, q). -/
theorem D0_rhs (p : Fin 2000) (q : Fin 512) (k : D0.contr.Idx) :
    D0.rhsIdx (ix2 p q) k = ix2 (contrEquiv1 D0 256 rfl rfl k) q := by
  funext a
  match a with
  | ⟨0, _⟩ => rfl
  | ⟨1, _⟩ => rfl

/-- A matmul into the zero splat at (p, q): the sum over the 256 contraction positions of the products. -/
theorem matmul0_apply (x0 : FVec Ideal S2000x256 .f32) (x1 : FVec Ideal S256x512 .f32) (p : Fin 2000) (q : Fin 512) :
    matmul D0 none x0 x1 (constant S2000x512 .f32 0x00000000#32) (ix2 p q) = ∑ k : Fin 256, x0 (ix2 p k) * x1 (ix2 k q) := by
  refine (Ideal.matmul_constant_zero_apply D0 none x0 x1 (ix2 p q)).trans ?_
  refine Fintype.sum_equiv (contrEquiv1 D0 256 rfl rfl) _ _ fun k => ?_
  rw [D0_lhs, D0_rhs]

/-- The first stored value at (p, q): the product's entry plus the bias row's entry q; rounding to bf16 changes nothing over
    the extended reals. -/
theorem pay0_4_apply (x0 : Vec Ideal S2000x256 .f32) (x1 : Vec Ideal S256x512 .f32) (x3 : Vec Ideal S1x512 .f32) (p : Fin 2000) (q : Fin 512) :
    k0_pay1 x0 x1 x3 (ix2 p q) = (∑ k : Fin 256, x0 (ix2 p k) * x1 (ix2 k q)) + x3 (ix2 (0 : Fin 1) q) := by
  unfold k0_pay1
  rw [shapeCast_self, shapeCast_self]
  refine (truncf_apply (φ := .f32) (ψ := .bf16) _ bitsLt_bf16_f32 (ix2 p q)).trans ?_
  refine (addf_apply _ _ (ix2 p q)).trans ?_
  rw [matmul0_apply x0 x1 p q, broadcastTo_1b_ab_apply x3 _ p q]

/-- The second stored value at (p, q): the product's entry. -/
theorem pay0_5_apply (x0 : Vec Ideal S2000x256 .f32) (x2 : Vec Ideal S256x512 .f32) (p : Fin 2000) (q : Fin 512) :
    k0_pay2 x0 x2 (ix2 p q) = ∑ k : Fin 256, x0 (ix2 p k) * x2 (ix2 k q) := by
  unfold k0_pay2
  rw [shapeCast_self]
  refine (truncf_apply (φ := .f32) (ψ := .bf16) _ bitsLt_bf16_f32 (ix2 p q)).trans ?_
  exact matmul0_apply x0 x2 p q

/-! ## The two whole output arrays -/

theorem hz_r0 : (![0, 0] : Fin 2 → Nat) = fun _ => 0 := funext fun a => by fin_cases a <;> rfl

/-- x · Wg + bg: the node features (10000 x 256) times Wg (256 x 512), the bias row added to every row. -/
abbrev G0_4 (x : S10000x256.Idx → EReal) (Wg : S256x512.Idx → EReal) (bg : S1x512.Idx → EReal) : S10000x512.Idx → EReal :=
  fun i => (∑ k : Fin 256, x (ix2 (i 0) k) * Wg (ix2 k (i 1))) + bg (ix2 (0 : Fin 1) (i 1))

/-- x · Wh. -/
abbrev G0_5 (x : S10000x256.Idx → EReal) (Wh : S256x512.Idx → EReal) : S10000x512.Idx → EReal :=
  fun i => ∑ k : Fin 256, x (ix2 (i 0) k) * Wh (ix2 k (i 1))

/-- The index maps over the 5 grid points: point t reads rows [2000 t, 2000 t + 2000) of x, the whole of Wg, Wh and bg, and
    writes rows [2000 t, 2000 t + 2000) of each output. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Block t of the first output, entry by entry: the rows of the block of x are rows 2000 t + p, the blocks of Wg and bg are
    the whole arrays, and the output block sits at rows 2000 t + p. -/
theorem block0_4 (x : S10000x256.Idx → EReal) (Wg : S256x512.Idx → EReal) (bg : S1x512.Idx → EReal)
    (t : Fin cfg0.N) (p : Fin 2000) (q : Fin 512) :
    (∑ k : Fin 256, x (((cfg0.win 0).blk t).view.emb (ix2 p k)) * Wg (((cfg0.win 1).blk t).view.emb (ix2 k q)))
        + bg (((cfg0.win 3).blk t).view.emb (ix2 (0 : Fin 1) q))
      = G0_4 x Wg bg (((cfg0.win 4).blk t).view.emb (ix2 p q)) := by
  obtain ⟨e0, e1, e2, e3, e4, e5, e6, e7, e8, e9, e10, e11⟩ := idx_facts0 t
  have h3 : ((cfg0.win 3).blk t).view.emb (ix2 (0 : Fin 1) q) = ix2 (0 : Fin 1) ((((cfg0.win 4).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 512 + 1 * q.val = win0_4.index t (1 : Fin 2) * 512 + 1 * q.val; omega
  rw [h3]
  refine congrArg (· + bg (ix2 (0 : Fin 1) ((((cfg0.win 4).blk t).view.emb (ix2 p q)) 1))) ?_
  refine Finset.sum_congr rfl fun k _ => ?_
  have h0 : ((cfg0.win 0).blk t).view.emb (ix2 p k) = ix2 ((((cfg0.win 4).blk t).view.emb (ix2 p q)) 0) k := by
    funext a; apply Fin.ext
    match a with
    | ⟨0, _⟩ => show win0_0.index t (0 : Fin 2) * 2000 + 1 * p.val = win0_4.index t (0 : Fin 2) * 2000 + 1 * p.val; omega
    | ⟨1, _⟩ => show win0_0.index t (1 : Fin 2) * 256 + 1 * k.val = k.val; omega
  have h1 : ((cfg0.win 1).blk t).view.emb (ix2 k q) = ix2 k ((((cfg0.win 4).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 512 + 1 * q.val = win0_4.index t (1 : Fin 2) * 512 + 1 * q.val; omega
  rw [h0, h1]
  rfl

/-- Block t of the second output, entry by entry. -/
theorem block0_5 (x : S10000x256.Idx → EReal) (Wh : S256x512.Idx → EReal) (t : Fin cfg0.N) (p : Fin 2000) (q : Fin 512) :
    ∑ k : Fin 256, x (((cfg0.win 0).blk t).view.emb (ix2 p k)) * Wh (((cfg0.win 2).blk t).view.emb (ix2 k q))
      = G0_5 x Wh (((cfg0.win 5).blk t).view.emb (ix2 p q)) := by
  obtain ⟨e0, e1, e2, e3, e4, e5, e6, e7, e8, e9, e10, e11⟩ := idx_facts0 t
  refine Finset.sum_congr rfl fun k _ => ?_
  have h0 : ((cfg0.win 0).blk t).view.emb (ix2 p k) = ix2 ((((cfg0.win 5).blk t).view.emb (ix2 p q)) 0) k := by
    funext a; apply Fin.ext
    match a with
    | ⟨0, _⟩ => show win0_0.index t (0 : Fin 2) * 2000 + 1 * p.val = win0_5.index t (0 : Fin 2) * 2000 + 1 * p.val; omega
    | ⟨1, _⟩ => show win0_0.index t (1 : Fin 2) * 256 + 1 * k.val = k.val; omega
  have h2 : ((cfg0.win 2).blk t).view.emb (ix2 k q) = ix2 k ((((cfg0.win 5).blk t).view.emb (ix2 p q)) 1) := by
    funext a; apply Fin.ext
    match a with
    | ⟨0, _⟩ => show win0_2.index t (0 : Fin 2) * 256 + 1 * k.val = k.val; omega
    | ⟨1, _⟩ => show win0_2.index t (1 : Fin 2) * 512 + 1 * q.val = win0_5.index t (1 : Fin 2) * 512 + 1 * q.val; omega
  rw [h0, h2]
  rfl

variable (V : (c : Dev nD) → (b : Ref sig .tc) → Buf (Elt Ideal) ((c : Thread nD τ).loc b))

/-- What point t writes back to the first output is block t of x · Wg + bg. -/
theorem flushed0_4_eq (c : Dev nD) (t : Fin cfg0.N) :
    (dat0 (F := Ideal) V c).flushed 4 t
      = ((cfg0.win 4).blk t).view.read (Elt Ideal) (G0_4 (V c main_arg0) (V c main_v6) (V c main_v14)) := by
  show (cfg0.win 4).cut (grid0.coords t) ((dat0 V c).after 4 t) = _
  rw [after0_4]
  unfold out0_4
  rw [View.canon_unit_zero hz_r0]
  simp only [View.ld_unit_zero (S := S2000x256) hz_r0, View.ld_unit_zero (S := S256x512) hz_r0, View.ld_unit_zero (S := S1x512) hz_r0]
  funext j
  obtain ⟨p, q, rfl⟩ : ∃ (p : Fin 2000) (q : Fin 512), j = ix2 p q := ⟨j 0, j 1, eq_ix2 j⟩
  refine (pay0_4_apply (iblk0 V c 0 t) (iblk0 V c 1 t) (iblk0 V c 3 t) p q).trans ?_
  exact block0_4 (V c main_arg0) (V c main_v6) (V c main_v14) t p q

/-- What point t writes back to the second output is block t of x · Wh. -/
theorem flushed0_5_eq (c : Dev nD) (t : Fin cfg0.N) :
    (dat0 (F := Ideal) V c).flushed 5 t
      = ((cfg0.win 5).blk t).view.read (Elt Ideal) (G0_5 (V c main_arg0) (V c main_v9)) := by
  show (cfg0.win 5).cut (grid0.coords t) ((dat0 V c).after 5 t) = _
  rw [after0_5]
  unfold out0_5
  rw [View.canon_unit_zero hz_r0]
  simp only [View.ld_unit_zero (S := S2000x256) hz_r0, View.ld_unit_zero (S := S256x512) hz_r0]
  funext j
  obtain ⟨p, q, rfl⟩ : ∃ (p : Fin 2000) (q : Fin 512), j = ix2 p q := ⟨j 0, j 1, eq_ix2 j⟩
  refine (pay0_5_apply (iblk0 V c 0 t) (iblk0 V c 2 t) p q).trans ?_
  exact block0_5 (V c main_arg0) (V c main_v9) t p q

/-- An index of the first output is in point t's block iff each coordinate is in the block's range on its axis. -/
theorem mem_blk0_4 (t : Fin cfg0.N) (i : S10000x512.Idx) :
    i ∈ ((cfg0.win 4).blk t).view.set ↔ ∀ a : Fin 2, win0_4.index t a * S2000x512.size a ≤ (i a).val
      ∧ (i a).val < win0_4.index t a * S2000x512.size a + S2000x512.size a := by
  show i ∈ ((View.whole main_v15_0).slice (win0_4.rect t)).set ↔ _
  rw [View.set_slice_whole, Rect.mem_set_unit]
  exact Iff.rfl

/-- The same for the second output. -/
theorem mem_blk0_5 (t : Fin cfg0.N) (i : S10000x512.Idx) :
    i ∈ ((cfg0.win 5).blk t).view.set ↔ ∀ a : Fin 2, win0_5.index t a * S2000x512.size a ≤ (i a).val
      ∧ (i a).val < win0_5.index t a * S2000x512.size a + S2000x512.size a := by
  show i ∈ ((View.whole main_v15_1).slice (win0_5.rect t)).set ↔ _
  rw [View.set_slice_whole, Rect.mem_set_unit]
  exact Iff.rfl

/-- Every index of the first output is in the block of the point its row falls in: row r is written at point r / 2000. -/
theorem covered0_4 (i : S10000x512.Idx) :
    ∃ t : Fin cfg0.N, (cfg0.win 4).flush t = true ∧ i ∈ ((cfg0.win 4).blk t).view.set := by
  have hi0 : (i 0).val < 10000 := (i 0).isLt
  have hi1 : (i 1).val < 512 := (i 1).isLt
  have hN : grid0.N = 5 := N_0
  have ht : (i 0).val / 2000 < cfg0.N := by show _ < grid0.N; rw [hN]; omega
  obtain ⟨-, -, -, -, -, -, -, -, e8, e9, -, -⟩ := idx_facts0 ⟨(i 0).val / 2000, ht⟩
  refine ⟨⟨(i 0).val / 2000, ht⟩, flush0_4 _, ?_⟩
  rw [mem_blk0_4]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    rw [e8]; show (i 0).val / 2000 * 2000 ≤ (i 0).val ∧ (i 0).val < (i 0).val / 2000 * 2000 + 2000; omega
  | ⟨1, _⟩ =>
    show win0_4.index ⟨(i 0).val / 2000, ht⟩ (1 : Fin 2) * 512 ≤ (i 1).val
      ∧ (i 1).val < win0_4.index ⟨(i 0).val / 2000, ht⟩ (1 : Fin 2) * 512 + 512
    rw [e9]; omega

/-- The same for the second output. -/
theorem covered0_5 (i : S10000x512.Idx) :
    ∃ t : Fin cfg0.N, (cfg0.win 5).flush t = true ∧ i ∈ ((cfg0.win 5).blk t).view.set := by
  have hi0 : (i 0).val < 10000 := (i 0).isLt
  have hi1 : (i 1).val < 512 := (i 1).isLt
  have hN : grid0.N = 5 := N_0
  have ht : (i 0).val / 2000 < cfg0.N := by show _ < grid0.N; rw [hN]; omega
  obtain ⟨-, -, -, -, -, -, -, -, -, -, e10, e11⟩ := idx_facts0 ⟨(i 0).val / 2000, ht⟩
  refine ⟨⟨(i 0).val / 2000, ht⟩, flush0_5 _, ?_⟩
  rw [mem_blk0_5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e10]; show (i 0).val / 2000 * 2000 ≤ (i 0).val ∧ (i 0).val < (i 0).val / 2000 * 2000 + 2000; omega
  | ⟨1, _⟩ =>
    show win0_5.index ⟨(i 0).val / 2000, ht⟩ (1 : Fin 2) * 512 ≤ (i 1).val
      ∧ (i 1).val < win0_5.index ⟨(i 0).val / 2000, ht⟩ (1 : Fin 2) * 512 + 512
    rw [e11]; omega

/-- The first output array after the run of the region: x · Wg + bg of the arrays the region finds. -/
theorem arrAt0_4 (c : Dev nD) :
    (dat0 (F := Ideal) V c).arrAt 4 cfg0.N = G0_4 (V c main_arg0) (V c main_v6) (V c main_v14) :=
  (dat0 (F := Ideal) V c).arrAt_eq_of_cover 4 (G0_4 (V c main_arg0) (V c main_v6) (V c main_v14))
    (fun t _ => flushed0_4_eq V c t) covered0_4

/-- The second output array after the run of the region: x · Wh of the arrays the region finds. -/
theorem arrAt0_5 (c : Dev nD) :
    (dat0 (F := Ideal) V c).arrAt 5 cfg0.N = G0_5 (V c main_arg0) (V c main_v9) :=
  (dat0 (F := Ideal) V c).arrAt_eq_of_cover 5 (G0_5 (V c main_arg0) (V c main_v9))
    (fun t _ => flushed0_5_eq V c t) covered0_5

end Cert.KernelIdeal.H

end
-- ==== Proof.KI.Val1.lean ====
/- The edge projection read as one array, over the extended reals: after the region has run, the product array holds at
   (r, q) the sum over k of edge_attr (r, k) · We (k, q), the entry arrays being those the region finds. A point's body
   multiplies a block of 2000 rows by the whole weight matrix; the 80 blocks of rows tile the array. -/
import proofs.«151930_g64080912056811_cont_9to1c4b_125_51_alg».proof.Proof.KI.Reg1
import Idealize.ShloMosaic.Lib.Pipeline.Value
import Idealize.ShloMosaic.Lib.ValueIdx
import Idealize.ShloMosaic.PureOps.Ideal.Laws

set_option maxRecDepth 16384

noncomputable section

namespace Cert.KernelIdeal.H

open Cert.KernelIdeal.Gen
open Idealize.ShloMosaic Idealize.ShloMosaic.TcCoe Idealize.SL.Sem
open Idealize.ShloMosaic.Pipeline (Dat)
open Idealize.ShloMosaic.ValueIdx
open scoped BigOperators

/-! ## The matmul's operand indices -/

/-- The dimension numbers of the body's matmul: rows x contraction times contraction x columns. -/
abbrev D1 := dot_S2000x16_S16x512_S2000x512_1_0_0_1_n_n

/-- At output index (p, q) and contraction position k the left operand is read at (p, k) … -/
theorem D1_lhs (p : Fin 2000) (q : Fin 512) (k : D1.contr.Idx) :
    D1.lhsIdx (ix2 p q) k = ix2 p (contrEquiv1 D1 16 rfl rfl k) := by
  funext a
  match a with
  | ⟨0, _⟩ => rfl
  | ⟨1, _⟩ => rfl

/-- … and the right operand at (k, q). -/
theorem D1_rhs (p : Fin 2000) (q : Fin 512) (k : D1.contr.Idx) :
    D1.rhsIdx (ix2 p q) k = ix2 (contrEquiv1 D1 16 rfl rfl k) q := by
  funext a
  match a with
  | ⟨0, _⟩ => rfl
  | ⟨1, _⟩ => rfl

/-- The body's stored value at (p, q): the sum over the 16 contraction positions of the products (the accumulator is the
    zero splat, so nothing is added to the sum). -/
theorem pay1_apply (x0 : Vec Ideal S2000x16 .f32) (x1 : Vec Ideal S16x512 .f32) (p : Fin 2000) (q : Fin 512) :
    k1_pay1 x0 x1 (ix2 p q) = ∑ k : Fin 16, x0 (ix2 p k) * x1 (ix2 k q) := by
  unfold k1_pay1
  rw [shapeCast_self]
  refine (Ideal.matmul_constant_zero_apply D1 none x0 x1 (ix2 p q)).trans ?_
  refine Fintype.sum_equiv (contrEquiv1 D1 16 rfl rfl) _ _ fun k => ?_
  rw [D1_lhs, D1_rhs]

/-! ## The whole product array -/

theorem hz_r1 : (![0, 0] : Fin 2 → Nat) = fun _ => 0 := funext fun a => by fin_cases a <;> rfl

/-- The matrix product of the edge attributes (160000 x 16) and the weight matrix (16 x 512), entry by entry. -/
abbrev G1_2 (ea : S160000x16.Idx → EReal) (We : S16x512.Idx → EReal) : S160000x512.Idx → EReal :=
  fun i => ∑ k : Fin 16, ea (ix2 (i 0) k) * We (ix2 k (i 1))

/-- The index maps over the 80 grid points: point t reads rows [2000 t, 2000 t + 2000) of the edge attributes, the
    whole weight matrix, and writes rows [2000 t, 2000 t + 2000) of the product. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block t of the product array, entry by entry: the rows of the edge-attribute block are rows 2000 t + p of the array, the
    weight block is the whole matrix, and the output block sits at rows 2000 t + p. -/
theorem block1_2 (ea : S160000x16.Idx → EReal) (We : S16x512.Idx → EReal) (t : Fin cfg1.N) (p : Fin 2000) (q : Fin 512) :
    ∑ k : Fin 16, ea (((cfg1.win 0).blk t).view.emb (ix2 p k)) * We (((cfg1.win 1).blk t).view.emb (ix2 k q))
      = G1_2 ea We (((cfg1.win 2).blk t).view.emb (ix2 p q)) := by
  obtain ⟨e0, e1, e2, e3, e4, e5⟩ := idx_facts1 t
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 16 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 16 + 1 * k.val = k.val; omega
    | ⟨1, _⟩ => show win1_1.index t (1 : Fin 2) * 512 + 1 * q.val = win1_2.index t (1 : Fin 2) * 512 + 1 * q.val; omega
  rw [h0, h1]
  rfl

variable (V : (c : Dev nD) → (b : Ref sig .tc) → Buf (Elt Ideal) ((c : Thread nD τ).loc b))

/-- What point t writes back is block t of the product array. -/
theorem flushed1_2_eq (c : Dev nD) (t : Fin cfg1.N) :
    (dat1 (F := Ideal) V c).flushed 2 t
      = ((cfg1.win 2).blk t).view.read (Elt Ideal) (G1_2 (V c main_arg2) (V c main_v12)) := by
  show (cfg1.win 2).cut (grid1.coords t) ((dat1 V c).after 2 t) = _
  rw [after1_2]
  unfold out1_2
  rw [View.canon_unit_zero hz_r1]
  simp only [View.ld_unit_zero (S := S2000x16) hz_r1, View.ld_unit_zero (S := S16x512) hz_r1]
  funext j
  obtain ⟨p, q, rfl⟩ : ∃ (p : Fin 2000) (q : Fin 512), j = ix2 p q := ⟨j 0, j 1, eq_ix2 j⟩
  refine (pay1_apply (iblk1 V c 0 t) (iblk1 V c 1 t) p q).trans ?_
  exact block1_2 (V c main_arg2) (V c main_v12) t p q

/-- An index of the product array is in point t's block iff each coordinate is in the block's range on its axis. -/
theorem mem_blk1_2 (t : Fin cfg1.N) (i : S160000x512.Idx) :
    i ∈ ((cfg1.win 2).blk t).view.set ↔ ∀ a : Fin 2, win1_2.index t a * S2000x512.size a ≤ (i a).val
      ∧ (i a).val < win1_2.index t a * S2000x512.size a + S2000x512.size a := by
  show i ∈ ((View.whole main_v16).slice (win1_2.rect t)).set ↔ _
  rw [View.set_slice_whole, Rect.mem_set_unit]
  exact Iff.rfl

/-- Every index of the product array is in the block of the point its row falls in: row r is written at point r / 2000. -/
theorem covered1_2 (i : S160000x512.Idx) :
    ∃ t : Fin cfg1.N, (cfg1.win 2).flush t = true ∧ i ∈ ((cfg1.win 2).blk t).view.set := by
  have hi0 : (i 0).val < 160000 := (i 0).isLt
  have hi1 : (i 1).val < 512 := (i 1).isLt
  have hN : grid1.N = 80 := N_1
  have ht : (i 0).val / 2000 < cfg1.N := by show _ < grid1.N; rw [hN]; omega
  obtain ⟨-, -, -, -, e4, e5⟩ := idx_facts1 ⟨(i 0).val / 2000, ht⟩
  refine ⟨⟨(i 0).val / 2000, ht⟩, flush1_2 _, ?_⟩
  rw [mem_blk1_2]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win1_2.index ⟨(i 0).val / 2000, ht⟩ (1 : Fin 2) * 512 ≤ (i 1).val
      ∧ (i 1).val < win1_2.index ⟨(i 0).val / 2000, ht⟩ (1 : Fin 2) * 512 + 512
    rw [e5]; omega

/-- The product array after the run of the region: the matrix product of the edge attributes and the weight matrix as the
    region finds them. -/
theorem arrAt1_2 (c : Dev nD) :
    (dat1 (F := Ideal) V c).arrAt 2 cfg1.N = G1_2 (V c main_arg2) (V c main_v12) :=
  (dat1 (F := Ideal) V c).arrAt_eq_of_cover 2 (G1_2 (V c main_arg2) (V c main_v12)) (fun t _ => flushed1_2_eq V c t) covered1_2

end Cert.KernelIdeal.H

end
-- ==== Proof.KI.Val2.lean ====
import proofs.«151930_g64080912056811_cont_9to1c4b_125_51_alg».proof.Proof.KI.Reg2
import Idealize.ShloMosaic.Lib.Pipeline.Value
import Idealize.ShloMosaic.Lib.ValueIdx
import Idealize.ShloMosaic.Lib.ValueLayout

set_option maxRecDepth 16384

noncomputable section

namespace Cert.KernelIdeal.H

open Cert.KernelIdeal.Gen
open Idealize.ShloMosaic Idealize.ShloMosaic.TcCoe Idealize.ShloMosaic.ValueIdx
open Idealize.SL.Sem
open Idealize.ShloMosaic.Pipeline (Dat)

/-! # Region 2 at the extended reals: the output array as one function of the input array

After the region's run the output array `m` (160000×256) holds at `(r, j)` the product of the logistic gate of
`z (r, j)` and the softplus of `z (r, 256 + j)`, `z` the input array (160000×512) as the region finds it. -/

/-- One entry of the edge activation from the gate's and the core's pre-activations `a`, `b`:
    `1 / (1 + exp (0 - a)) * (max b 0 + log1p (exp (0 - |b|)))`, the constants as the words the body carries
    (`0x3F800000` is one, `0x00000000` zero), the absolute value as `max b (-b)`. -/
def act2 (a b : EReal) : EReal :=
  Ideal.div (Ideal.ofBits .f32 0x3F800000#32) (Ideal.ofBits .f32 0x3F800000#32 + Ideal.exp (Ideal.ofBits .f32 0x00000000#32 - a))
    * (max b (Ideal.ofBits .f32 0x00000000#32) + Ideal.log1p (Ideal.exp (Ideal.ofBits .f32 0x00000000#32 - max b (-b))))

/-- The output array of region 2 as a function of its input array `z`: at `(r, j)` the activation of `z (r, j)` and
    `z (r, 256 + j)`. -/
def G2_1 (z : S160000x512.Idx → EReal) : S160000x256.Idx → EReal := fun i =>
  act2 (z (ix2 (⟨(i 0).val, idx2_lt0 i⟩ : Fin 160000) (⟨(i 1).val, by have := idx2_lt1 i; omega⟩ : Fin 512)))
    (z (ix2 (⟨(i 0).val, idx2_lt0 i⟩ : Fin 160000) (⟨256 + (i 1).val, by have := idx2_lt1 i; omega⟩ : Fin 512)))

/-! ## The payload at an index -/

/-- The left half of a 2000×512 block read at `(r, j)`. -/
theorem slice2_lo {α : Type} (x : S2000x512.Idx → α) (r : Fin 2000) (j : Fin 256) :
    extractStridedSlice S2000x256 ![0, 0] (shapeCast S2000x512 x shapeCasts_S2000x512_S2000x512) slices_S2000x512_o0_0_S2000x256 (ix2 r j)
      = x (ix2 r (⟨j.val, by omega⟩ : Fin 512)) := by
  rw [shapeCast_self]
  refine extractStridedSlice_apply _ _ _ _ (ix2 r (⟨j.val, by omega⟩ : Fin 512)) fun a => ?_
  match a with
  | ⟨0, _⟩ => show r.val = 0 + r.val; omega
  | ⟨1, _⟩ => show j.val = 0 + j.val; omega

/-- The right half of a 2000×512 block read at `(r, j)`. -/
theorem slice2_hi {α : Type} (x : S2000x512.Idx → α) (r : Fin 2000) (j : Fin 256) :
    extractStridedSlice S2000x256 ![0, 256] (shapeCast S2000x512 x shapeCasts_S2000x512_S2000x512) slices_S2000x512_o0_256_S2000x256 (ix2 r j)
      = x (ix2 r (⟨256 + j.val, by omega⟩ : Fin 512)) := by
  rw [shapeCast_self]
  refine extractStridedSlice_apply _ _ _ _ (ix2 r (⟨256 + j.val, by omega⟩ : Fin 512)) fun a => ?_
  match a with
  | ⟨0, _⟩ => show r.val = 0 + r.val; omega
  | ⟨1, _⟩ => show 256 + j.val = 256 + j.val; rfl

/-- The body's payload at `(r, j)`: every operation of it is pointwise but the two slices. -/
theorem pay2_apply (x0 : Vec Ideal S2000x512 .f32) (r : Fin 2000) (j : Fin 256) :
    k2_pay1 x0 (ix2 r j) = act2 (x0 (ix2 r (⟨j.val, by omega⟩ : Fin 512))) (x0 (ix2 r (⟨256 + j.val, by omega⟩ : Fin 512))) := by
  have h : k2_pay1 x0 (ix2 r j)
      = act2 (extractStridedSlice S2000x256 ![0, 0] (shapeCast S2000x512 x0 shapeCasts_S2000x512_S2000x512) slices_S2000x512_o0_0_S2000x256 (ix2 r j))
          (extractStridedSlice S2000x256 ![0, 256] (shapeCast S2000x512 x0 shapeCasts_S2000x512_S2000x512) slices_S2000x512_o0_256_S2000x256 (ix2 r j)) := rfl
  rw [h, slice2_lo, slice2_hi]

/-- The payload of a block `x0` at `(p, q)` is the array's function at `(R, q)` when row `p` of the block is row `R`
    of the array. -/
theorem point2 (z : S160000x512.Idx → EReal) (x0 : Vec Ideal S2000x512 .f32) (p : Fin 2000) (q : Fin 256) (R : Fin 160000)
    (hx : ∀ k : Fin 512, x0 (ix2 p k) = z (ix2 R k)) : k2_pay1 x0 (ix2 p q) = G2_1 z (ix2 R q) := by
  rw [pay2_apply, hx, hx]
  rfl

/-! ## From blocks to the array -/

theorem hz2 : (![0, 0] : Fin 2 → Nat) = fun _ => 0 := funext fun a => by fin_cases a <;> rfl

/-- The printed index maps over the grid: point `t` reads block `(t, 0)` and writes block `(t, 0)`. -/
theorem idx_facts2 : ∀ t : Fin cfg2.N, win2_1.index t (0 : Fin 2) = t.val ∧ win2_1.index t (1 : Fin 2) = 0
    ∧ win2_0.index t (0 : Fin 2) = t.val ∧ win2_0.index t (1 : Fin 2) = 0 :=
  (by decide +kernel : ∀ t : Fin grid2.N, win2_1.index t (0 : Fin 2) = t.val ∧ win2_1.index t (1 : Fin 2) = 0
    ∧ win2_0.index t (0 : Fin 2) = t.val ∧ win2_0.index t (1 : Fin 2) = 0)

variable (V : (c : Dev nD) → (b : Ref sig .tc) → Buf (Elt Ideal) ((c : Thread nD τ).loc b))

/-- What point `t` writes back is block `t` of `G2_1` of the input array as the region finds it. -/
theorem flushed2_eq (c : Dev nD) (t : Fin cfg2.N) :
    (dat2 V c).flushed 1 t = ((cfg2.win 1).blk t).view.read (Elt Ideal) (G2_1 (V c main_v34)) := by
  show (cfg2.win 1).cut (grid2.coords t) ((dat2 V c).after 1 t) = _
  rw [after2_1]
  unfold out2_1
  rw [View.canon_unit_zero hz2]
  simp only [View.ld_unit_zero (S := S2000x512) hz2]
  obtain ⟨e0, e1, e2, e3⟩ := idx_facts2 t
  have hN : grid2.N = 80 := N_2
  have ht : t.val < 80 := hN ▸ t.isLt
  refine funext fun (j : S2000x256.Idx) => ?_
  obtain ⟨p, q, rfl⟩ : ∃ (p : Fin 2000) (q : Fin 256), j = ix2 p q := ⟨j 0, j 1, eq_ix2 j⟩
  have hR : win2_1.index t (0 : Fin 2) * 2000 + p.val < 160000 := by omega
  show k2_pay1 (iblk2 V c 0 t) (ix2 p q) = G2_1 (V c main_v34) (((cfg2.win 1).blk t).view.emb (ix2 p q))
  have hemb : ((cfg2.win 1).blk t).view.emb (ix2 p q) = ix2 (⟨win2_1.index t (0 : Fin 2) * 2000 + p.val, hR⟩ : Fin 160000) q := by
    funext a; apply Fin.ext
    match a with
    | ⟨0, _⟩ => show win2_1.index t (0 : Fin 2) * 2000 + 1 * p.val = win2_1.index t (0 : Fin 2) * 2000 + p.val; omega
    | ⟨1, _⟩ => show win2_1.index t (1 : Fin 2) * 256 + 1 * q.val = q.val; omega
  rw [hemb]
  refine point2 _ _ p q _ fun k => ?_
  show V c main_v34 (((cfg2.win 0).blk t).view.emb (ix2 p k)) = V c main_v34 (ix2 (⟨win2_1.index t (0 : Fin 2) * 2000 + p.val, hR⟩ : Fin 160000) k)
  refine congrArg _ ?_
  funext a; apply Fin.ext
  match a with
  | ⟨0, _⟩ => show win2_0.index t (0 : Fin 2) * 2000 + 1 * p.val = win2_1.index t (0 : Fin 2) * 2000 + p.val; omega
  | ⟨1, _⟩ => show win2_0.index t (1 : Fin 2) * 512 + 1 * k.val = k.val; omega

/-- An index of the output array is in point `t`'s block iff each coordinate is in the block's range on its axis. -/
theorem mem_blk2 (t : Fin cfg2.N) (i : S160000x256.Idx) :
    i ∈ ((cfg2.win 1).blk t).view.set ↔ ∀ a : Fin 2, win2_1.index t a * S2000x256.size a ≤ (i a).val ∧ (i a).val < win2_1.index t a * S2000x256.size a + S2000x256.size a := by
  show i ∈ ((View.whole main_v35).slice (win2_1.rect t)).set ↔ _
  rw [View.set_slice_whole, Rect.mem_set_unit]
  exact Iff.rfl

/-- Every index of the output array is in the block of the point its row falls in: row `r` in block `r / 2000`. -/
theorem cover2 (i : S160000x256.Idx) : ∃ t : Fin cfg2.N, (cfg2.win 1).flush t = true ∧ i ∈ ((cfg2.win 1).blk t).view.set := by
  have hi0 : (i 0).val < 160000 := idx2_lt0 i
  have hi1 : (i 1).val < 256 := idx2_lt1 i
  have hN : grid2.N = 80 := N_2
  obtain ⟨t, ht⟩ : ∃ t : Fin cfg2.N, t.val = (i 0).val / 2000 := ⟨⟨(i 0).val / 2000, by show _ < grid2.N; omega⟩, rfl⟩
  obtain ⟨e0, e1, -, -⟩ := idx_facts2 t
  refine ⟨t, flush2_1 t, ?_⟩
  rw [mem_blk2]
  intro a
  match a with
  | ⟨0, _⟩ => show win2_1.index t (0 : Fin 2) * 2000 ≤ (i 0).val ∧ (i 0).val < win2_1.index t (0 : Fin 2) * 2000 + 2000; omega
  | ⟨1, _⟩ => show win2_1.index t (1 : Fin 2) * 256 ≤ (i 1).val ∧ (i 1).val < win2_1.index t (1 : Fin 2) * 256 + 256; omega

/-- THE OUTPUT ARRAY after the region's run: `G2_1` of the input array as the region finds it. -/
theorem arrAt2_1 (c : Dev nD) : (dat2 (F := Ideal) V c).arrAt 1 cfg2.N = G2_1 (V c main_v34) :=
  (dat2 V c).arrAt_eq_of_cover 1 (G2_1 (V c main_v34)) (fun t _ => flushed2_eq V c t) cover2

end Cert.KernelIdeal.H

end
-- ==== Proof.KI.LibSplitSum.lean ====
/-
  Splitting a finite sum over `Fin (m + n + p)` into its three consecutive groups, and the
  528-term dot product of a row assembled from three pieces (256 + 256 + 16 entries) against one
  column as the sum of the three partial dot products. Everything is stated in a commutative additive
  monoid or in the extended reals, where addition is commutative and associative with no finiteness
  side condition.
-/
import Mathlib.Algebra.BigOperators.Fin
import Mathlib.Data.EReal.Basic

namespace Cert.KernelIdeal.H.Math

open scoped BigOperators

/-- A sum over `Fin (m + n + p)` is the sum of its first `m` terms, its next `n` terms and its last `p` terms. -/
theorem sum_split3 {M : Type*} [AddCommMonoid M] (m n p : ℕ) (f : Fin (m + n + p) → M) :
    ∑ k : Fin (m + n + p), f k
      = (∑ i : Fin m, f ⟨i.val, by omega⟩) + (∑ i : Fin n, f ⟨m + i.val, by omega⟩)
        + ∑ i : Fin p, f ⟨m + n + i.val, by omega⟩ := by
  rw [Fin.sum_univ_add, Fin.sum_univ_add]
  rfl

/-- The 528 terms of a sum, as 256 + 256 + 16. -/
theorem sum_528 {M : Type*} [AddCommMonoid M] (f : Fin 528 → M) :
    ∑ k : Fin 528, f k
      = (∑ i : Fin 256, f ⟨i.val, by omega⟩) + (∑ i : Fin 256, f ⟨256 + i.val, by omega⟩)
        + ∑ i : Fin 16, f ⟨512 + i.val, by omega⟩ :=
  sum_split3 256 256 16 f

/-- The row of 528 entries assembled from `a` (entries 0..255), `b` (256..511) and `e` (512..527). -/
def cat3 {α : Type*} (a b : Fin 256 → α) (e : Fin 16 → α) (k : Fin 528) : α :=
  if h : k.val < 256 then a ⟨k.val, h⟩
  else if h2 : k.val < 512 then b ⟨k.val - 256, by omega⟩
  else e ⟨k.val - 512, by omega⟩

theorem cat3_lo {α : Type*} (a b : Fin 256 → α) (e : Fin 16 → α) (i : Fin 256) (h : i.val < 528) :
    cat3 a b e ⟨i.val, h⟩ = a i := by
  simp [cat3, i.isLt]

theorem cat3_mid {α : Type*} (a b : Fin 256 → α) (e : Fin 16 → α) (i : Fin 256) (h : 256 + i.val < 528) :
    cat3 a b e ⟨256 + i.val, h⟩ = b i := by
  have h1 : ¬ (256 + i.val < 256) := by omega
  have h2 : 256 + i.val < 512 := by have := i.isLt; omega
  simp only [cat3, h1, h2, dif_neg, dif_pos, not_false_eq_true]
  congr 1; apply Fin.ext; simp

theorem cat3_hi {α : Type*} (a b : Fin 256 → α) (e : Fin 16 → α) (i : Fin 16) (h : 512 + i.val < 528) :
    cat3 a b e ⟨512 + i.val, h⟩ = e i := by
  have h1 : ¬ (512 + i.val < 256) := by omega
  have h2 : ¬ (512 + i.val < 512) := by omega
  simp only [cat3, h1, h2, dif_neg, not_false_eq_true]
  congr 1; apply Fin.ext; simp

/-- The dot product of the assembled row with a column of 528 entries is the sum of the three
    partial dot products. -/
theorem dot528_split (a b : Fin 256 → EReal) (e : Fin 16 → EReal) (W : Fin 528 → EReal) :
    ∑ k : Fin 528, cat3 a b e k * W k
      = (∑ i : Fin 256, a i * W ⟨i.val, by omega⟩) + (∑ i : Fin 256, b i * W ⟨256 + i.val, by omega⟩)
        + ∑ i : Fin 16, e i * W ⟨512 + i.val, by omega⟩ := by
  rw [sum_528]
  simp only [cat3_lo, cat3_mid, cat3_hi]

/-- The same with a bias added after the whole dot product on one side and inside the first group
    on the other. -/
theorem dot528_split_add_bias (a b : Fin 256 → EReal) (e : Fin 16 → EReal) (W : Fin 528 → EReal) (β : EReal) :
    (∑ k : Fin 528, cat3 a b e k * W k) + β
      = ((∑ i : Fin 256, a i * W ⟨i.val, by omega⟩) + β) + (∑ i : Fin 256, b i * W ⟨256 + i.val, by omega⟩)
        + ∑ i : Fin 16, e i * W ⟨512 + i.val, by omega⟩ := by
  rw [dot528_split]
  abel

/-- The bias on the left. -/
theorem dot528_split_bias_add (a b : Fin 256 → EReal) (e : Fin 16 → EReal) (W : Fin 528 → EReal) (β : EReal) :
    β + (∑ k : Fin 528, cat3 a b e k * W k)
      = (β + (∑ i : Fin 256, a i * W ⟨i.val, by omega⟩)) + (∑ i : Fin 256, b i * W ⟨256 + i.val, by omega⟩)
        + ∑ i : Fin 16, e i * W ⟨512 + i.val, by omega⟩ := by
  rw [dot528_split]
  abel

/-- A sum over `Fin (n * b)` taken block by block: `n` consecutive blocks of `b` terms each. -/
theorem sum_blocks {M : Type*} [AddCommMonoid M] (n b : ℕ) (f : Fin (n * b) → M) :
    ∑ i : Fin (n * b), f i
      = ∑ t : Fin n, ∑ r : Fin b, f ⟨t.val * b + r.val,
          Nat.lt_of_lt_of_le (Nat.add_lt_add_left r.isLt _)
            (by rw [← Nat.succ_mul]; exact Nat.mul_le_mul_right b t.isLt)⟩ := by
  rw [← Equiv.sum_comp finProdFinEquiv f, Fintype.sum_prod_type]
  refine Finset.sum_congr rfl fun t _ => Finset.sum_congr rfl fun r _ => congrArg f (Fin.ext ?_)
  simp only [finProdFinEquiv_apply_val]
  rw [Nat.mul_comm, Nat.add_comm]

/-- The 10000 terms of a sum, as 5 blocks of 2000. -/
theorem sum_10000_blocks {M : Type*} [AddCommMonoid M] (f : Fin 10000 → M) :
    ∑ i : Fin 10000, f i = ∑ t : Fin 5, ∑ r : Fin 2000, f ⟨t.val * 2000 + r.val, by omega⟩ :=
  sum_blocks 5 2000 f

end Cert.KernelIdeal.H.Math
-- ==== Proof.KI.Val3.lean ====
import proofs.«151930_g64080912056811_cont_9to1c4b_125_51_alg».proof.Proof.KI.Reg3
import proofs.«151930_g64080912056811_cont_9to1c4b_125_51_alg».proof.Proof.KI.LibSplitSum
import Idealize.ShloMosaic.Lib.ValueIdx
import Idealize.ShloMosaic.Lib.ValueLayout
import Idealize.ShloMosaic.Lib.Pipeline.Value
import Idealize.ShloMosaic.PureOps.Ideal.Laws

/-! # Region 3's output, as one function of the region's input arrays

At the ideal values. A block's statistics vector has, in row 0, the column sums of the block of `agg + x` and, in row 1,
the column sums of its entrywise square (a concatenation of two lane-preserving reductions over the block's 2000 rows).
The accumulator after the last block is the sum of the five blocks' vectors; the one write-back copies it to the
2 x 256 output array. Since a block's row `r` at point `t` is row `2000 t + r` of the array, the output is, entry by
entry, a sum over the five blocks of a sum over each block's rows, which is the sum over all 10000 rows. -/

set_option maxRecDepth 16384

noncomputable section

namespace Cert.KernelIdeal.H

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Idealize.ShloMosaic.ValueIdx
open Cert.KernelIdeal.Gen

/-! ## The block statistics at an index, at the ideal values -/

/-- The column sums of a 2000 x 256 block, read at a column. -/
theorem colsum_apply (v : FVec Ideal S2000x256 .f32) (h : S2000x256.Reduces [0] S256) (hφ : FKind.Formats .f32)
    (hacc : (0x00000000#32 : BitVec 32) = FKind.add.neutral .f32 hφ) (q : Fin 256) :
    multiReduction .add [0] S256 v 0x00000000#32 h hφ hacc (ix1 q) = ∑ r : Fin 2000, v (ix2 r q) := by
  refine (Ideal.multiReduction_add_single v 0x00000000#32 h hφ hacc (ix1 q)).trans ?_
  refine Finset.sum_congr rfl (fun r _ => congrArg v (funext fun a => ?_))
  fin_cases a <;> rfl

/-- Row 0 of a block's statistics: the column sums of `x0 + x1`. -/
theorem pay1_row0 (x0 x1 : Vec Ideal S2000x256 .f32) (q : Fin 256) :
    k3_pay1 (F := Ideal) x0 x1 (ix2 (0 : Fin 2) q) = ∑ r : Fin 2000, (x0 (ix2 r q) + x1 (ix2 r q)) := by
  unfold k3_pay1
  refine (concatenate_pair_apply_left (t := S2x256) (s₁ := S1x256) (s₂ := S1x256) (0 : Fin 2) _ _ _ (ix2 (0 : Fin 2) q) rfl (ix2 (0 : Fin 1) q) (fun b => by fin_cases b <;> rfl)).trans ?_
  refine (shapeCast_a_1a_apply _ _ (0 : Fin 1) q).trans ?_
  refine (colsum_apply _ _ _ _ q).trans ?_
  refine Finset.sum_congr rfl (fun r _ => ?_)
  rw [addf_apply, shapeCast_self]

/-- Row 1: the column sums of its entrywise square. -/
theorem pay1_row1 (x0 x1 : Vec Ideal S2000x256 .f32) (q : Fin 256) :
    k3_pay1 (F := Ideal) x0 x1 (ix2 (1 : Fin 2) q) = ∑ r : Fin 2000, (x0 (ix2 r q) + x1 (ix2 r q)) * (x0 (ix2 r q) + x1 (ix2 r q)) := by
  unfold k3_pay1
  refine (concatenate_pair_apply_right (t := S2x256) (s₁ := S1x256) (s₂ := S1x256) (0 : Fin 2) _ _ _ (ix2 (1 : Fin 2) q) rfl rfl (ix2 (0 : Fin 1) q) (fun b hb => ?_) rfl).trans ?_
  · fin_cases b
    · exact absurd rfl hb
    · rfl
  refine (shapeCast_a_1a_apply _ _ (0 : Fin 1) q).trans ?_
  refine (colsum_apply _ _ _ _ q).trans ?_
  refine Finset.sum_congr rfl (fun r _ => ?_)
  rw [mulf_apply, addf_apply, shapeCast_self]

/-! ## From the accumulator to the output array -/

section Array
variable {F : FTy → Type} [FloatOps F] [Named F]
variable (V : (c : Dev nD) → (b : Ref sig .tc) → Buf (Elt F) ((c : Thread nD τ).loc b))

theorem lt4 : 4 < cfg3.N := lt_of_lt_of_eq (by decide : 4 < 5) N_3.symm

/-- The index maps, decided over the grid: each input window's block index is the point's number along the rows and 0
    along the columns; the output window's block is always the whole 2 x 256 array. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem k3_pay2_eq (x0 x1 : Vec F S2000x256 .f32) : k3_pay2 x0 x1 = k3_pay1 x0 x1 := by
  unfold k3_pay2; exact shapeCast_self _ _

theorem k3_pay3_eq (x0 x1 : Vec F S2000x256 .f32) (xs : Vec F S2x256 .f32) : k3_pay3 x0 x1 xs = addf xs (k3_pay1 x0 x1) := by
  unfold k3_pay3; exact shapeCast_self _ _

/-- What the one write-back (at the last point) writes is the accumulator's final contents, as a block of itself. -/
theorem flushed3_2_eq (c : Dev nD) (t : Fin cfg3.N) (hf : (cfg3.win 2).flush t = true) :
    (dat3 V c).flushed 2 t = ((cfg3.win 2).blk t).view.read (Elt F) (acc3 V c 4 lt4) := by
  have h4 : t.val = 4 := by
    have h := (flush3_2 t).mp hf
    have hN : t.val < 5 := lt_of_lt_of_eq t.isLt (show cfg3.N = 5 from N_3)
    omega
  show (cfg3.win 2).cut (grid3.coords t) ((dat3 V c).after 2 t) = _
  rw [after3_2]
  obtain ⟨e0, e1, e2, e3, e4, e5⟩ := idx_facts3 t
  obtain ⟨n, hn⟩ := t
  dsimp only at h4
  subst h4
  funext j
  show acc3 V c 4 hn j = acc3 V c 4 lt4 (((cfg3.win 2).blk ⟨4, hn⟩).view.emb j)
  refine congrArg (acc3 V c 4 hn) (funext fun a => Fin.ext ?_)
  match a with
  | ⟨0, _⟩ => show (j 0).val = win3_2.index ⟨4, hn⟩ (0 : Fin 2) * 2 + 1 * (j 0).val; omega
  | ⟨1, _⟩ => show (j 1).val = win3_2.index ⟨4, hn⟩ (1 : Fin 2) * 256 + 1 * (j 1).val; omega

theorem mem_blk3_2 (t : Fin cfg3.N) (i : S2x256.Idx) :
    i ∈ ((cfg3.win 2).blk t).view.set ↔ ∀ a : Fin 2, win3_2.index t a * S2x256.size a ≤ (i a).val ∧ (i a).val < win3_2.index t a * S2x256.size a + S2x256.size a := by
  show i ∈ ((View.whole main_v39).slice (win3_2.rect t)).set ↔ _
  rw [View.set_slice_whole, Rect.mem_set_unit]
  exact Iff.rfl

/-- THE OUTPUT ARRAY after the region: what the accumulator holds after the last block. -/
theorem arrAt3_2_acc (c : Dev nD) : (dat3 V c).arrAt 2 cfg3.N = acc3 V c 4 lt4 :=
  (dat3 V c).arrAt_eq_of_cover 2 (acc3 V c 4 lt4) (fun t hf => flushed3_2_eq V c t hf) (fun i => by
    refine ⟨⟨4, lt4⟩, (flush3_2 _).mpr rfl, ?_⟩
    rw [mem_blk3_2]
    obtain ⟨e0, e1, e2, e3, e4, e5⟩ := idx_facts3 ⟨4, lt4⟩
    intro a
    match a with
    | ⟨0, _⟩ => show win3_2.index ⟨4, lt4⟩ (0 : Fin 2) * 2 ≤ (i 0).val ∧ (i 0).val < win3_2.index ⟨4, lt4⟩ (0 : Fin 2) * 2 + 2; have h0 : (i 0).val < 2 := (i 0).isLt; omega
    | ⟨1, _⟩ => show win3_2.index ⟨4, lt4⟩ (1 : Fin 2) * 256 ≤ (i 1).val ∧ (i 1).val < win3_2.index ⟨4, lt4⟩ (1 : Fin 2) * 256 + 256; have h1 : (i 1).val < 256 := (i 1).isLt; omega)

/-- An input block's entry is the array's entry 2000 rows per block further down. -/
theorem iblk3_0_apply (c : Dev nD) (t : Fin cfg3.N) (r : Fin 2000) (q : Fin 256) (h : t.val * 2000 + r.val < 10000) :
    iblk3 V c 0 t (ix2 r q) = (V c main_v38 : S10000x256.Idx → Elt F .f32) (ix2 ⟨t.val * 2000 + r.val, h⟩ q) := by
  obtain ⟨e0, e1, e2, e3, e4, e5⟩ := idx_facts3 t
  show V c main_v38 (((cfg3.win 0).blk t).view.emb (ix2 r q)) = V c main_v38 (ix2 ⟨t.val * 2000 + r.val, h⟩ q)
  refine congrArg (V c main_v38) (funext fun a => Fin.ext ?_)
  match a with
  | ⟨0, _⟩ => show win3_0.index t (0 : Fin 2) * 2000 + 1 * r.val = t.val * 2000 + r.val; omega
  | ⟨1, _⟩ => show win3_0.index t (1 : Fin 2) * 256 + 1 * q.val = q.val; omega

theorem iblk3_1_apply (c : Dev nD) (t : Fin cfg3.N) (r : Fin 2000) (q : Fin 256) (h : t.val * 2000 + r.val < 10000) :
    iblk3 V c 1 t (ix2 r q) = (V c main_arg0 : S10000x256.Idx → Elt F .f32) (ix2 ⟨t.val * 2000 + r.val, h⟩ q) := by
  obtain ⟨e0, e1, e2, e3, e4, e5⟩ := idx_facts3 t
  show V c main_arg0 (((cfg3.win 1).blk t).view.emb (ix2 r q)) = V c main_arg0 (ix2 ⟨t.val * 2000 + r.val, h⟩ q)
  refine congrArg (V c main_arg0) (funext fun a => Fin.ext ?_)
  match a with
  | ⟨0, _⟩ => show win3_1.index t (0 : Fin 2) * 2000 + 1 * r.val = t.val * 2000 + r.val; omega
  | ⟨1, _⟩ => show win3_1.index t (1 : Fin 2) * 256 + 1 * q.val = q.val; omega

end Array

/-! ## The closed form at the ideal values -/

section Closed
variable (V : (c : Dev nD) → (b : Ref sig .tc) → Buf (Elt Ideal) ((c : Thread nD τ).loc b))

/-- `conv = agg + x` at row `k`, column `q`. -/
def conv3 (agg x : S10000x256.Idx → EReal) (k : Fin 10000) (q : Fin 256) : EReal := agg (ix2 k q) + x (ix2 k q)

/-- The statistics, block by block: row 0 the column sums of `conv`, row 1 those of its square; the 10000 rows taken
    as 5 blocks of 2000. -/
def stat3B (agg x : S10000x256.Idx → EReal) (p : Fin 2) (q : Fin 256) : EReal :=
  if p.val = 0 then ∑ t : Fin 5, ∑ r : Fin 2000, conv3 agg x ⟨t.val * 2000 + r.val, by omega⟩ q
  else ∑ t : Fin 5, ∑ r : Fin 2000, conv3 agg x ⟨t.val * 2000 + r.val, by omega⟩ q * conv3 agg x ⟨t.val * 2000 + r.val, by omega⟩ q

/-- The statistics over all rows at once. -/
def stat3 (agg x : S10000x256.Idx → EReal) (p : Fin 2) (q : Fin 256) : EReal :=
  if p.val = 0 then ∑ k : Fin 10000, conv3 agg x k q
  else ∑ k : Fin 10000, conv3 agg x k q * conv3 agg x k q

/-- Summing block by block is summing over all rows. -/
theorem stat3B_eq (agg x : S10000x256.Idx → EReal) (p : Fin 2) (q : Fin 256) : stat3B agg x p q = stat3 agg x p q := by
  unfold stat3B stat3
  rw [Math.sum_10000_blocks (fun k => conv3 agg x k q), Math.sum_10000_blocks (fun k => conv3 agg x k q * conv3 agg x k q)]

/-- One block's statistics, row 0, in terms of the arrays. -/
theorem st_row0 (c : Dev nD) (t : Fin cfg3.N) (ht : t.val < 5) (q : Fin 256) :
    k3_pay1 (F := Ideal) (iblk3 V c 0 t) (iblk3 V c 1 t) (ix2 (0 : Fin 2) q)
      = ∑ r : Fin 2000, conv3 (V c main_v38) (V c main_arg0) ⟨t.val * 2000 + r.val, by omega⟩ q := by
  refine (pay1_row0 (iblk3 V c 0 t) (iblk3 V c 1 t) q).trans (Finset.sum_congr rfl fun r _ => ?_)
  unfold conv3
  rw [iblk3_0_apply V c t r q (by omega), iblk3_1_apply V c t r q (by omega)]

/-- Row 1. -/
theorem st_row1 (c : Dev nD) (t : Fin cfg3.N) (ht : t.val < 5) (q : Fin 256) :
    k3_pay1 (F := Ideal) (iblk3 V c 0 t) (iblk3 V c 1 t) (ix2 (1 : Fin 2) q)
      = ∑ r : Fin 2000, conv3 (V c main_v38) (V c main_arg0) ⟨t.val * 2000 + r.val, by omega⟩ q
          * conv3 (V c main_v38) (V c main_arg0) ⟨t.val * 2000 + r.val, by omega⟩ q := by
  refine (pay1_row1 (iblk3 V c 0 t) (iblk3 V c 1 t) q).trans (Finset.sum_congr rfl fun r _ => ?_)
  unfold conv3
  rw [iblk3_0_apply V c t r q (by omega), iblk3_1_apply V c t r q (by omega)]

/-- The accumulator after point `n` is the sum of the statistics of blocks 0..n (addition in the extended reals is
    commutative and associative, so the order of accumulation does not matter). -/
theorem acc3_apply (c : Dev nD) (j : S2x256.Idx) : ∀ (n : ℕ) (h : n < cfg3.N),
    acc3 V c n h j = ∑ t : Fin (n + 1), k3_pay1 (F := Ideal) (iblk3 V c 0 ⟨t.val, Nat.lt_of_lt_of_le t.isLt h⟩) (iblk3 V c 1 ⟨t.val, Nat.lt_of_lt_of_le t.isLt h⟩) j
  | 0, h => by
    rw [Fin.sum_univ_one]
    show k3_pay2 (iblk3 V c 0 ⟨0, h⟩) (iblk3 V c 1 ⟨0, h⟩) j = _
    rw [k3_pay2_eq]
    rfl
  | n + 1, h => by
    rw [Fin.sum_univ_castSucc]
    show k3_pay3 (iblk3 V c 0 ⟨n + 1, h⟩) (iblk3 V c 1 ⟨n + 1, h⟩) (acc3 V c n (Nat.lt_of_succ_lt h)) j = _
    rw [k3_pay3_eq, addf_apply, acc3_apply c j n (Nat.lt_of_succ_lt h)]
    rfl

/-- THE OUTPUT ARRAY of region 3, block by block. -/
theorem arrAt3_2_blocks (c : Dev nD) :
    (dat3 (F := Ideal) V c).arrAt 2 cfg3.N = fun i => stat3B (V c main_v38) (V c main_arg0) (i 0) (i 1) := by
  rw [arrAt3_2_acc]
  funext i
  obtain ⟨p, q, rfl⟩ : ∃ (p : Fin 2) (q : Fin 256), i = ix2 p q := ⟨i 0, i 1, eq_ix2 i⟩
  rw [acc3_apply V c (ix2 p q) 4 lt4]
  show _ = stat3B (V c main_v38) (V c main_arg0) p q
  unfold stat3B
  by_cases hp : p.val = 0
  · obtain rfl : p = 0 := Fin.ext hp
    rw [if_pos hp]
    exact Finset.sum_congr rfl fun t _ => st_row0 V c ⟨t.val, Nat.lt_of_lt_of_le t.isLt lt4⟩ t.isLt q
  · obtain rfl : p = 1 := Fin.ext (by have := p.isLt; show p.val = 1; omega)
    rw [if_neg hp]
    exact Finset.sum_congr rfl fun t _ => st_row1 V c ⟨t.val, Nat.lt_of_lt_of_le t.isLt lt4⟩ t.isLt q

/-- THE OUTPUT ARRAY of region 3: row 0 the column sums over all 10000 rows of `agg + x`, row 1 those of its square. -/
theorem arrAt3_2 (c : Dev nD) :
    (dat3 (F := Ideal) V c).arrAt 2 cfg3.N = fun i => stat3 (V c main_v38) (V c main_arg0) (i 0) (i 1) := by
  rw [arrAt3_2_blocks]
  funext i
  exact stat3B_eq _ _ _ _

end Closed

end Cert.KernelIdeal.H
end
-- ==== Proof.KI.Val4.lean ====
import proofs.«151930_g64080912056811_cont_9to1c4b_125_51_alg».proof.Proof.KI.Reg4
import Idealize.ShloMosaic.Lib.Pipeline.Value
import Idealize.ShloMosaic.Lib.ValueIdx
import Idealize.ShloMosaic.Lib.ValueLayout

set_option maxRecDepth 16384

noncomputable section

namespace Cert.KernelIdeal.H

open Cert.KernelIdeal.Gen
open Idealize.ShloMosaic Idealize.ShloMosaic.TcCoe Idealize.ShloMosaic.ValueIdx
open Idealize.SL.Sem
open Idealize.ShloMosaic.Pipeline (Dat)

/-! # Region 4 at the extended reals: the output array as one function of the input arrays

After the region's run the output array (10000×256) holds at `(r, j)`
`x + n * (1 / (1 + exp (0 - n)))` with `n = (agg + x - mean) * rsqrt (var + eps) * gamma + beta`, where `agg` and `x`
are read at `(r, j)`, `gamma` and `beta` at `(0, j)`, and column `j`'s `mean = s0 * inv` and
`var = s1 * inv - mean * mean` come from the statistics' two rows `s0 = stats (0, j)`, `s1 = stats (1, j)`; `inv` is the
body's named constant, kept as the name. -/

/-- The reciprocal of the number of rows, as the body names it. -/
def inv4 : EReal := Named.named (F := Ideal) κ "inv_10000" (φ := .f32) 0x38D1B717#32
/-- A column's mean from its sum. -/
def mean4 (s0 : EReal) : EReal := s0 * inv4
/-- A column's reciprocal standard deviation from its sum and its sum of squares (the word `0x3727C5AC` is the
    body's epsilon). -/
def rstd4 (s0 s1 : EReal) : EReal := Ideal.rsqrt (s1 * inv4 - mean4 s0 * mean4 s0 + Ideal.ofBits .f32 0x3727C5AC#32)
/-- One normalised, scaled and shifted entry. -/
def norm4 (agg x s0 s1 g b : EReal) : EReal := (agg + x - mean4 s0) * rstd4 s0 s1 * g + b
/-- `n * (1 / (1 + exp (0 - n)))`, the constants as the words the body carries. -/
def silu4 (n : EReal) : EReal :=
  n * Ideal.div (Ideal.ofBits .f32 0x3F800000#32) (Ideal.ofBits .f32 0x3F800000#32 + Ideal.exp (Ideal.ofBits .f32 0x00000000#32 - n))
/-- One entry of the region's result. -/
def bn4 (agg x s0 s1 g b : EReal) : EReal := x + silu4 (norm4 agg x s0 s1 g b)

/-- The output array of region 4 as a function of the aggregate `agg`, the features `x`, the statistics `st`, the
    scale `g` and the shift `b`. -/
def G4_5 (agg x : S10000x256.Idx → EReal) (st : S2x256.Idx → EReal) (g b : S1x256.Idx → EReal) : S10000x256.Idx → EReal := fun i =>
  bn4 (agg i) (x i) (st (ix2 (0 : Fin 2) (⟨(i 1).val, idx2_lt1 i⟩ : Fin 256))) (st (ix2 (1 : Fin 2) (⟨(i 1).val, idx2_lt1 i⟩ : Fin 256)))
    (g (ix2 (0 : Fin 1) (⟨(i 1).val, idx2_lt1 i⟩ : Fin 256))) (b (ix2 (0 : Fin 1) (⟨(i 1).val, idx2_lt1 i⟩ : Fin 256)))

/-! ## The payload at an index -/

/-- The body's payload at `(p, q)`: every operation of it is pointwise but the broadcasts of the four rows. -/
theorem pay4_apply (v0 v1 : Vec Ideal S2000x256 .f32) (v4 v8 v21 v25 : Vec Ideal S1x256 .f32) (p : Fin 2000) (q : Fin 256) :
    k4_pay1 v0 v1 v4 v8 v21 v25 (ix2 p q)
      = bn4 (v1 (ix2 p q)) (v0 (ix2 p q)) (v4 (ix2 (0 : Fin 1) q)) (v8 (ix2 (0 : Fin 1) q)) (v21 (ix2 (0 : Fin 1) q)) (v25 (ix2 (0 : Fin 1) q)) := by
  unfold k4_pay1
  simp only [shapeCast_self]
  simp only [addf, mulf, subf, divf, exp, rsqrt, broadcast, broadcastTo_1b_ab_apply]
  rfl

/-- Row `k` of the statistics through the two row loads. -/
theorem ld4_s0 (x2 : Vec Ideal S2x256 .f32) (q : Fin 256) : View.ld x2 r4_s0 (ix2 (0 : Fin 1) q) = x2 (ix2 (0 : Fin 2) q) := by
  show x2 (r4_s0.idx (ix2 (0 : Fin 1) q)) = _
  refine congrArg x2 (funext fun a => Fin.ext ?_)
  match a with
  | ⟨0, _⟩ => show 0 + 1 * 0 = 0; rfl
  | ⟨1, _⟩ => show 0 + 1 * q.val = q.val; omega
theorem ld4_s1 (x2 : Vec Ideal S2x256 .f32) (q : Fin 256) : View.ld x2 r4_s1 (ix2 (0 : Fin 1) q) = x2 (ix2 (1 : Fin 2) q) := by
  show x2 (r4_s1.idx (ix2 (0 : Fin 1) q)) = _
  refine congrArg x2 (funext fun a => Fin.ext ?_)
  match a with
  | ⟨0, _⟩ => show 1 + 1 * 0 = 1; rfl
  | ⟨1, _⟩ => show 0 + 1 * q.val = q.val; omega

/-- The payload of the blocks at `(p, q)` is the arrays' function at `(R, q)` when row `p` of the two long blocks is
    row `R` of their arrays and the short blocks are their arrays. -/
theorem point4 (agg x : S10000x256.Idx → EReal) (st : S2x256.Idx → EReal) (g b : S1x256.Idx → EReal)
    (x0 x1 : Vec Ideal S2000x256 .f32) (x2 : Vec Ideal S2x256 .f32) (x3 x4 : Vec Ideal S1x256 .f32)
    (p : Fin 2000) (q : Fin 256) (R : Fin 10000)
    (h0 : x0 (ix2 p q) = agg (ix2 R q)) (h1 : x1 (ix2 p q) = x (ix2 R q)) (h2 : ∀ k : Fin 2, x2 (ix2 k q) = st (ix2 k q))
    (h3 : x3 (ix2 (0 : Fin 1) q) = g (ix2 (0 : Fin 1) q)) (h4 : x4 (ix2 (0 : Fin 1) q) = b (ix2 (0 : Fin 1) q)) :
    k4_pay1 x1 x0 (View.ld x2 r4_s0) (View.ld x2 r4_s1) x3 x4 (ix2 p q) = G4_5 agg x st g b (ix2 R q) := by
  rw [pay4_apply, ld4_s0, ld4_s1, h0, h1, h2, h2, h3, h4]
  rfl

/-! ## From blocks to the array -/

theorem hz4 : (![0, 0] : Fin 2 → Nat) = fun _ => 0 := funext fun a => by fin_cases a <;> rfl

/-- The printed index maps over the grid: point `t` reads block `(t, 0)` of the two long arrays and writes block
    `(t, 0)`; the three short arrays' one block is `(0, 0)`. -/
theorem idx_facts4 : ∀ t : Fin cfg4.N, win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0)

variable (V : (c : Dev nD) → (b : Ref sig .tc) → Buf (Elt Ideal) ((c : Thread nD τ).loc b))

/-- What point `t` writes back is block `t` of `G4_5` of the input arrays as the region finds them. -/
theorem flushed4_eq (c : Dev nD) (t : Fin cfg4.N) :
    (dat4 V c).flushed 5 t = ((cfg4.win 5).blk t).view.read (Elt Ideal)
      (G4_5 (V c main_v38) (V c main_arg0) (V c main_v39) (V c main_v40) (V c main_v41)) := by
  show (cfg4.win 5).cut (grid4.coords t) ((dat4 V c).after 5 t) = _
  rw [after4_5]
  unfold out4_5
  rw [View.canon_unit_zero hz4]
  simp only [View.ld_unit_zero (S := S2000x256) hz4, View.ld_unit_zero (S := S1x256) hz4]
  obtain ⟨e0, e1, a0, a1, b0, b1, c0, c1, d0, d1, f0, f1⟩ := idx_facts4 t
  have hN : grid4.N = 5 := N_4
  have ht : t.val < 5 := hN ▸ t.isLt
  refine funext fun (j : S2000x256.Idx) => ?_
  obtain ⟨p, q, rfl⟩ : ∃ (p : Fin 2000) (q : Fin 256), j = ix2 p q := ⟨j 0, j 1, eq_ix2 j⟩
  have hR : win4_5.index t (0 : Fin 2) * 2000 + p.val < 10000 := by omega
  show k4_pay1 (iblk4 V c 1 t) (iblk4 V c 0 t) (View.ld (iblk4 V c 2 t) r4_s0) (View.ld (iblk4 V c 2 t) r4_s1) (iblk4 V c 3 t) (iblk4 V c 4 t) (ix2 p q)
    = G4_5 (V c main_v38) (V c main_arg0) (V c main_v39) (V c main_v40) (V c main_v41) (((cfg4.win 5).blk t).view.emb (ix2 p q))
  have hemb : ((cfg4.win 5).blk t).view.emb (ix2 p q) = ix2 (⟨win4_5.index t (0 : Fin 2) * 2000 + p.val, hR⟩ : Fin 10000) q := by
    funext a; apply Fin.ext
    match a with
    | ⟨0, _⟩ => show win4_5.index t (0 : Fin 2) * 2000 + 1 * p.val = win4_5.index t (0 : Fin 2) * 2000 + p.val; omega
    | ⟨1, _⟩ => show win4_5.index t (1 : Fin 2) * 256 + 1 * q.val = q.val; omega
  rw [hemb]
  refine point4 _ _ _ _ _ _ _ _ _ _ p q _ ?_ ?_ (fun k => ?_) ?_ ?_
  · show V c main_v38 (((cfg4.win 0).blk t).view.emb (ix2 p q)) = V c main_v38 (ix2 (⟨win4_5.index t (0 : Fin 2) * 2000 + p.val, hR⟩ : Fin 10000) q)
    refine congrArg _ (funext fun a => Fin.ext ?_)
    match a with
    | ⟨0, _⟩ => show win4_0.index t (0 : Fin 2) * 2000 + 1 * p.val = win4_5.index t (0 : Fin 2) * 2000 + p.val; omega
    | ⟨1, _⟩ => show win4_0.index t (1 : Fin 2) * 256 + 1 * q.val = q.val; omega
  · show V c main_arg0 (((cfg4.win 1).blk t).view.emb (ix2 p q)) = V c main_arg0 (ix2 (⟨win4_5.index t (0 : Fin 2) * 2000 + p.val, hR⟩ : Fin 10000) q)
    refine congrArg _ (funext fun a => Fin.ext ?_)
    match a with
    | ⟨0, _⟩ => show win4_1.index t (0 : Fin 2) * 2000 + 1 * p.val = win4_5.index t (0 : Fin 2) * 2000 + p.val; omega
    | ⟨1, _⟩ => show win4_1.index t (1 : Fin 2) * 256 + 1 * q.val = q.val; omega
  · show V c main_v39 (((cfg4.win 2).blk t).view.emb (ix2 k q)) = V c main_v39 (ix2 k q)
    refine congrArg _ (funext fun a => Fin.ext ?_)
    match a with
    | ⟨0, _⟩ => show win4_2.index t (0 : Fin 2) * 2 + 1 * k.val = k.val; omega
    | ⟨1, _⟩ => show win4_2.index t (1 : Fin 2) * 256 + 1 * q.val = q.val; omega
  · show V c main_v40 (((cfg4.win 3).blk t).view.emb (ix2 (0 : Fin 1) q)) = V c main_v40 (ix2 (0 : Fin 1) q)
    refine congrArg _ (funext fun a => Fin.ext ?_)
    match a with
    | ⟨0, _⟩ => show win4_3.index t (0 : Fin 2) * 1 + 1 * 0 = 0; omega
    | ⟨1, _⟩ => show win4_3.index t (1 : Fin 2) * 256 + 1 * q.val = q.val; omega
  · show V c main_v41 (((cfg4.win 4).blk t).view.emb (ix2 (0 : Fin 1) q)) = V c main_v41 (ix2 (0 : Fin 1) q)
    refine congrArg _ (funext fun a => Fin.ext ?_)
    match a with
    | ⟨0, _⟩ => show win4_4.index t (0 : Fin 2) * 1 + 1 * 0 = 0; omega
    | ⟨1, _⟩ => show win4_4.index t (1 : Fin 2) * 256 + 1 * q.val = q.val; omega

/-- An index of the output array is in point `t`'s block iff each coordinate is in the block's range on its axis. -/
theorem mem_blk4 (t : Fin cfg4.N) (i : S10000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v42).slice (win4_5.rect t)).set ↔ _
  rw [View.set_slice_whole, Rect.mem_set_unit]
  exact Iff.rfl

/-- Every index of the output array is in the block of the point its row falls in: row `r` in block `r / 2000`. -/
theorem cover4 (i : S10000x256.Idx) : ∃ t : Fin cfg4.N, (cfg4.win 5).flush t = true ∧ i ∈ ((cfg4.win 5).blk t).view.set := by
  have hi0 : (i 0).val < 10000 := idx2_lt0 i
  have hi1 : (i 1).val < 256 := idx2_lt1 i
  have hN : grid4.N = 5 := N_4
  obtain ⟨t, ht⟩ : ∃ t : Fin cfg4.N, t.val = (i 0).val / 2000 := ⟨⟨(i 0).val / 2000, by show _ < grid4.N; omega⟩, rfl⟩
  obtain ⟨e0, e1, -⟩ := idx_facts4 t
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- THE OUTPUT ARRAY after the region's run: `G4_5` of the input arrays as the region finds them. -/
theorem arrAt4_5 (c : Dev nD) : (dat4 (F := Ideal) V c).arrAt 5 cfg4.N
    = G4_5 (V c main_v38) (V c main_arg0) (V c main_v39) (V c main_v40) (V c main_v41) :=
  (dat4 V c).arrAt_eq_of_cover 5 (G4_5 (V c main_v38) (V c main_arg0) (V c main_v39) (V c main_v40) (V c main_v41))
    (fun t _ => flushed4_eq V c t) cover4

end Cert.KernelIdeal.H

end
-- ==== Proof.KI.KernelValue.lean ====
import proofs.«151930_g64080912056811_cont_9to1c4b_125_51_alg».proof.Proof.KI.Glue
import proofs.«151930_g64080912056811_cont_9to1c4b_125_51_alg».proof.Proof.KI.Val0
import proofs.«151930_g64080912056811_cont_9to1c4b_125_51_alg».proof.Proof.KI.Val1
import proofs.«151930_g64080912056811_cont_9to1c4b_125_51_alg».proof.Proof.KI.Val2
import proofs.«151930_g64080912056811_cont_9to1c4b_125_51_alg».proof.Proof.KI.Val3
import proofs.«151930_g64080912056811_cont_9to1c4b_125_51_alg».proof.Proof.KI.Val4

noncomputable section

namespace Cert.KernelIdeal.H

open Idealize.ShloMosaic Idealize.ShloMosaic.TcCoe Idealize.SL.Sem Idealize.ShloMosaic.ValueIdx
open Cert.KernelIdeal Cert.KernelIdeal.Gen

/-! # The kernel's result as one function of the argument arrays

The five regions' whole-array functions composed through the host stretches between them. -/

variable (m : (ℓ : Loc nD τ sig) → Buf (Elt Ideal) ℓ) (c : Dev nD)

/-- The per-edge messages: the activation of the summed projections. -/
def msgKer (x : FVec Ideal S10000x256 .f32) (ei : IVec S2x160000 32) (ea : FVec Ideal S160000x16 .f32)
    (Wf : FVec Ideal S528x256 .f32) (bf : FVec Ideal S256 .f32) (Ws : FVec Ideal S528x256 .f32) (bs : FVec Ideal S256 .f32) :
    FVec Ideal S160000x256 .f32 :=
  G2_1 (zOf (F := Ideal) (G0_4 x (WgOf Wf Ws) (bgOf bf bs)) (G0_5 x (WhOf Wf Ws)) (G1_2 ea (WeOf Wf Ws)) (srcOf ei) (dstOf ei))

/-- The messages summed into their destination rows. -/
def aggKer (x : FVec Ideal S10000x256 .f32) (ei : IVec S2x160000 32) (ea : FVec Ideal S160000x16 .f32)
    (Wf : FVec Ideal S528x256 .f32) (bf : FVec Ideal S256 .f32) (Ws : FVec Ideal S528x256 .f32) (bs : FVec Ideal S256 .f32) :
    FVec Ideal S10000x256 .f32 :=
  aggOf (F := Ideal) (dstOf ei) (msgKer x ei ea Wf bf Ws bs)

/-- The whole kernel: batch-normalised, activated and added back to the input. -/
def resKer (x : FVec Ideal S10000x256 .f32) (ei : IVec S2x160000 32) (ea : FVec Ideal S160000x16 .f32)
    (Wf : FVec Ideal S528x256 .f32) (bf : FVec Ideal S256 .f32) (Ws : FVec Ideal S528x256 .f32) (bs gamma beta : FVec Ideal S256 .f32) :
    FVec Ideal S10000x256 .f32 :=
  G4_5 (aggKer x ei ea Wf bf Ws bs) x (fun i => stat3 (aggKer x ei ea Wf bf Ws bs) x (i 0) (i 1)) (rowOf gamma) (rowOf beta)

theorem En2_v34 : En2 m c main_v34 = zOf (F := Ideal)
      (G0_4 (m ((c : Thread nD τ).loc main_arg0)) (WgOf (F := Ideal) (m ((c : Thread nD τ).loc main_arg3)) (m ((c : Thread nD τ).loc main_arg5))) (bgOf (F := Ideal) (m ((c : Thread nD τ).loc main_arg4)) (m ((c : Thread nD τ).loc main_arg6))))
      (G0_5 (m ((c : Thread nD τ).loc main_arg0)) (WhOf (F := Ideal) (m ((c : Thread nD τ).loc main_arg3)) (m ((c : Thread nD τ).loc main_arg5))))
      (G1_2 (m ((c : Thread nD τ).loc main_arg2)) (WeOf (F := Ideal) (m ((c : Thread nD τ).loc main_arg3)) (m ((c : Thread nD τ).loc main_arg5))))
      (srcOf (m ((c : Thread nD τ).loc main_arg1))) (dstOf (m ((c : Thread nD τ).loc main_arg1))) := by
  refine (W4_v34 m c).trans ?_
  rw [W3_v15_0, W3_v15_1, W3_v16, W3_v1, W3_v3, arrAt0_4, arrAt0_5, arrAt1_2, En0_arg0, En0_v6, En0_v9, En0_v14, En1_arg2, En1_v12]

theorem En3_v38 : En3 m c main_v38 = aggKer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (W6_v38 m c).trans ?_
  rw [W5_v3, W3_v3, W5_v35, arrAt2_1, En2_v34]
  rfl

/-- The result array after the run is `resKer` of the argument arrays. -/
theorem kernel_value : (dat4 (F := Ideal) (En4 m) c).arrAt 5 cfg4.N
    = resKer (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) := by
  rw [arrAt4_5, En4_v38, En4_arg0, En4_v39, En4_v40, En4_v41, arrAt3_2, En3_arg0]
  rw [show W6 m c (Proc.devRef .tc main_v38) = En3 m c main_v38 from rfl, En3_v38]
  rfl

end Cert.KernelIdeal.H

end
-- ==== Proof.KI.RefRun.lean ====
/-
  The reference program's run, read back: its @main as the list of its 113 host operations (the three outlined
  functions written at their call sites), the program equal to that straight line, and from `run_seq` the statement that
  every weakly fair execution terminates with the result buffer at `RES` — the operations' composition, stage by stage,
  of the nine argument arrays — and the arguments unchanged.
-/
import proofs.«151930_g64080912056811_cont_9to1c4b_125_51_alg».proof.Proof.Gen.ReferenceIdeal
import Idealize.ShloMosaic.Lib.StableHlo.Run
import Idealize.ShloMosaic.PureOps.Ideal

noncomputable section

namespace Cert.ReferenceIdeal.H

open Cert.ReferenceIdeal Cert.ReferenceIdeal.Gen Idealize.ShloMosaic Idealize.ShloMosaic.TcCoe Idealize.SL.Sem Idealize.ShloMosaic.StableHlo

variable {F : FTy → Type} [FloatOps F]
/-- The reference's 113 host operations in program order, each outlined function's operations written at its call
    site over that call's buffer record: softplus (14) after the second linear map, the variance (19, with the
    three of its inner select) after the mean, silu (9) before the final residual sum. -/
abbrev ops : List (HloOp τ sig (Elt F)) :=
  [ StableHlo.unary main_arg1 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 rfl shapeCasts_S1x160000_S160000,
    StableHlo.unary main_arg1 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 rfl shapeCasts_S1x160000_S160000,
    StableHlo.nullary main_c (constantI S_ 32 0#32),
    StableHlo.unary main_c main_v4 (broadcastInDim S160000 ![] bcast_S_S160000 : (⟨S_, .i32⟩ : BufTy).Contents (Elt F) → (⟨S160000, .i32⟩ : BufTy).Contents (Elt F)),
    StableHlo.binary main_v3 main_v4 main_v5 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 10000#32),
    StableHlo.unary main_c_0 main_v6 (broadcastInDim S160000 ![] bcast_S_S160000 : (⟨S_, .i32⟩ : BufTy).Contents (Elt F) → (⟨S160000, .i32⟩ : BufTy).Contents (Elt F)),
    StableHlo.binary main_v3 main_v6 main_v7 (addi : (⟨S160000, .i32⟩ : BufTy).Contents (Elt F) → (⟨S160000, .i32⟩ : BufTy).Contents (Elt F) → (⟨S160000, .i32⟩ : BufTy).Contents (Elt F)),
    StableHlo.ternary main_v5 main_v7 main_v3 main_v8 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v8 main_v9 (broadcastInDim S160000x1 ![0] bcast_S160000_S160000x1_0 : (⟨S160000, .i32⟩ : BufTy).Contents (Elt F) → (⟨S160000x1, .i32⟩ : BufTy).Contents (Elt F)),
    StableHlo.binary main_arg0 main_v9 main_v10 ((fun x i => Host.gather gather_S10000x256_S160000x1_S160000x256_1_0_n_n_0_1_1256 x i) : (⟨S10000x256, .f32⟩ : BufTy).Contents (Elt F) → (⟨S160000x1, .i32⟩ : BufTy).Contents (Elt F) → (⟨S160000x256, .f32⟩ : BufTy).Contents (Elt F)),
    StableHlo.nullary main_c_1 (constantI S_ 32 0#32),
    StableHlo.unary main_c_1 main_v11 (broadcastInDim S160000 ![] bcast_S_S160000 : (⟨S_, .i32⟩ : BufTy).Contents (Elt F) → (⟨S160000, .i32⟩ : BufTy).Contents (Elt F)),
    StableHlo.binary main_v1 main_v11 main_v12 (cmpi .slt : (⟨S160000, .i32⟩ : BufTy).Contents (Elt F) → (⟨S160000, .i32⟩ : BufTy).Contents (Elt F) → (⟨S160000, .i1⟩ : BufTy).Contents (Elt F)),
    StableHlo.nullary main_c_2 (constantI S_ 32 10000#32),
    StableHlo.unary main_c_2 main_v13 (broadcastInDim S160000 ![] bcast_S_S160000 : (⟨S_, .i32⟩ : BufTy).Contents (Elt F) → (⟨S160000, .i32⟩ : BufTy).Contents (Elt F)),
    StableHlo.binary main_v1 main_v13 main_v14 (addi : (⟨S160000, .i32⟩ : BufTy).Contents (Elt F) → (⟨S160000, .i32⟩ : BufTy).Contents (Elt F) → (⟨S160000, .i32⟩ : BufTy).Contents (Elt F)),
    StableHlo.ternary main_v12 main_v14 main_v1 main_v15 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v15 main_v16 (broadcastInDim S160000x1 ![0] bcast_S160000_S160000x1_0 : (⟨S160000, .i32⟩ : BufTy).Contents (Elt F) → (⟨S160000x1, .i32⟩ : BufTy).Contents (Elt F)),
    StableHlo.binary main_arg0 main_v16 main_v17 ((fun x i => Host.gather gather_S10000x256_S160000x1_S160000x256_1_0_n_n_0_1_1256 x i) : (⟨S10000x256, .f32⟩ : BufTy).Contents (Elt F) → (⟨S160000x1, .i32⟩ : BufTy).Contents (Elt F) → (⟨S160000x256, .f32⟩ : BufTy).Contents (Elt F)),
    StableHlo.nary ![main_v10, main_v17, main_arg2] main_v18 (fun u => concatenate S160000x528 1 [⟨S160000x256, u 0⟩, ⟨S160000x256, u 1⟩, ⟨S160000x16, u 2⟩] concatenates_S160000x256_S160000x256_S160000x16_S160000x528_d1),
    StableHlo.binary main_v18 main_arg3 main_v19 ((fun l r => Host.dotGeneral dot_S160000x528_S528x256_S160000x256_1_0_0_1_n_n none l r) : (⟨S160000x528, .f32⟩ : BufTy).Contents (Elt F) → (⟨S528x256, .f32⟩ : BufTy).Contents (Elt F) → (⟨S160000x256, .f32⟩ : BufTy).Contents (Elt F)),
    StableHlo.unary main_arg4 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S160000x256 ![0, 1] bcast_S1x256_S160000x256_0_1 : (⟨S1x256, .f32⟩ : BufTy).Contents (Elt F) → (⟨S160000x256, .f32⟩ : BufTy).Contents (Elt F)),
    StableHlo.binary main_v19 main_v21 main_v22 (addf : (⟨S160000x256, .f32⟩ : BufTy).Contents (Elt F) → (⟨S160000x256, .f32⟩ : BufTy).Contents (Elt F) → (⟨S160000x256, .f32⟩ : BufTy).Contents (Elt F)),
    StableHlo.unary main_v22 main_v23 (Host.negf : (⟨S160000x256, .f32⟩ : BufTy).Contents (Elt F) → (⟨S160000x256, .f32⟩ : BufTy).Contents (Elt F)),
    StableHlo.unary main_v23 main_v24 (Host.exp : (⟨S160000x256, .f32⟩ : BufTy).Contents (Elt F) → (⟨S160000x256, .f32⟩ : BufTy).Contents (Elt F)),
    StableHlo.nullary main_cst (constant S_ .f32 0x3F800000#32),
    StableHlo.unary main_cst main_v25 (broadcastInDim S160000x256 ![] bcast_S_S160000x256 : (⟨S_, .f32⟩ : BufTy).Contents (Elt F) → (⟨S160000x256, .f32⟩ : BufTy).Contents (Elt F)),
    StableHlo.binary main_v25 main_v24 main_v26 (addf : (⟨S160000x256, .f32⟩ : BufTy).Contents (Elt F) → (⟨S160000x256, .f32⟩ : BufTy).Contents (Elt F) → (⟨S160000x256, .f32⟩ : BufTy).Contents (Elt F)),
    StableHlo.nullary main_cst_3 (constant S_ .f32 0x3F800000#32),
    StableHlo.unary main_cst_3 main_v27 (broadcastInDim S160000x256 ![] bcast_S_S160000x256 : (⟨S_, .f32⟩ : BufTy).Contents (Elt F) → (⟨S160000x256, .f32⟩ : BufTy).Contents (Elt F)),
    StableHlo.binary main_v27 main_v26 main_v28 (Host.divf : (⟨S160000x256, .f32⟩ : BufTy).Contents (Elt F) → (⟨S160000x256, .f32⟩ : BufTy).Contents (Elt F) → (⟨S160000x256, .f32⟩ : BufTy).Contents (Elt F)),
    StableHlo.binary main_v18 main_arg5 main_v29 ((fun l r => Host.dotGeneral dot_S160000x528_S528x256_S160000x256_1_0_0_1_n_n none l r) : (⟨S160000x528, .f32⟩ : BufTy).Contents (Elt F) → (⟨S528x256, .f32⟩ : BufTy).Contents (Elt F) → (⟨S160000x256, .f32⟩ : BufTy).Contents (Elt F)),
    StableHlo.unary main_arg6 main_v30 (broadcastInDim S1x256 ![1] bcast_S256_S1x256_1 : (⟨S256, .f32⟩ : BufTy).Contents (Elt F) → (⟨S1x256, .f32⟩ : BufTy).Contents (Elt F)),
    StableHlo.unary main_v30 main_v31 (broadcastInDim S160000x256 ![0, 1] bcast_S1x256_S160000x256_0_1 : (⟨S1x256, .f32⟩ : BufTy).Contents (Elt F) → (⟨S160000x256, .f32⟩ : BufTy).Contents (Elt F)),
    StableHlo.binary main_v29 main_v31 main_v32 (addf : (⟨S160000x256, .f32⟩ : BufTy).Contents (Elt F) → (⟨S160000x256, .f32⟩ : BufTy).Contents (Elt F) → (⟨S160000x256, .f32⟩ : BufTy).Contents (Elt F)),
    StableHlo.TRef.nullary main_call0.cst (constant S_ .f32 0x00000000#32),
    StableHlo.TRef.unary main_call0.cst main_call0.v0 (broadcastInDim S160000x256 ![] bcast_S_S160000x256),
    StableHlo.TRef.binary (StableHlo.TRef.of main_v32 : StableHlo.TRef sig ⟨S160000x256, .f32⟩) main_call0.v0 main_call0.v1 maximumf,
    StableHlo.TRef.unary main_call0.cst main_call0.v2 (broadcastInDim S160000x256 ![] bcast_S_S160000x256),
    StableHlo.TRef.binary (StableHlo.TRef.of main_v32 : StableHlo.TRef sig ⟨S160000x256, .f32⟩) main_call0.v2 main_call0.v3 subf,
    StableHlo.TRef.binary main_call0.v3 main_call0.v3 main_call0.v4 (cmpf .une),
    StableHlo.TRef.unary main_call0.cst main_call0.v5 (broadcastInDim S160000x256 ![] bcast_S_S160000x256),
    StableHlo.TRef.binary (StableHlo.TRef.of main_v32 : StableHlo.TRef sig ⟨S160000x256, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.binary main_v28 main_v33 main_v34 (mulf : (⟨S160000x256, .f32⟩ : BufTy).Contents (Elt F) → (⟨S160000x256, .f32⟩ : BufTy).Contents (Elt F) → (⟨S160000x256, .f32⟩ : BufTy).Contents (Elt F)),
    StableHlo.nullary main_cst_4 (constant S_ .f32 0x00000000#32),
    StableHlo.unary main_cst_4 main_v35 (broadcastInDim S10000x256 ![] bcast_S_S10000x256 : (⟨S_, .f32⟩ : BufTy).Contents (Elt F) → (⟨S10000x256, .f32⟩ : BufTy).Contents (Elt F)),
    StableHlo.unary main_v3 main_v36 (broadcastInDim S160000x1 ![0] bcast_S160000_S160000x1_0 : (⟨S160000, .i32⟩ : BufTy).Contents (Elt F) → (⟨S160000x1, .i32⟩ : BufTy).Contents (Elt F)),
    StableHlo.ternary main_v35 main_v36 main_v34 main_v37 ((fun x i u => Host.scatterAdd scatter_S10000x256_S160000x1_S160000x256_1_0_0_1 x i u) : (⟨S10000x256, .f32⟩ : BufTy).Contents (Elt F) → (⟨S160000x1, .i32⟩ : BufTy).Contents (Elt F) → (⟨S160000x256, .f32⟩ : BufTy).Contents (Elt F) → (⟨S10000x256, .f32⟩ : BufTy).Contents (Elt F)),
    StableHlo.binary main_v37 main_arg0 main_v38 (addf : (⟨S10000x256, .f32⟩ : BufTy).Contents (Elt F) → (⟨S10000x256, .f32⟩ : BufTy).Contents (Elt F) → (⟨S10000x256, .f32⟩ : BufTy).Contents (Elt F)),
    StableHlo.nullary main_cst_5 (constant S_ .f32 0x00000000#32),
    StableHlo.binary main_v38 main_cst_5 main_v39 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_6 (constant S_ .f32 0x461C4000#32),
    StableHlo.unary main_cst_6 main_v40 (broadcastInDim S256 ![] bcast_S_S256 : (⟨S_, .f32⟩ : BufTy).Contents (Elt F) → (⟨S256, .f32⟩ : BufTy).Contents (Elt F)),
    StableHlo.binary main_v39 main_v40 main_v41 (Host.divf : (⟨S256, .f32⟩ : BufTy).Contents (Elt F) → (⟨S256, .f32⟩ : BufTy).Contents (Elt F) → (⟨S256, .f32⟩ : BufTy).Contents (Elt F)),
    StableHlo.nullary main_c_7 (constantI S_ 32 0#32),
    StableHlo.TRef.nullary main_call1.cst (constant S_ .f32 0x00000000#32),
    StableHlo.TRef.binary (StableHlo.TRef.of main_v38 : StableHlo.TRef sig ⟨S10000x256, .f32⟩) main_call1.cst main_call1.v0 (fun x v => Host.reduceAdd x v reducesTo_S10000x256_S256_d0 h_S_),
    StableHlo.TRef.unary main_call1.v0 main_call1.v1 (broadcastInDim S1x256 ![1] bcast_S256_S1x256_1),
    StableHlo.TRef.nullary main_call1.cst_0 (constant S_ .f32 0x461C4000#32),
    StableHlo.TRef.unary main_call1.cst_0 main_call1.v2 (broadcastInDim S1x256 ![] bcast_S_S1x256),
    StableHlo.TRef.binary main_call1.v1 main_call1.v2 main_call1.v3 Host.divf,
    StableHlo.TRef.unary main_call1.v3 main_call1.v4 (broadcastInDim S10000x256 ![0, 1] bcast_S1x256_S10000x256_0_1),
    StableHlo.TRef.binary (StableHlo.TRef.of main_v38 : StableHlo.TRef sig ⟨S10000x256, .f32⟩) main_call1.v4 main_call1.v5 subf,
    StableHlo.TRef.binary main_call1.v5 main_call1.v5 main_call1.v6 mulf,
    StableHlo.TRef.unary (StableHlo.TRef.of main_c_7 : StableHlo.TRef sig ⟨S_, .i32⟩) main_call1.v7 (sitofp .f32),
    StableHlo.TRef.nullary main_call1.cst_1 (constant S_ .f32 0x461C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S10000x256_S256_d0 h_S_),
    StableHlo.TRef.unary main_call1.v8 main_call1.v10 (broadcastInDim S256 ![] bcast_S_S256),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S256 ![] bcast_S_S256),
    StableHlo.TRef.ternary main_call1.v12 main_call1.v11 main_call1.call0.v1 main_call1.call0.v2 (fun p a b => select (broadcastInDim S256 ![] bcast_S_S256 p) a b),
    StableHlo.unary main_v41 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S10000x256 ![0, 1] bcast_S1x256_S10000x256_0_1 : (⟨S1x256, .f32⟩ : BufTy).Contents (Elt F) → (⟨S10000x256, .f32⟩ : BufTy).Contents (Elt F)),
    StableHlo.binary main_v38 main_v44 main_v45 (subf : (⟨S10000x256, .f32⟩ : BufTy).Contents (Elt F) → (⟨S10000x256, .f32⟩ : BufTy).Contents (Elt F) → (⟨S10000x256, .f32⟩ : BufTy).Contents (Elt F)),
    StableHlo.nullary main_cst_8 (constant S_ .f32 0x3727C5AC#32),
    StableHlo.unary main_cst_8 main_v46 (broadcastInDim S256 ![] bcast_S_S256 : (⟨S_, .f32⟩ : BufTy).Contents (Elt F) → (⟨S256, .f32⟩ : BufTy).Contents (Elt F)),
    StableHlo.binary main_v42 main_v46 main_v47 (addf : (⟨S256, .f32⟩ : BufTy).Contents (Elt F) → (⟨S256, .f32⟩ : BufTy).Contents (Elt F) → (⟨S256, .f32⟩ : BufTy).Contents (Elt F)),
    StableHlo.unary main_v47 main_v48 (Host.sqrt : (⟨S256, .f32⟩ : BufTy).Contents (Elt F) → (⟨S256, .f32⟩ : BufTy).Contents (Elt F)),
    StableHlo.unary main_v48 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S10000x256 ![0, 1] bcast_S1x256_S10000x256_0_1 : (⟨S1x256, .f32⟩ : BufTy).Contents (Elt F) → (⟨S10000x256, .f32⟩ : BufTy).Contents (Elt F)),
    StableHlo.binary main_v45 main_v50 main_v51 (Host.divf : (⟨S10000x256, .f32⟩ : BufTy).Contents (Elt F) → (⟨S10000x256, .f32⟩ : BufTy).Contents (Elt F) → (⟨S10000x256, .f32⟩ : BufTy).Contents (Elt F)),
    StableHlo.unary main_arg7 main_v52 (broadcastInDim S1x256 ![1] bcast_S256_S1x256_1 : (⟨S256, .f32⟩ : BufTy).Contents (Elt F) → (⟨S1x256, .f32⟩ : BufTy).Contents (Elt F)),
    StableHlo.unary main_v52 main_v53 (broadcastInDim S10000x256 ![0, 1] bcast_S1x256_S10000x256_0_1 : (⟨S1x256, .f32⟩ : BufTy).Contents (Elt F) → (⟨S10000x256, .f32⟩ : BufTy).Contents (Elt F)),
    StableHlo.binary main_v51 main_v53 main_v54 (mulf : (⟨S10000x256, .f32⟩ : BufTy).Contents (Elt F) → (⟨S10000x256, .f32⟩ : BufTy).Contents (Elt F) → (⟨S10000x256, .f32⟩ : BufTy).Contents (Elt F)),
    StableHlo.unary main_arg8 main_v55 (broadcastInDim S1x256 ![1] bcast_S256_S1x256_1 : (⟨S256, .f32⟩ : BufTy).Contents (Elt F) → (⟨S1x256, .f32⟩ : BufTy).Contents (Elt F)),
    StableHlo.unary main_v55 main_v56 (broadcastInDim S10000x256 ![0, 1] bcast_S1x256_S10000x256_0_1 : (⟨S1x256, .f32⟩ : BufTy).Contents (Elt F) → (⟨S10000x256, .f32⟩ : BufTy).Contents (Elt F)),
    StableHlo.binary main_v54 main_v56 main_v57 (addf : (⟨S10000x256, .f32⟩ : BufTy).Contents (Elt F) → (⟨S10000x256, .f32⟩ : BufTy).Contents (Elt F) → (⟨S10000x256, .f32⟩ : BufTy).Contents (Elt F)),
    StableHlo.TRef.unary (StableHlo.TRef.of main_v57 : StableHlo.TRef sig ⟨S10000x256, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S10000x256 ![] bcast_S_S10000x256),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S10000x256 ![] bcast_S_S10000x256),
    StableHlo.TRef.binary main_call2.v4 main_call2.v3 main_call2.v5 Host.divf,
    StableHlo.TRef.binary (StableHlo.TRef.of main_v57 : StableHlo.TRef sig ⟨S10000x256, .f32⟩) main_call2.v5 main_call2.v6 mulf,
    StableHlo.binary main_arg0 main_v58 main_v59 (addf : (⟨S10000x256, .f32⟩ : BufTy).Contents (Elt F) → (⟨S10000x256, .f32⟩ : BufTy).Contents (Elt F) → (⟨S10000x256, .f32⟩ : BufTy).Contents (Elt F)) ]

set_option maxRecDepth 8192 in
set_option maxHeartbeats 4000000 in
/-- The program is that straight line: the windows and the functions unfolded at their calls, sequencing reassociated. -/
theorem main_eq (c : Dev nD) : main (F := F) c = seq ops := by
  simp only [main, main_part0, main_part1, fn_softplus.body, fn_var.body, fn_where.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., nullary_bufs_sub .., unary_bufs_sub .., unary_bufs_sub .., ternary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

/-! ## The stages of the reference, as functions of whole arrays

Each is the composition of the operations between two named values of the program, at the ideal instance. -/

/-- Row 0 of the edge table, flat: the source node of each edge. -/
def src (ei : IVec S2x160000 32) : IVec S160000 32 :=
  shapeCast S160000 (extractStridedSlice S1x160000 ![0, 0] ei slices_S2x160000_S1x160000_0_0) shapeCasts_S1x160000_S160000

/-- Row 1 of the edge table, flat: the target node of each edge. -/
def dst (ei : IVec S2x160000 32) : IVec S160000 32 :=
  shapeCast S160000 (extractStridedSlice S1x160000 ![1, 0] ei slices_S2x160000_S1x160000_1_0) shapeCasts_S1x160000_S160000

/-- A negative node index counted from the end: `v + 10000` where `v < 0`, else `v`. -/
def wrap (v : IVec S160000 32) : IVec S160000 32 :=
  select (cmpi .slt v (broadcastInDim S160000 ![] bcast_S_S160000 (constantI S_ 32 0#32)))
    (addi v (broadcastInDim S160000 ![] bcast_S_S160000 (constantI S_ 32 10000#32))) v

/-- An index vector as a one-column table. -/
def col (v : IVec S160000 32) : IVec S160000x1 32 := broadcastInDim S160000x1 ![0] bcast_S160000_S160000x1_0 v

/-- The rows of `x` at the wrapped indices `v`: one row of 256 per edge. -/
def rows (x : FVec Ideal S10000x256 .f32) (v : IVec S160000 32) : FVec Ideal S160000x256 .f32 :=
  Host.gather gather_S10000x256_S160000x1_S160000x256_1_0_n_n_0_1_1256 x (col (wrap v))

/-- The edge features `[x_dst | x_src | e]`, 528 columns. -/
def zcat (x : FVec Ideal S10000x256 .f32) (ei : IVec S2x160000 32) (e : FVec Ideal S160000x16 .f32) : FVec Ideal S160000x528 .f32 :=
  concatenate S160000x528 1 [⟨S160000x256, rows x (dst ei)⟩, ⟨S160000x256, rows x (src ei)⟩, ⟨S160000x16, e⟩]
    concatenates_S160000x256_S160000x256_S160000x16_S160000x528_d1

/-- A bias row added to every edge: `z · W + b`. -/
def lin (z : FVec Ideal S160000x528 .f32) (W : FVec Ideal S528x256 .f32) (b : FVec Ideal S256 .f32) : FVec Ideal S160000x256 .f32 :=
  addf (Host.dotGeneral dot_S160000x528_S528x256_S160000x256_1_0_0_1_n_n none z W)
    (broadcastInDim S160000x256 ![0, 1] bcast_S1x256_S160000x256_0_1 (broadcastInDim S1x256 ![1] bcast_S256_S1x256_1 b))

/-- The filter pre-activation `z · Wf + bf`. -/
def zf (z : FVec Ideal S160000x528 .f32) (Wf : FVec Ideal S528x256 .f32) (bf : FVec Ideal S256 .f32) : FVec Ideal S160000x256 .f32 := lin z Wf bf

/-- The core pre-activation `z · Ws + bs`. -/
def zs (z : FVec Ideal S160000x528 .f32) (Ws : FVec Ideal S528x256 .f32) (bs : FVec Ideal S256 .f32) : FVec Ideal S160000x256 .f32 := lin z Ws bs

/-- The logistic gate `1 / (1 + exp (-t))`. -/
def gate (t : FVec Ideal S160000x256 .f32) : FVec Ideal S160000x256 .f32 :=
  Host.divf (broadcastInDim S160000x256 ![] bcast_S_S160000x256 (constant S_ .f32 0x3F800000#32))
    (addf (broadcastInDim S160000x256 ![] bcast_S_S160000x256 (constant S_ .f32 0x3F800000#32)) (Host.exp (Host.negf t)))

/-- The all-zero edge array the softplus compares and offsets with. -/
def zeroE : FVec Ideal S160000x256 .f32 := broadcastInDim S160000x256 ![] bcast_S_S160000x256 (constant S_ .f32 0x00000000#32)

/-- softplus, as the program spells it: `t + 0` where `t - 0` is not a number, else `max t 0 + log1p (exp (-|t - 0|))`. -/
def core (t : FVec Ideal S160000x256 .f32) : FVec Ideal S160000x256 .f32 :=
  select (cmpf .une (subf t zeroE) (subf t zeroE)) (addf t zeroE)
    (addf (maximumf t zeroE) (Host.log1p (Host.exp (Host.negf (Host.absf (subf t zeroE))))))

/-- The message of each edge: gate times core. -/
def msg (g c : FVec Ideal S160000x256 .f32) : FVec Ideal S160000x256 .f32 := mulf g c

/-- The messages summed into their target rows (the edge table's row 1, not wrapped), from zero. -/
def agg (ei : IVec S2x160000 32) (mg : FVec Ideal S160000x256 .f32) : FVec Ideal S10000x256 .f32 :=
  Host.scatterAdd scatter_S10000x256_S160000x1_S160000x256_1_0_0_1
    (broadcastInDim S10000x256 ![] bcast_S_S10000x256 (constant S_ .f32 0x00000000#32)) (col (dst ei)) mg

/-- The convolution's output: aggregate plus the node features. -/
def conv (a x : FVec Ideal S10000x256 .f32) : FVec Ideal S10000x256 .f32 := addf a x

/-- The column sums over the 10000 rows, from zero. -/
def colsum (c : FVec Ideal S10000x256 .f32) : FVec Ideal S256 .f32 :=
  Host.reduceAdd c (constant S_ .f32 0x00000000#32) reducesTo_S10000x256_S256_d0 h_S_

/-- A row of 256 at every node. -/
def bc2 (v : FVec Ideal S256 .f32) : FVec Ideal S10000x256 .f32 :=
  broadcastInDim S10000x256 ![0, 1] bcast_S1x256_S10000x256_0_1 (broadcastInDim S1x256 ![1] bcast_S256_S1x256_1 v)

/-- The column means: the column sums over the constant 10000. -/
def mean (c : FVec Ideal S10000x256 .f32) : FVec Ideal S256 .f32 :=
  Host.divf (colsum c) (broadcastInDim S256 ![] bcast_S_S256 (constant S_ .f32 0x461C4000#32))

/-- The centred array inside the variance: the mean there is taken on a one-row table. -/
def centred (c : FVec Ideal S10000x256 .f32) : FVec Ideal S10000x256 .f32 :=
  subf c (broadcastInDim S10000x256 ![0, 1] bcast_S1x256_S10000x256_0_1
    (Host.divf (broadcastInDim S1x256 ![1] bcast_S256_S1x256_1 (colsum c))
      (broadcastInDim S1x256 ![] bcast_S_S1x256 (constant S_ .f32 0x461C4000#32))))

/-- The variance's divisor, a scalar: 10000 minus the correction 0 converted to a float. -/
def dofs : FVec Ideal S_ .f32 := subf (constant S_ .f32 0x461C4000#32) (sitofp .f32 (constantI S_ 32 0#32))

/-- The column variances: the squared centred array summed over the rows, over the divisor; where the divisor is not
    positive, the not-a-number pattern instead. -/
def var (c : FVec Ideal S10000x256 .f32) : FVec Ideal S256 .f32 :=
  select (broadcastInDim S256 ![] bcast_S_S256 (cmpf .ogt dofs (constant S_ .f32 0x00000000#32)))
    (Host.divf (colsum (mulf (centred c) (centred c))) (broadcastInDim S256 ![] bcast_S_S256 dofs))
    (broadcastInDim S256 ![] bcast_S_S256 (id (constant S_ .f32 0x7FC00000#32)))

/-- Batch normalisation: `(c - mean) / sqrt (var + eps) * gamma + beta`. -/
def normed (c : FVec Ideal S10000x256 .f32) (gamma beta : FVec Ideal S256 .f32) : FVec Ideal S10000x256 .f32 :=
  addf (mulf (Host.divf (subf c (bc2 (mean c)))
      (bc2 (Host.sqrt (addf (var c) (broadcastInDim S256 ![] bcast_S_S256 (constant S_ .f32 0x3727C5AC#32))))))
    (bc2 gamma)) (bc2 beta)

/-- silu: `t * (1 / (1 + exp (-t)))`. -/
def silu (t : FVec Ideal S10000x256 .f32) : FVec Ideal S10000x256 .f32 :=
  mulf t (Host.divf (broadcastInDim S10000x256 ![] bcast_S_S10000x256 (constant S_ .f32 0x3F800000#32))
    (addf (broadcastInDim S10000x256 ![] bcast_S_S10000x256 (constant S_ .f32 0x3F800000#32)) (Host.exp (Host.negf t))))

/-- The result: the node features plus the activation. -/
def out (x n : FVec Ideal S10000x256 .f32) : FVec Ideal S10000x256 .f32 := addf x (silu n)

/-- The reference's result as one function of its nine argument arrays. -/
def RES (x : FVec Ideal S10000x256 .f32) (ei : IVec S2x160000 32) (e : FVec Ideal S160000x16 .f32)
    (Wf : FVec Ideal S528x256 .f32) (bf : FVec Ideal S256 .f32) (Ws : FVec Ideal S528x256 .f32) (bs : FVec Ideal S256 .f32)
    (gamma beta : FVec Ideal S256 .f32) : FVec Ideal S10000x256 .f32 :=
  out x (normed (conv (agg ei (msg (gate (zf (zcat x ei e) Wf bf)) (core (zs (zcat x ei e) Ws bs)))) x) gamma beta)

/-- A three-operand `nary` at literal references leaves its result at the function of the operands' contents, each read
    at its own reference. -/
theorem nary3_result' {Val : EltTy → Type} {x a b y : Ref sig .tc}
    (f : ((k : Fin 3) → ((![x, a, b] : Fin 3 → Ref sig .tc) k).ty.Contents Val) → y.ty.Contents Val) (hxs hy)
    (W : Valuation τ sig Val) :
    (StableHlo.nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [nary_result]; congr 1; funext k; fin_cases k <;> rfl

set_option maxRecDepth 16384 in
set_option maxHeartbeats 8000000 in
/-- The fold of the operations at the result buffer is `RES` of the argument buffers' contents. -/
theorem res_eq (V : Valuation τ sig (Elt Ideal)) :
    after (ops (F := Ideal)) V (Proc.devRef .tc main_v59)
      = RES (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  simp (disch := decide) only [after_cons, after_nil,
      nullary_result', unary_result', binary_result', ternary_result', reshape_result', nary3_result',
      nullary_result_ne', unary_result_ne', binary_result_ne', ternary_result_ne', reshape_result_ne', nary_result_ne']
  rfl

/-! ## The run -/

/-! No operation writes an argument buffer: each keeps its launch contents. -/

set_option maxRecDepth 16384 in
set_option maxHeartbeats 4000000 in
theorem arg0_eq (V : Valuation τ sig (Elt F)) :
    after (ops (F := F)) V (Proc.devRef .tc main_arg0) = V (Proc.devRef .tc main_arg0) := by
  simp (disch := decide) only [after_cons, after_nil,
      nullary_result_ne', unary_result_ne', binary_result_ne', ternary_result_ne', reshape_result_ne', nary_result_ne']

set_option maxRecDepth 16384 in
set_option maxHeartbeats 4000000 in
theorem arg1_eq (V : Valuation τ sig (Elt F)) :
    after (ops (F := F)) V (Proc.devRef .tc main_arg1) = V (Proc.devRef .tc main_arg1) := by
  simp (disch := decide) only [after_cons, after_nil,
      nullary_result_ne', unary_result_ne', binary_result_ne', ternary_result_ne', reshape_result_ne', nary_result_ne']

set_option maxRecDepth 16384 in
set_option maxHeartbeats 4000000 in
theorem arg2_eq (V : Valuation τ sig (Elt F)) :
    after (ops (F := F)) V (Proc.devRef .tc main_arg2) = V (Proc.devRef .tc main_arg2) := by
  simp (disch := decide) only [after_cons, after_nil,
      nullary_result_ne', unary_result_ne', binary_result_ne', ternary_result_ne', reshape_result_ne', nary_result_ne']

set_option maxRecDepth 16384 in
set_option maxHeartbeats 4000000 in
theorem arg3_eq (V : Valuation τ sig (Elt F)) :
    after (ops (F := F)) V (Proc.devRef .tc main_arg3) = V (Proc.devRef .tc main_arg3) := by
  simp (disch := decide) only [after_cons, after_nil,
      nullary_result_ne', unary_result_ne', binary_result_ne', ternary_result_ne', reshape_result_ne', nary_result_ne']

set_option maxRecDepth 16384 in
set_option maxHeartbeats 4000000 in
theorem arg4_eq (V : Valuation τ sig (Elt F)) :
    after (ops (F := F)) V (Proc.devRef .tc main_arg4) = V (Proc.devRef .tc main_arg4) := by
  simp (disch := decide) only [after_cons, after_nil,
      nullary_result_ne', unary_result_ne', binary_result_ne', ternary_result_ne', reshape_result_ne', nary_result_ne']

set_option maxRecDepth 16384 in
set_option maxHeartbeats 4000000 in
theorem arg5_eq (V : Valuation τ sig (Elt F)) :
    after (ops (F := F)) V (Proc.devRef .tc main_arg5) = V (Proc.devRef .tc main_arg5) := by
  simp (disch := decide) only [after_cons, after_nil,
      nullary_result_ne', unary_result_ne', binary_result_ne', ternary_result_ne', reshape_result_ne', nary_result_ne']

set_option maxRecDepth 16384 in
set_option maxHeartbeats 4000000 in
theorem arg6_eq (V : Valuation τ sig (Elt F)) :
    after (ops (F := F)) V (Proc.devRef .tc main_arg6) = V (Proc.devRef .tc main_arg6) := by
  simp (disch := decide) only [after_cons, after_nil,
      nullary_result_ne', unary_result_ne', binary_result_ne', ternary_result_ne', reshape_result_ne', nary_result_ne']

set_option maxRecDepth 16384 in
set_option maxHeartbeats 4000000 in
theorem arg7_eq (V : Valuation τ sig (Elt F)) :
    after (ops (F := F)) V (Proc.devRef .tc main_arg7) = V (Proc.devRef .tc main_arg7) := by
  simp (disch := decide) only [after_cons, after_nil,
      nullary_result_ne', unary_result_ne', binary_result_ne', ternary_result_ne', reshape_result_ne', nary_result_ne']

set_option maxRecDepth 16384 in
set_option maxHeartbeats 4000000 in
theorem arg8_eq (V : Valuation τ sig (Elt F)) :
    after (ops (F := F)) V (Proc.devRef .tc main_arg8) = V (Proc.devRef .tc main_arg8) := by
  simp (disch := decide) only [after_cons, after_nil,
      nullary_result_ne', unary_result_ne', binary_result_ne', ternary_result_ne', reshape_result_ne', nary_result_ne']

/-- On every device, from any memory with zero counters: every weakly fair execution of the reference terminates with the
    result buffer at `RES` of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v59) = RES (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v59).trans (res_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

/-- The run with the result dropped: the reference terminates from any memory and leaves its nine arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => (h c).2) (run m ρ)

end Cert.ReferenceIdeal.H

end
-- ==== Proof.KI.PreFinite.lean ====
/-
  The precondition "every float input is finite", decoded: the printed predicate is a conjunction
  (a chain of `and` on one-bit words) of eight `all`-reductions of the elementwise test `|x| < +∞`;
  when it is 1, every entry of each of the eight float arrays is a real number.
-/
import proofs.«151930_g64080912056811_cont_9to1c4b_125_51_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.KernelIdeal.H.Math

open Idealize.ShloMosaic

/-- The f32 word `0x7F800000` denotes `+∞`. -/
theorem ofBits_inf_f32 : Ideal.ofBits .f32 0x7F800000#32 = ⊤ := by
  simp [Ideal.ofBits, Ideal.ieee]

/-- An extended real whose absolute value `max x (-x)` is strictly below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 only when the Boolean is true. -/
theorem bool_of_ofBool_eq_one {b : Bool} (h : BitVec.ofBool b = 1#1) : b = true := by
  cases b
  · exact absurd h (by decide)
  · rfl

/-- The elementwise test of the predicate: `|x| < +∞` answering 1 means `x` is a real. -/
theorem real_of_cmp_abs_lt_inf (x : Ideal .f32)
    (h : FloatOps.cmpf .olt (FloatOps.hostAbsf x) (FloatOps.ofBits (F := Ideal) .f32 0x7F800000#32) = 1#1) :
    ∃ r : ℝ, x = (r : EReal) := by
  apply real_of_abs_lt_top
  rw [Ideal.hostAbsf_def, Ideal.absf_def, Ideal.cmpf_def, Ideal.ofBits_def, ofBits_inf_f32] at h
  exact of_decide_eq_true (bool_of_ofBool_eq_one h)

instance : Subsingleton Cert.Pre_finite_inputs.S_.Idx := ⟨fun a b => funext fun d => d.elim0⟩

open Cert.Pre_finite_inputs in
/-- One `all`-reduction of the test over an array of any shape: if it is 1, every entry is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant S_ .f32 0x7F800000#32)))
          (constantI S_ 1 1#1) hr hu ValueIdx.ix0 = 1#1)
    (i : s.Idx) : ∃ r : ℝ, a i = (r : EReal) :=
  real_of_cmp_abs_lt_inf (a i) (Host.reduce_andi_all _ _ hr hu ValueIdx.ix0 h i)

/-- A pointwise `and` of one-bit scalars that is 1 has both operands 1. -/
theorem andi_ix0 (A B : IVec Cert.Pre_finite_inputs.S_ 1) (h : andi A B ValueIdx.ix0 = 1#1) :
    A ValueIdx.ix0 = 1#1 ∧ B ValueIdx.ix0 = 1#1 :=
  IntOp.andi_eq_one.1 h

open Cert.Pre_finite_inputs in
/-- The precondition decoded: each of the eight float arrays holds only reals. -/
theorem finite_of_pre [Cert.Pre_finite_inputs.Facts]
    (x : FVec Ideal S10000x256 .f32) (ei : IVec S2x160000 32) (ea : FVec Ideal S160000x16 .f32)
    (Wf : FVec Ideal S528x256 .f32) (bf : FVec Ideal S256 .f32) (Ws : FVec Ideal S528x256 .f32)
    (bs : FVec Ideal S256 .f32) (gamma : FVec Ideal S256 .f32) (beta : FVec Ideal S256 .f32)
    (h : Cert.Pre_finite_inputs.fn (F := Ideal) x ei ea Wf bf Ws bs gamma beta = (fun _ => 1#1)) :
    (∀ i, ∃ r : ℝ, x i = (r : EReal)) ∧ (∀ i, ∃ r : ℝ, ea i = (r : EReal))
    ∧ (∀ i, ∃ r : ℝ, Wf i = (r : EReal)) ∧ (∀ i, ∃ r : ℝ, bf i = (r : EReal))
    ∧ (∀ i, ∃ r : ℝ, Ws i = (r : EReal)) ∧ (∀ i, ∃ r : ℝ, bs i = (r : EReal))
    ∧ (∀ i, ∃ r : ℝ, gamma i = (r : EReal)) ∧ (∀ i, ∃ r : ℝ, beta i = (r : EReal)) := by
  have h0 := congrFun h ValueIdx.ix0
  dsimp only [fn, fn_part1, fn_part2] at h0
  obtain ⟨h0, h8⟩ := andi_ix0 _ _ h0
  obtain ⟨h0, h7⟩ := andi_ix0 _ _ h0
  obtain ⟨h0, h6⟩ := andi_ix0 _ _ h0
  obtain ⟨h0, h5⟩ := andi_ix0 _ _ h0
  obtain ⟨h0, h4⟩ := andi_ix0 _ _ h0
  obtain ⟨h0, h3⟩ := andi_ix0 _ _ h0
  obtain ⟨h1, h2⟩ := andi_ix0 _ _ h0
  exact ⟨real_of_all x _ _ _ h1, real_of_all ea _ _ _ h2, real_of_all Wf _ _ _ h3, real_of_all bf _ _ _ h4,
    real_of_all Ws _ _ _ h5, real_of_all bs _ _ _ h6, real_of_all gamma _ _ _ h7, real_of_all beta _ _ _ h8⟩

end Cert.KernelIdeal.H.Math
-- ==== Proof.KI.LibGatherRows.lean ====
/- Reading a row gather at an index. `x[idx]` of a matrix `x : [N, C]` at a one-column array of row numbers `idx : [E, 1]` is a gather whose
   result row `e` is the row of `x` named by `idx (e, 0)`, read as a signed integer and clamped into `[0, N − 1]`. -/
import Idealize.ShloMosaic.PureOps.Ideal
import Idealize.ShloMosaic.Lib.ValueIdx

noncomputable section

namespace Cert.KernelIdeal.H.Math

open Idealize.ShloMosaic Idealize.ShloMosaic.ValueIdx

variable {α : Type}

/-- The dimension numbers of a row gather: operand `[N, C]`, start indices `[E, 1]` (the index vector along axis 1, of
    length one), result `[E, C]`; the result's axis 1 is the offset axis, the operand's axis 0 is collapsed and is the one
    the start index names, and a slice is one whole row, `[1, C]`. The conditions `wf` are decided on literal shapes. -/
abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row of an `N`-row operand that entry `e` of the index column names: the word read as a signed integer, negative
    values clamped to row 0 and values past the end to row `N − 1`. -/
def nodeOf {w : Nat} (N : ℕ) (hN : 0 < N) {E : Nat} (idx : IVec ⟨2, ![E, 1]⟩ w) (e : Fin E) : Fin N :=
  ⟨min (idx (ix2 e (0 : Fin 1))).toInt.toNat (N - 1), by omega⟩

/-- The row gather read at `(e, j)`: the operand at row `nodeOf … e`, column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (nodeOf N hN idx e) j) := by
  unfold Host.gather
  congr 1
  funext a
  refine Fin.ext ?_
  match a with
  | ⟨0, _⟩ =>
    show (rowDims N E C wf).start (ix2 e j) idx 0 + (rowDims N E C wf).batchCoord (ix2 e j) 0
      + (rowDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx 1 + (rowDims N E C wf).batchCoord (ix2 e j) 1
      + (rowDims N E C wf).offCoord (ix2 e j) 1 = j.val
    rw [GatherDims.batchCoord_eq_zero _ _ _ List.not_mem_nil]
    have hs : (rowDims N E C wf).start (ix2 e j) idx 1 = 0 := by
      unfold GatherDims.start
      rw [dif_neg (show (1 : Fin 2) ∉ (rowDims N E C wf).startIndexMap from
        fun h => Nat.one_ne_zero (congrArg Fin.val (List.mem_singleton.mp h)))]
    rw [hs]
    simp only [Nat.add_zero, Nat.zero_add]
    rfl

end Cert.KernelIdeal.H.Math

end
-- ==== Proof.KI.MsgK.lean ====
/- The message an edge sends, on the kernel's side and over the extended reals: the three projection regions' whole-array
   values, the gathers of the destination's and the source's rows and the activation region, read at one entry (e, j), give
   the activation of two pre-activations, each a sum of three partial dot products against the rows 0..255, 256..511 and
   512..527 of one weight matrix plus that matrix's bias. -/
import proofs.«151930_g64080912056811_cont_9to1c4b_125_51_alg».proof.Proof.KI.Val0
import proofs.«151930_g64080912056811_cont_9to1c4b_125_51_alg».proof.Proof.KI.Val1
import proofs.«151930_g64080912056811_cont_9to1c4b_125_51_alg».proof.Proof.KI.Val2
import proofs.«151930_g64080912056811_cont_9to1c4b_125_51_alg».proof.Proof.KI.LibGatherRows
import proofs.«151930_g64080912056811_cont_9to1c4b_125_51_alg».proof.Proof.KI.Glue
import Idealize.ShloMosaic.Lib.Pipeline.Value
import Idealize.ShloMosaic.Lib.ValueIdx
import Idealize.ShloMosaic.Lib.ValueLayout

set_option maxRecDepth 16384

noncomputable section

namespace Cert.KernelIdeal.H

open Cert.KernelIdeal.Gen
open Idealize.ShloMosaic Idealize.ShloMosaic.TcCoe Idealize.SL.Sem
open Idealize.ShloMosaic.ValueIdx
open Cert.KernelIdeal.H.Math
open scoped BigOperators

/-! ## Two arrays side by side, and two vectors end to end, read at an index -/

section Cat
variable {α : Type}

/-- Two `[n, m]` arrays joined along the columns into `[n, M]`: a column below `m` reads the first array … -/
theorem cat_cols_left {n m M : Nat} (A B : (⟨2, ![n, m]⟩ : Shape).Idx → α)
    (h : Shape.Concatenates [(⟨2, ![n, m]⟩ : Shape), ⟨2, ![n, m]⟩] ⟨2, ![n, M]⟩ 1)
    (k : Fin n) (j : Fin m) (c : Fin M) (hc : c.val = j.val) :
    concatenate ⟨2, ![n, M]⟩ 1 [⟨⟨2, ![n, m]⟩, A⟩, ⟨⟨2, ![n, m]⟩, B⟩] h (ix2 k c) = A (ix2 k j) :=
  concatenate_pair_apply_left (1 : Fin 2) A B h (ix2 k c) rfl (ix2 k j) fun b => by
    match b with
    | ⟨0, _⟩ => rfl
    | ⟨1, _⟩ => exact hc.symm

/-- … and a column `m + j` reads the second array at column `j`. -/
theorem cat_cols_right {n m M : Nat} (A B : (⟨2, ![n, m]⟩ : Shape).Idx → α)
    (h : Shape.Concatenates [(⟨2, ![n, m]⟩ : Shape), ⟨2, ![n, m]⟩] ⟨2, ![n, M]⟩ 1)
    (k : Fin n) (j : Fin m) (c : Fin M) (hc : c.val = m + j.val) :
    concatenate ⟨2, ![n, M]⟩ 1 [⟨⟨2, ![n, m]⟩, A⟩, ⟨⟨2, ![n, m]⟩, B⟩] h (ix2 k c) = B (ix2 k j) :=
  concatenate_pair_apply_right (1 : Fin 2) A B h (ix2 k c) rfl rfl (ix2 k j)
    (fun b hb => by
      match b with
      | ⟨0, _⟩ => rfl
      | ⟨1, _⟩ => exact absurd rfl hb)
    (by show j.val + m = c.val; omega)

/-- Two vectors of `m` entries joined into one of `M`: an entry below `m` reads the first … -/
theorem cat_vec_left {m M : Nat} (A B : (⟨1, ![m]⟩ : Shape).Idx → α)
    (h : Shape.Concatenates [(⟨1, ![m]⟩ : Shape), ⟨1, ![m]⟩] ⟨1, ![M]⟩ 0) (j : Fin m) (c : Fin M) (hc : c.val = j.val) :
    concatenate ⟨1, ![M]⟩ 0 [⟨⟨1, ![m]⟩, A⟩, ⟨⟨1, ![m]⟩, B⟩] h (ix1 c) = A (ix1 j) :=
  concatenate_pair_apply_left (0 : Fin 1) A B h (ix1 c) rfl (ix1 j) fun b => by
    match b with
    | ⟨0, _⟩ => exact hc.symm

/-- … and entry `m + j` reads the second at `j`. -/
theorem cat_vec_right {m M : Nat} (A B : (⟨1, ![m]⟩ : Shape).Idx → α)
    (h : Shape.Concatenates [(⟨1, ![m]⟩ : Shape), ⟨1, ![m]⟩] ⟨1, ![M]⟩ 0) (j : Fin m) (c : Fin M) (hc : c.val = m + j.val) :
    concatenate ⟨1, ![M]⟩ 0 [⟨⟨1, ![m]⟩, A⟩, ⟨⟨1, ![m]⟩, B⟩] h (ix1 c) = B (ix1 j) :=
  concatenate_pair_apply_right (0 : Fin 1) A B h (ix1 c) rfl rfl (ix1 j)
    (fun b hb => by
      match b with
      | ⟨0, _⟩ => exact absurd rfl hb)
    (by show j.val + m = c.val; omega)

end Cat

/-! ## The repacked weights and the joined bias at an index -/

section Packed
variable (Wf Ws : FVec Ideal S528x256 .f32) (bf bs : FVec Ideal S256 .f32)

/-- Column `j` of Wg is column `j` of rows 0..255 of the first weight matrix, column `256 + j` the same of the second. -/
theorem WgOf_lo (k : Fin 256) (j : Fin 256) :
    WgOf Wf Ws (ix2 k (⟨j.val, by omega⟩ : Fin 512)) = Wf (ix2 (⟨k.val, by omega⟩ : Fin 528) j) := by
  unfold WgOf
  refine (cat_cols_left (M := 512) _ _ _ k j (⟨j.val, by omega⟩ : Fin 512) rfl).trans ?_
  exact slice2_axis0_apply 0 Wf _ k j _ (Nat.zero_add _).symm
theorem WgOf_hi (k : Fin 256) (j : Fin 256) :
    WgOf Wf Ws (ix2 k (⟨256 + j.val, by omega⟩ : Fin 512)) = Ws (ix2 (⟨k.val, by omega⟩ : Fin 528) j) := by
  unfold WgOf
  refine (cat_cols_right (M := 512) _ _ _ k j (⟨256 + j.val, by omega⟩ : Fin 512) rfl).trans ?_
  exact slice2_axis0_apply 0 Ws _ k j _ (Nat.zero_add _).symm

/-- The same for Wh, over rows 256..511. -/
theorem WhOf_lo (k : Fin 256) (j : Fin 256) :
    WhOf Wf Ws (ix2 k (⟨j.val, by omega⟩ : Fin 512)) = Wf (ix2 (⟨256 + k.val, by omega⟩ : Fin 528) j) := by
  unfold WhOf
  refine (cat_cols_left (M := 512) _ _ _ k j (⟨j.val, by omega⟩ : Fin 512) rfl).trans ?_
  exact slice2_axis0_apply 256 Wf _ k j _ rfl
theorem WhOf_hi (k : Fin 256) (j : Fin 256) :
    WhOf Wf Ws (ix2 k (⟨256 + j.val, by omega⟩ : Fin 512)) = Ws (ix2 (⟨256 + k.val, by omega⟩ : Fin 528) j) := by
  unfold WhOf
  refine (cat_cols_right (M := 512) _ _ _ k j (⟨256 + j.val, by omega⟩ : Fin 512) rfl).trans ?_
  exact slice2_axis0_apply 256 Ws _ k j _ rfl

/-- The same for We, over rows 512..527. -/
theorem WeOf_lo (k : Fin 16) (j : Fin 256) :
    WeOf Wf Ws (ix2 k (⟨j.val, by omega⟩ : Fin 512)) = Wf (ix2 (⟨512 + k.val, by omega⟩ : Fin 528) j) := by
  unfold WeOf
  refine (cat_cols_left (M := 512) _ _ _ k j (⟨j.val, by omega⟩ : Fin 512) rfl).trans ?_
  exact slice2_axis0_apply 512 Wf _ k j _ rfl
theorem WeOf_hi (k : Fin 16) (j : Fin 256) :
    WeOf Wf Ws (ix2 k (⟨256 + j.val, by omega⟩ : Fin 512)) = Ws (ix2 (⟨512 + k.val, by omega⟩ : Fin 528) j) := by
  unfold WeOf
  refine (cat_cols_right (M := 512) _ _ _ k j (⟨256 + j.val, by omega⟩ : Fin 512) rfl).trans ?_
  exact slice2_axis0_apply 512 Ws _ k j _ rfl

/-- Entry `j` of the joined bias row is entry `j` of the first bias, entry `256 + j` entry `j` of the second. -/
theorem bgOf_lo (j : Fin 256) : bgOf bf bs (ix2 (0 : Fin 1) (⟨j.val, by omega⟩ : Fin 512)) = bf (ix1 j) := by
  unfold bgOf
  refine (shapeCast_a_1a_apply _ _ (0 : Fin 1) _).trans ?_
  exact cat_vec_left (M := 512) bf bs _ j (⟨j.val, by omega⟩ : Fin 512) rfl
theorem bgOf_hi (j : Fin 256) : bgOf bf bs (ix2 (0 : Fin 1) (⟨256 + j.val, by omega⟩ : Fin 512)) = bs (ix1 j) := by
  unfold bgOf
  refine (shapeCast_a_1a_apply _ _ (0 : Fin 1) _).trans ?_
  exact cat_vec_right (M := 512) bf bs _ j (⟨256 + j.val, by omega⟩ : Fin 512) rfl

end Packed

/-! ## The per-edge projected row at an index -/

theorem pos10000 : 0 < 10000 := by decide

example : gather_S10000x512_S160000x1_S160000x512_1_0_n_n_0_1_1512
    = rowDims 10000 160000 512 gather_S10000x512_S160000x1_S160000x512_1_0_n_n_0_1_1512_wf := rfl

/-- Entry `(e, c)` of the per-edge row: the destination node's row of the first projection, the source node's row of the
    second and the edge's own projection, each at column `c`, summed (widening bf16 to f32 is the identity over the extended
    reals). -/
theorem zOf_apply (g h : FVec Ideal S10000x512 .bf16) (cc : FVec Ideal S160000x512 .f32) (src dst : IVec S160000 32)
    (e : Fin 160000) (c : Fin 512) :
    zOf g h cc src dst (ix2 e c)
      = (g (ix2 (nodeOf 10000 pos10000 (idxCol (wrapIdx dst)) e) c) + h (ix2 (nodeOf 10000 pos10000 (idxCol (wrapIdx src)) e) c))
          + cc (ix2 e c) := by
  unfold zOf
  refine (addf_apply _ _ (ix2 e c)).trans ?_
  refine congrArg (· + cc (ix2 e c)) ?_
  refine (addf_apply _ _ (ix2 e c)).trans ?_
  refine congrArg₂ (· + ·) ?_ ?_
  · exact gather_rows_apply pos10000 gather_S10000x512_S160000x1_S160000x512_1_0_n_n_0_1_1512_wf g (idxCol (wrapIdx dst)) e c
  · exact gather_rows_apply pos10000 gather_S10000x512_S160000x1_S160000x512_1_0_n_n_0_1_1512_wf h (idxCol (wrapIdx src)) e c

/-! ## The message of an edge -/

/-- One half of an edge's pre-activation at column `j`, from one 528-row weight matrix `W` and its bias `b`: the destination
    node's features against rows 0..255 plus the bias, the source node's features against rows 256..511, and the edge's
    attributes against rows 512..527. -/
def ZK (x : S10000x256.Idx → EReal) (ea : S160000x16.Idx → EReal) (W : S528x256.Idx → EReal) (b : S256.Idx → EReal)
    (nd ns : Fin 160000 → Fin 10000) (e : Fin 160000) (j : Fin 256) : EReal :=
  ((∑ k : Fin 256, x (ix2 (nd e) k) * W (ix2 (⟨k.val, by omega⟩ : Fin 528) j)) + b (ix1 j))
    + (∑ k : Fin 256, x (ix2 (ns e) k) * W (ix2 (⟨256 + k.val, by omega⟩ : Fin 528) j))
    + ∑ k : Fin 16, ea (ix2 e k) * W (ix2 (⟨512 + k.val, by omega⟩ : Fin 528) j)

section Msg
variable (x : S10000x256.Idx → EReal) (ea : S160000x16.Idx → EReal) (Wf Ws : S528x256.Idx → EReal) (bf bs : S256.Idx → EReal)
  (ei : IVec S2x160000 32)

/-- The per-edge row built from the three region outputs, at column `j` of its first half: the first weight matrix's
    pre-activation. -/
theorem z_lo (e : Fin 160000) (j : Fin 256) :
    zOf (F := Ideal) (G0_4 x (WgOf (F := Ideal) Wf Ws) (bgOf (F := Ideal) bf bs)) (G0_5 x (WhOf (F := Ideal) Wf Ws)) (G1_2 ea (WeOf (F := Ideal) Wf Ws)) (srcOf ei) (dstOf ei)
        (ix2 e (⟨j.val, by omega⟩ : Fin 512))
      = ZK x ea Wf bf (nodeOf 10000 pos10000 (idxCol (wrapIdx (dstOf ei)))) (nodeOf 10000 pos10000 (idxCol (wrapIdx (srcOf ei)))) e j := by
  refine (zOf_apply _ _ _ _ _ e _).trans ?_
  show ((∑ k : Fin 256, x (ix2 (nodeOf 10000 pos10000 (idxCol (wrapIdx (dstOf ei))) e) k) * WgOf (F := Ideal) Wf Ws (ix2 k (⟨j.val, by omega⟩ : Fin 512)))
        + bgOf (F := Ideal) bf bs (ix2 (0 : Fin 1) (⟨j.val, by omega⟩ : Fin 512)))
      + (∑ k : Fin 256, x (ix2 (nodeOf 10000 pos10000 (idxCol (wrapIdx (srcOf ei))) e) k) * WhOf (F := Ideal) Wf Ws (ix2 k (⟨j.val, by omega⟩ : Fin 512)))
      + (∑ k : Fin 16, ea (ix2 e k) * WeOf (F := Ideal) Wf Ws (ix2 k (⟨j.val, by omega⟩ : Fin 512))) = _
  simp only [WgOf_lo, WhOf_lo, WeOf_lo, bgOf_lo]
  rfl

/-- The same at column `256 + j`, the second half: the second weight matrix's pre-activation. -/
theorem z_hi (e : Fin 160000) (j : Fin 256) :
    zOf (F := Ideal) (G0_4 x (WgOf (F := Ideal) Wf Ws) (bgOf (F := Ideal) bf bs)) (G0_5 x (WhOf (F := Ideal) Wf Ws)) (G1_2 ea (WeOf (F := Ideal) Wf Ws)) (srcOf ei) (dstOf ei)
        (ix2 e (⟨256 + j.val, by omega⟩ : Fin 512))
      = ZK x ea Ws bs (nodeOf 10000 pos10000 (idxCol (wrapIdx (dstOf ei)))) (nodeOf 10000 pos10000 (idxCol (wrapIdx (srcOf ei)))) e j := by
  refine (zOf_apply _ _ _ _ _ e _).trans ?_
  show ((∑ k : Fin 256, x (ix2 (nodeOf 10000 pos10000 (idxCol (wrapIdx (dstOf ei))) e) k) * WgOf (F := Ideal) Wf Ws (ix2 k (⟨256 + j.val, by omega⟩ : Fin 512)))
        + bgOf (F := Ideal) bf bs (ix2 (0 : Fin 1) (⟨256 + j.val, by omega⟩ : Fin 512)))
      + (∑ k : Fin 256, x (ix2 (nodeOf 10000 pos10000 (idxCol (wrapIdx (srcOf ei))) e) k) * WhOf (F := Ideal) Wf Ws (ix2 k (⟨256 + j.val, by omega⟩ : Fin 512)))
      + (∑ k : Fin 16, ea (ix2 e k) * WeOf (F := Ideal) Wf Ws (ix2 k (⟨256 + j.val, by omega⟩ : Fin 512))) = _
  simp only [WgOf_hi, WhOf_hi, WeOf_hi, bgOf_hi]
  rfl

/-- THE MESSAGE OF EDGE `e` AT COLUMN `j`, on the kernel's side: the activation of the two pre-activations. -/
theorem msgK (e : Fin 160000) (j : Fin 256) :
    G2_1 (zOf (F := Ideal) (G0_4 x (WgOf (F := Ideal) Wf Ws) (bgOf (F := Ideal) bf bs)) (G0_5 x (WhOf (F := Ideal) Wf Ws)) (G1_2 ea (WeOf (F := Ideal) Wf Ws)) (srcOf ei) (dstOf ei)) (ix2 e j)
      = act2 (ZK x ea Wf bf (nodeOf 10000 pos10000 (idxCol (wrapIdx (dstOf ei)))) (nodeOf 10000 pos10000 (idxCol (wrapIdx (srcOf ei)))) e j)
          (ZK x ea Ws bs (nodeOf 10000 pos10000 (idxCol (wrapIdx (dstOf ei)))) (nodeOf 10000 pos10000 (idxCol (wrapIdx (srcOf ei)))) e j) := by
  show act2 (zOf (F := Ideal) _ _ _ _ _ (ix2 e (⟨j.val, _⟩ : Fin 512))) (zOf (F := Ideal) _ _ _ _ _ (ix2 e (⟨256 + j.val, _⟩ : Fin 512))) = _
  rw [z_lo x ea Wf Ws bf bs ei e j, z_hi x ea Wf Ws bf bs ei e j]

end Msg

end Cert.KernelIdeal.H

end
-- ==== Proof.KI.LibFinite.lean ====
/-
  Finiteness closure in the extended reals. A value is "a real" when it is the coercion of a real
  number. Sums, differences, products, maxima, exponentials, finite sums and finite dot products of
  reals are reals; so are the logistic gate `1 / (1 + e^{-z})` and the softplus
  `max z 0 + log (1 + e^{-|z|})` of a real `z`, each with its value as an explicit real formula.
  Also two identities that hold at every extended real: `0 - x = -x` and `x - 0 = x`.
-/
import Idealize.ShloMosaic.PureOps.Ideal

noncomputable section

namespace Cert.KernelIdeal.H.Math

open Idealize.ShloMosaic
open scoped BigOperators

/-! ### Identities at every extended real -/

theorem ereal_zero_sub (x : EReal) : (0 : EReal) - x = -x := by
  rw [sub_eq_add_neg, zero_add]

theorem ereal_sub_zero (x : EReal) : x - (0 : EReal) = x := by
  rw [sub_eq_add_neg, neg_zero, add_zero]

/-- The coercion of the reals commutes with the maximum. -/
theorem coe_max (a b : ℝ) : ((max a b : ℝ) : EReal) = max (a : EReal) (b : EReal) :=
  EReal.coe_strictMono.monotone.map_max

/-- The absolute value `max x (-x)` of a coerced real. -/
theorem abs_coe (z : ℝ) : max (z : EReal) (-(z : EReal)) = ((|z| : ℝ) : EReal) := by
  rw [← EReal.coe_neg, ← coe_max, abs_eq_max_neg]

/-! ### Values as explicit real formulas -/

/-- `e^{0 - z}` for a real `z`. -/
theorem exp_zero_sub_coe (z : ℝ) : Ideal.exp ((0 : EReal) - (z : EReal)) = ((Real.exp (-z) : ℝ) : EReal) := by
  rw [ereal_zero_sub, ← EReal.coe_neg, Ideal.exp_coe]

/-- `e^{-z}` for a real `z`. -/
theorem exp_neg_coe (z : ℝ) : Ideal.exp (-(z : EReal)) = ((Real.exp (-z) : ℝ) : EReal) := by
  rw [← EReal.coe_neg, Ideal.exp_coe]

/-- The quotient `1 / y` for a positive real `y`. -/
theorem one_div_coe_pos {y : ℝ} (h : 0 < y) : Ideal.div 1 (y : EReal) = ((y⁻¹ : ℝ) : EReal) := by
  rw [Ideal.div_coe h.ne', one_mul, one_div]

/-- The logistic gate of a real, the negation written `0 - z`. -/
theorem sigmoid_zero_sub_coe (z : ℝ) :
    Ideal.div 1 (1 + Ideal.exp ((0 : EReal) - (z : EReal))) = (((1 + Real.exp (-z))⁻¹ : ℝ) : EReal) := by
  rw [exp_zero_sub_coe, ← EReal.coe_one, ← EReal.coe_add, EReal.coe_one]
  exact one_div_coe_pos (by positivity)

/-- The logistic gate of a real, the negation written `-z`. -/
theorem sigmoid_neg_coe (z : ℝ) :
    Ideal.div 1 (1 + Ideal.exp (-(z : EReal))) = (((1 + Real.exp (-z))⁻¹ : ℝ) : EReal) := by
  rw [exp_neg_coe, ← EReal.coe_one, ← EReal.coe_add, EReal.coe_one]
  exact one_div_coe_pos (by positivity)

/-- `log (1 + e)` for a real `e` with `0 < 1 + e`. -/
theorem log1p_coe {e : ℝ} (h : 0 < 1 + e) : Ideal.log1p (e : EReal) = ((Real.log (1 + e) : ℝ) : EReal) := by
  rw [Ideal.log1p, ← EReal.coe_one, ← EReal.coe_add, Ideal.log_coe, if_neg (not_le.2 h)]

/-- The softplus of a real, the negation written `0 - |z|`. -/
theorem softplus_zero_sub_coe (z : ℝ) :
    max (z : EReal) 0 + Ideal.log1p (Ideal.exp ((0 : EReal) - max (z : EReal) (-(z : EReal))))
      = ((max z 0 + Real.log (1 + Real.exp (-|z|)) : ℝ) : EReal) := by
  rw [abs_coe, exp_zero_sub_coe, log1p_coe (by positivity), ← EReal.coe_zero, ← coe_max, ← EReal.coe_add]

/-- The softplus of a real, the negation written `-|z - 0|`. -/
theorem softplus_neg_coe (z : ℝ) :
    max (z : EReal) 0 + Ideal.log1p (Ideal.exp (-(max ((z : EReal) - 0) (-((z : EReal) - 0)))))
      = ((max z 0 + Real.log (1 + Real.exp (-|z|)) : ℝ) : EReal) := by
  rw [ereal_sub_zero, abs_coe, exp_neg_coe, log1p_coe (by positivity), ← EReal.coe_zero, ← coe_max,
    ← EReal.coe_add]

/-- A finite dot product of coerced reals. -/
theorem dot_coe {ι : Type*} (s : Finset ι) (a w : ι → ℝ) :
    ∑ k ∈ s, (a k : EReal) * (w k : EReal) = ((∑ k ∈ s, a k * w k : ℝ) : EReal) := by
  classical
  induction s using Finset.induction_on with
  | empty => simp
  | insert k s hk ih => rw [Finset.sum_insert hk, Finset.sum_insert hk, ih, EReal.coe_add, EReal.coe_mul]

/-! ### Closure: the results are reals -/

section Closure
variable {x y : EReal}

theorem real_coe (r : ℝ) : ∃ r' : ℝ, (r : EReal) = (r' : EReal) := ⟨r, rfl⟩
theorem real_zero : ∃ r : ℝ, (0 : EReal) = (r : EReal) := ⟨0, rfl⟩
theorem real_one : ∃ r : ℝ, (1 : EReal) = (r : EReal) := ⟨1, rfl⟩

theorem real_add (hx : ∃ r : ℝ, x = (r : EReal)) (hy : ∃ r : ℝ, y = (r : EReal)) : ∃ r : ℝ, x + y = (r : EReal) := by
  obtain ⟨a, rfl⟩ := hx; obtain ⟨b, rfl⟩ := hy; exact ⟨a + b, (EReal.coe_add a b).symm⟩

theorem real_sub (hx : ∃ r : ℝ, x = (r : EReal)) (hy : ∃ r : ℝ, y = (r : EReal)) : ∃ r : ℝ, x - y = (r : EReal) := by
  obtain ⟨a, rfl⟩ := hx; obtain ⟨b, rfl⟩ := hy; exact ⟨a - b, (EReal.coe_sub a b).symm⟩

theorem real_mul (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem real_neg (hx : ∃ r : ℝ, x = (r : EReal)) : ∃ r : ℝ, -x = (r : EReal) := by
  obtain ⟨a, rfl⟩ := hx; exact ⟨-a, (EReal.coe_neg a).symm⟩

theorem real_max (hx : ∃ r : ℝ, x = (r : EReal)) (hy : ∃ r : ℝ, y = (r : EReal)) : ∃ r : ℝ, max x y = (r : EReal) := by
  obtain ⟨a, rfl⟩ := hx; obtain ⟨b, rfl⟩ := hy; exact ⟨max a b, (coe_max a b).symm⟩

theorem real_exp (hx : ∃ r : ℝ, x = (r : EReal)) : ∃ r : ℝ, Ideal.exp x = (r : EReal) := by
  obtain ⟨a, rfl⟩ := hx; exact ⟨Real.exp a, rfl⟩

/-- A finite sum of reals is a real. -/
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- A finite dot product of reals is a real. -/
theorem real_dot {ι : Type*} (s : Finset ι) (a w : ι → EReal) (ha : ∀ k ∈ s, ∃ r : ℝ, a k = (r : EReal))
    (hw : ∀ k ∈ s, ∃ r : ℝ, w k = (r : EReal)) : ∃ r : ℝ, ∑ k ∈ s, a k * w k = (r : EReal) :=
  real_sum s _ fun k hk => real_mul (ha k hk) (hw k hk)

/-- The logistic gate of a real is a real (negation written `0 - x`). -/
theorem real_sigmoid_zero_sub (hx : ∃ r : ℝ, x = (r : EReal)) :
    ∃ r : ℝ, Ideal.div 1 (1 + Ideal.exp ((0 : EReal) - x)) = (r : EReal) := by
  obtain ⟨z, rfl⟩ := hx; exact ⟨_, sigmoid_zero_sub_coe z⟩

/-- The logistic gate of a real is a real (negation written `-x`). -/
theorem real_sigmoid_neg (hx : ∃ r : ℝ, x = (r : EReal)) :
    ∃ r : ℝ, Ideal.div 1 (1 + Ideal.exp (-x)) = (r : EReal) := by
  obtain ⟨z, rfl⟩ := hx; exact ⟨_, sigmoid_neg_coe z⟩

/-- The softplus of a real is a real (negation written `0 - |x|`). -/
theorem real_softplus_zero_sub (hx : ∃ r : ℝ, x = (r : EReal)) :
    ∃ r : ℝ, max x 0 + Ideal.log1p (Ideal.exp ((0 : EReal) - max x (-x))) = (r : EReal) := by
  obtain ⟨z, rfl⟩ := hx; exact ⟨_, softplus_zero_sub_coe z⟩

/-- The softplus of a real is a real (negation written `-|x - 0|`). -/
theorem real_softplus_neg (hx : ∃ r : ℝ, x = (r : EReal)) :
    ∃ r : ℝ, max x 0 + Ideal.log1p (Ideal.exp (-(max (x - 0) (-(x - 0))))) = (r : EReal) := by
  obtain ⟨z, rfl⟩ := hx; exact ⟨_, softplus_neg_coe z⟩

end Closure

/-! ### The two spellings of the gate and of the softplus agree at every extended real -/

/-- `1 / (1 + e^{0 - x})` and `1 / (1 + e^{-x})` are one value. -/
theorem sigmoid_zero_sub_eq_neg (x : EReal) :
    Ideal.div 1 (1 + Ideal.exp ((0 : EReal) - x)) = Ideal.div 1 (1 + Ideal.exp (-x)) := by
  rw [ereal_zero_sub]

/-- The softplus with `0 - |x|` and with `-|x - 0|` are one value. -/
theorem softplus_zero_sub_eq_neg (x : EReal) :
    max x 0 + Ideal.log1p (Ideal.exp ((0 : EReal) - max x (-x)))
      = max x 0 + Ideal.log1p (Ideal.exp (-(max (x - 0) (-(x - 0))))) := by
  rw [ereal_zero_sub, ereal_sub_zero]

end Cert.KernelIdeal.H.Math
-- ==== Proof.KI.LibVariance.lean ====
/-
  The batch variance two ways. For a finite family of reals `c` with `N` members and mean
  `μ = (Σ c)·(1/N)`, the mean of the squared deviations equals the mean of the squares minus the
  square of the mean: `(Σ (c i - μ)²)/N = (Σ (c i)²)·(1/N) - μ·μ`. First in the reals, then for the
  same expressions written with extended-real operations on coerced reals (a division by the real
  `N` being the product with `1/N`), where every step pushes the coercion outward. Then the two
  normalisations `x · rsqrt v` and `x / sqrt v` for a positive real `v`, and the float constants
  the computation spells, as the reals their patterns denote.
-/
import Idealize.ShloMosaic.PureOps.Ideal

noncomputable section

namespace Cert.KernelIdeal.H.Math

open Idealize.ShloMosaic
open scoped BigOperators

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of coerced reals is a real. -/
theorem exists_real_sum {ι : Type*} (s : Finset ι) (f : ι → EReal) (hf : ∀ i ∈ s, ∃ r : ℝ, f i = (r : EReal)) :
    ∃ r : ℝ, ∑ i ∈ s, f i = (r : EReal) := by
  classical
  choose! g hg using hf
  exact ⟨∑ i ∈ s, g i, by rw [coe_finset_sum]; exact Finset.sum_congr rfl hg⟩

/-- The variance identity in the reals: the mean squared deviation from the mean is the mean of
    the squares minus the square of the mean. -/
theorem variance_real {ι : Type*} (s : Finset ι) (c : ι → ℝ) (N : ℝ) (hN : N ≠ 0) (hcard : (s.card : ℝ) = N) :
    (∑ i ∈ s, (c i - (∑ j ∈ s, c j) * (1 / N)) * (c i - (∑ j ∈ s, c j) * (1 / N))) / N
      = (∑ i ∈ s, c i * c i) * (1 / N) - ((∑ j ∈ s, c j) * (1 / N)) * ((∑ j ∈ s, c j) * (1 / N)) := by
  set S := ∑ j ∈ s, c j with hS
  have h1 : ∑ i ∈ s, (c i - S * (1 / N)) * (c i - S * (1 / N))
      = (∑ i ∈ s, c i * c i) - 2 * (S * (1 / N)) * S + N * ((S * (1 / N)) * (S * (1 / N))) := by
    have h2 : ∀ i, (c i - S * (1 / N)) * (c i - S * (1 / N))
        = c i * c i - 2 * (S * (1 / N)) * c i + (S * (1 / N)) * (S * (1 / N)) := fun i => by ring
    simp_rw [h2]
    rw [Finset.sum_add_distrib, Finset.sum_sub_distrib, ← Finset.mul_sum, Finset.sum_const, nsmul_eq_mul, hcard]
  rw [h1]
  field_simp
  ring

/-- The mean squared deviation is not negative. -/
theorem variance_nonneg {ι : Type*} (s : Finset ι) (c : ι → ℝ) (μ N : ℝ) (hN : 0 < N) :
    0 ≤ (∑ i ∈ s, (c i - μ) * (c i - μ)) / N :=
  div_nonneg (Finset.sum_nonneg fun i _ => mul_self_nonneg _) hN.le

section Coerced
variable {ι : Type*} [Fintype ι] (c : ι → ℝ) (N : ℝ)

/-- The mean as a product with the reciprocal, on coerced reals. -/
theorem mean_mul_coe :
    (∑ i, (c i : EReal)) * ((1 / N : ℝ) : EReal) = (((∑ i, c i) * (1 / N) : ℝ) : EReal) := by
  rw [← coe_finset_sum, ← EReal.coe_mul]

/-- The mean as a quotient by the real `N ≠ 0`, on coerced reals. -/
theorem mean_div_coe (hN : N ≠ 0) :
    Ideal.div (∑ i, (c i : EReal)) (N : EReal) = (((∑ i, c i) * (1 / N) : ℝ) : EReal) := by
  rw [Ideal.div_coe hN, mean_mul_coe]

/-- The mean of the squares minus the square of the mean, on coerced reals. -/
theorem var_moments_coe (μ : ℝ) :
    (∑ i, (c i : EReal) * (c i : EReal)) * ((1 / N : ℝ) : EReal) - (μ : EReal) * (μ : EReal)
      = (((∑ i, c i * c i) * (1 / N) - μ * μ : ℝ) : EReal) := by
  simp_rw [← EReal.coe_mul]
  rw [← coe_finset_sum, ← EReal.coe_mul, ← EReal.coe_sub]

/-- The mean squared deviation as a quotient by the real `N ≠ 0`, on coerced reals. -/
theorem var_centered_coe (hN : N ≠ 0) (μ : ℝ) :
    Ideal.div (∑ i, ((c i : EReal) - (μ : EReal)) * ((c i : EReal) - (μ : EReal))) (N : EReal)
      = (((∑ i, (c i - μ) * (c i - μ)) / N : ℝ) : EReal) := by
  simp_rw [← EReal.coe_sub, ← EReal.coe_mul]
  rw [← coe_finset_sum, Ideal.div_coe hN, ← EReal.coe_mul, mul_one_div]

/-- The two variances agree as extended reals: with `μ` the mean `(Σ c)·(1/N)` of `N = card`
    reals, the mean of the squares minus `μ·μ` is the mean squared deviation. -/
theorem var_moments_eq_var_centered (hN : N ≠ 0) (hcard : (Fintype.card ι : ℝ) = N) :
    (∑ i, (c i : EReal) * (c i : EReal)) * ((1 / N : ℝ) : EReal)
        - (((∑ i, c i) * (1 / N) : ℝ) : EReal) * (((∑ i, c i) * (1 / N) : ℝ) : EReal)
      = Ideal.div (∑ i, ((c i : EReal) - (((∑ i, c i) * (1 / N) : ℝ) : EReal))
          * ((c i : EReal) - (((∑ i, c i) * (1 / N) : ℝ) : EReal))) (N : EReal) := by
  rw [var_moments_coe, var_centered_coe c N hN, variance_real Finset.univ c N hN (by simpa using hcard)]

end Coerced

/-! ### The two normalisations -/

/-- The reciprocal square root of a positive real. -/
theorem rsqrt_coe_pos {v : ℝ} (h : 0 < v) : Ideal.rsqrt (v : EReal) = (((Real.sqrt v)⁻¹ : ℝ) : EReal) := by
  rw [Ideal.rsqrt_coe, if_neg (not_lt.2 h.le), if_neg h.ne']

/-- The square root of a real that is not negative. -/
theorem sqrt_coe_nonneg {v : ℝ} (h : 0 ≤ v) : Ideal.sqrt (v : EReal) = ((Real.sqrt v : ℝ) : EReal) := by
  rw [Ideal.sqrt_coe, if_neg (not_lt.2 h)]

/-- Multiplying by the reciprocal square root of a positive real is dividing by its square root,
    for every extended real `x`. -/
theorem mul_rsqrt_eq_div_sqrt (x : EReal) {v : ℝ} (h : 0 < v) :
    x * Ideal.rsqrt (v : EReal) = Ideal.div x (Ideal.sqrt (v : EReal)) := by
  rw [rsqrt_coe_pos h, sqrt_coe_nonneg h.le, Ideal.div_coe (Real.sqrt_pos.2 h).ne', one_div]

/-- The same with the positive real written as a sum `y + ε` of coerced reals. -/
theorem mul_rsqrt_add_eq_div_sqrt_add (x : EReal) {y ε : ℝ} (h : 0 < y + ε) :
    x * Ideal.rsqrt ((y : EReal) + (ε : EReal)) = Ideal.div x (Ideal.sqrt ((y : EReal) + (ε : EReal))) := by
  rw [← EReal.coe_add]; exact mul_rsqrt_eq_div_sqrt x h

/-- The normalised value as a real: `(a - μ) · rsqrt (y + ε) = ↑((a - μ) · (√(y + ε))⁻¹)`. -/
theorem sub_mul_rsqrt_coe (a μ : ℝ) {y ε : ℝ} (h : 0 < y + ε) :
    ((a : EReal) - (μ : EReal)) * Ideal.rsqrt ((y : EReal) + (ε : EReal))
      = (((a - μ) * (Real.sqrt (y + ε))⁻¹ : ℝ) : EReal) := by
  rw [← EReal.coe_add, rsqrt_coe_pos h, ← EReal.coe_sub, ← EReal.coe_mul]

/-! ### The normalisation spelled two ways -/

section Normalise
variable {ι : Type*} [Fintype ι] (c : ι → ℝ) (N : ℝ)

/-- For `N = card` reals `c`, a positive real `ε` and any extended real `x`: `x` times the
    reciprocal square root of (mean of squares minus squared mean, plus `ε`), the mean a product with
    `1/N`, is `x` divided by the square root of (mean squared deviation plus `ε`), the mean and the
    variance quotients by `N`. The variance identity needs the entries to be reals; the last step
    (reciprocal square root against square root) needs `variance + ε > 0`. -/
theorem mul_rsqrt_moments_eq_div_sqrt_centered (hN : 0 < N) (hcard : (Fintype.card ι : ℝ) = N) {ε : ℝ} (hε : 0 < ε)
    (x : EReal) :
    x * Ideal.rsqrt
          ((∑ i, (c i : EReal) * (c i : EReal)) * ((1 / N : ℝ) : EReal)
            - ((∑ i, (c i : EReal)) * ((1 / N : ℝ) : EReal)) * ((∑ i, (c i : EReal)) * ((1 / N : ℝ) : EReal))
            + (ε : EReal))
      = Ideal.div x (Ideal.sqrt
          (Ideal.div (∑ i, ((c i : EReal) - Ideal.div (∑ j, (c j : EReal)) (N : EReal))
              * ((c i : EReal) - Ideal.div (∑ j, (c j : EReal)) (N : EReal))) (N : EReal)
            + (ε : EReal))) := by
  rw [mean_div_coe c N hN.ne', mean_mul_coe, var_moments_eq_var_centered c N hN.ne' hcard,
    var_centered_coe c N hN.ne']
  refine mul_rsqrt_add_eq_div_sqrt_add x ?_
  have := variance_nonneg Finset.univ c ((∑ i, c i) * (1 / N)) N hN
  linarith

/-- The mean spelled as a quotient is the mean spelled as a product, at every extended real sum. -/
theorem div_eq_mul_inv_coe (S : EReal) (hN : N ≠ 0) : Ideal.div S (N : EReal) = S * ((1 / N : ℝ) : EReal) :=
  Ideal.div_coe hN S

end Normalise

/-! ### Float constants -/

/-- The f32 word `0x3727C5AC` (the float nearest `1e-5`) denotes a positive real. -/
theorem ofBits_eps : Ideal.ofBits .f32 0x3727C5AC#32 = ((10995116 / 2 ^ 40 : ℝ) : EReal) := by
  simp [Ideal.ofBits, Ideal.ieee, -EReal.coe_mul]; norm_num

theorem eps_pos : (0 : ℝ) < 10995116 / 2 ^ 40 := by norm_num

/-- The f32 word `0x461C4000` denotes the real `10000`. -/
theorem ofBits_10000 : Ideal.ofBits .f32 0x461C4000#32 = ((10000 : ℝ) : EReal) := by
  simp [Ideal.ofBits, Ideal.ieee, -EReal.coe_mul]; norm_num

/-- The f32 word `0x3F800000` denotes `1`. -/
theorem ofBits_one : Ideal.ofBits .f32 0x3F800000#32 = 1 := by
  simp [Ideal.ofBits, Ideal.ieee, -EReal.coe_mul]; norm_num

/-- The f32 zero word denotes `0`. -/
theorem ofBits_zero : Ideal.ofBits .f32 0x00000000#32 = 0 := by
  simp [Ideal.ofBits, Ideal.ieee]

end Cert.KernelIdeal.H.Math
-- ==== Proof.KI.LibScatter.lean ====
/-
  The accumulating scatter of reals into reals holds only reals: each result entry is the operand
  entry plus a finite sum of update entries.
-/
import Idealize.ShloMosaic.PureOps.Ideal
import proofs.«151930_g64080912056811_cont_9to1c4b_125_51_alg».proof.Proof.KI.LibFinite

noncomputable section

namespace Cert.KernelIdeal.H.Math

open Idealize.ShloMosaic
open scoped BigOperators

/-- Every entry of an accumulating scatter of real updates into a real operand is a real. -/
theorem real_hostScatterAdd {s si su : Shape} (d : ScatterDims s si su) {w : Nat} (x : s.Idx → EReal)
    (idx : IVec si w) (upd : su.Idx → EReal) (hx : ∀ i, ∃ r : ℝ, x i = (r : EReal))
    (hu : ∀ j, ∃ r : ℝ, upd j = (r : EReal)) (i : s.Idx) :
    ∃ r : ℝ, Ideal.hostScatterAdd d x idx upd i = (r : EReal) :=
  real_add (hx i) (real_sum _ _ fun j _ => hu j)

/-- The same for the host operation as a program spells it. -/
theorem real_scatterAdd {s si su : Shape} {φ : FTy} (d : ScatterDims s si su) {w : Nat} (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) :=
  real_hostScatterAdd d x idx upd hx hu i

end Cert.KernelIdeal.H.Math
-- ==== Proof.KI.ConvFinite.lean ====
import proofs.«151930_g64080912056811_cont_9to1c4b_125_51_alg».proof.Proof.KI.KernelValue
import proofs.«151930_g64080912056811_cont_9to1c4b_125_51_alg».proof.Proof.KI.MsgK
import proofs.«151930_g64080912056811_cont_9to1c4b_125_51_alg».proof.Proof.KI.LibFinite
import proofs.«151930_g64080912056811_cont_9to1c4b_125_51_alg».proof.Proof.KI.LibVariance
import proofs.«151930_g64080912056811_cont_9to1c4b_125_51_alg».proof.Proof.KI.LibScatter

noncomputable section

namespace Cert.KernelIdeal.H

open Idealize.ShloMosaic Idealize.ShloMosaic.ValueIdx
open Cert.KernelIdeal Cert.KernelIdeal.H.Math
open scoped BigOperators

/-! # Finite inputs give a finite convolution

Every per-edge pre-activation is a finite sum of products of reals, the activation of reals is a real, and a row of the
aggregate is a finite sum of messages: so every entry of `agg + x` is a real number. -/

variable (x : FVec Ideal S10000x256 .f32) (ei : IVec S2x160000 32) (ea : FVec Ideal S160000x16 .f32)
  (Wf : FVec Ideal S528x256 .f32) (bf : FVec Ideal S256 .f32) (Ws : FVec Ideal S528x256 .f32) (bs : FVec Ideal S256 .f32)

theorem ZK_real (W : FVec Ideal S528x256 .f32) (b : FVec Ideal S256 .f32)
    (hx : ∀ i, ∃ r : ℝ, x i = (r : EReal)) (hea : ∀ i, ∃ r : ℝ, ea i = (r : EReal))
    (hW : ∀ i, ∃ r : ℝ, W i = (r : EReal)) (hb : ∀ i, ∃ r : ℝ, b i = (r : EReal))
    (nd ns : Fin 160000 → Fin 10000) (e : Fin 160000) (j : Fin 256) : ∃ r : ℝ, ZK x ea W b nd ns e j = (r : EReal) := by
  unfold ZK
  exact real_add (real_add (real_add (real_dot _ _ _ (fun k _ => hx _) (fun k _ => hW _)) (hb _))
    (real_dot _ _ _ (fun k _ => hx _) (fun k _ => hW _))) (real_dot _ _ _ (fun k _ => hea _) (fun k _ => hW _))

theorem act2_real {a b : EReal} (ha : ∃ r : ℝ, a = (r : EReal)) (hb : ∃ r : ℝ, b = (r : EReal)) : ∃ r : ℝ, act2 a b = (r : EReal) := by
  unfold act2
  rw [ofBits_one, ofBits_zero]
  exact real_mul (real_sigmoid_zero_sub ha) (real_softplus_zero_sub hb)

variable (hx : ∀ i, ∃ r : ℝ, x i = (r : EReal)) (hea : ∀ i, ∃ r : ℝ, ea i = (r : EReal))
  (hWf : ∀ i, ∃ r : ℝ, Wf i = (r : EReal)) (hbf : ∀ i, ∃ r : ℝ, bf i = (r : EReal))
  (hWs : ∀ i, ∃ r : ℝ, Ws i = (r : EReal)) (hbs : ∀ i, ∃ r : ℝ, bs i = (r : EReal))

include hx hea hWf hbf hWs hbs in
theorem msgKer_real (i : S160000x256.Idx) : ∃ r : ℝ, msgKer x ei ea Wf bf Ws bs i = (r : EReal) := by
  obtain ⟨e, j, rfl⟩ : ∃ (e : Fin 160000) (j : Fin 256), i = ix2 e j := ⟨i 0, i 1, eq_ix2 i⟩
  unfold msgKer
  rw [msgK x ea Wf Ws bf bs ei e j]
  exact act2_real (ZK_real x ea Wf bf hx hea hWf hbf _ _ e j) (ZK_real x ea Ws bs hx hea hWs hbs _ _ e j)

include hx hea hWf hbf hWs hbs in
theorem conv_real (k : Fin 10000) (q : Fin 256) :
    ∃ r : ℝ, aggKer x ei ea Wf bf Ws bs (ix2 k q) + x (ix2 k q) = (r : EReal) := by
  refine real_add ?_ (hx _)
  unfold aggKer aggOf
  refine real_scatterAdd _ _ _ _ (fun i => ⟨0, ?_⟩) (msgKer_real x ei ea Wf bf Ws bs hx hea hWf hbf hWs hbs) _
  show Ideal.ofBits .f32 0x00000000#32 = _
  exact ofBits_zero

end Cert.KernelIdeal.H

end
-- ==== Proof.KI.KFinal.lean ====
import proofs.«151930_g64080912056811_cont_9to1c4b_125_51_alg».proof.Proof.KI.Val3
import proofs.«151930_g64080912056811_cont_9to1c4b_125_51_alg».proof.Proof.KI.Val4
import proofs.«151930_g64080912056811_cont_9to1c4b_125_51_alg».proof.Proof.KI.LibVariance
import Idealize.ShloMosaic.PureOps.IdealRules

/-! # The kernel's result at an index

Region 4 normalises each entry of `conv = agg + x` with its column's mean and variance, which it recovers from the two
rows of statistics region 3 left: `mean = S1 / 10000`, `var = S2 / 10000 - mean²`, the division spelt as a product with
the named reciprocal of the row count. With region 3's statistics substituted (column sums over all 10000 rows of `conv`
and of its square) and `conv` read as a real matrix, the entry at row `r`, column `j` is
`x + n · (1 / (1 + exp (0 - n)))` with `n = (conv r j - mean) · rsqrt (var + eps) · gamma j + beta j`. -/

set_option maxRecDepth 16384

noncomputable section

namespace Cert.KernelIdeal.H

open Idealize.ShloMosaic Idealize.ShloMosaic.TcCoe
open Idealize.SL.Sem
open Idealize.ShloMosaic.ValueIdx
open Cert.KernelIdeal.Gen
open scoped BigOperators

/-- The body's named reciprocal of the row count denotes the rational 1/10000. -/
theorem inv4_eq : inv4 = ((1 / 10000 : ℝ) : EReal) := by
  unfold inv4
  exact IdealRules.named_const.ideal_named_scalar _ _ _ _ rfl

/-- Region 3's statistics when `agg + x` is a real matrix: row 0. -/
theorem stat3_row0 (agg x : S10000x256.Idx → EReal) (cR : Fin 10000 → Fin 256 → ℝ)
    (hc : ∀ k q, agg (ix2 k q) + x (ix2 k q) = ((cR k q : ℝ) : EReal)) (j : Fin 256) :
    stat3 agg x (0 : Fin 2) j = ∑ i : Fin 10000, (cR i j : EReal) := by
  unfold stat3
  have h : ((0 : Fin 2) : ℕ) = 0 := rfl
  rw [if_pos h]
  exact Finset.sum_congr rfl fun i _ => hc i j

/-- Row 1. -/
theorem stat3_row1 (agg x : S10000x256.Idx → EReal) (cR : Fin 10000 → Fin 256 → ℝ)
    (hc : ∀ k q, agg (ix2 k q) + x (ix2 k q) = ((cR k q : ℝ) : EReal)) (j : Fin 256) :
    stat3 agg x (1 : Fin 2) j = ∑ i : Fin 10000, (cR i j : EReal) * (cR i j : EReal) := by
  unfold stat3
  have h : ¬ ((1 : Fin 2) : ℕ) = 0 := by decide
  rw [if_neg h]
  exact Finset.sum_congr rfl fun i _ => by unfold conv3; rw [hc i j]

/-- THE KERNEL'S RESULT at row `r`, column `j`, for any one-row arrays `g`, `b` holding `gamma`, `beta`. -/
theorem kfinal_rows (agg x : S10000x256.Idx → EReal) (g b : S1x256.Idx → EReal) (gamma beta : S256.Idx → EReal)
    (hg : ∀ q : Fin 256, g (ix2 (0 : Fin 1) q) = gamma (ix1 q)) (hb : ∀ q : Fin 256, b (ix2 (0 : Fin 1) q) = beta (ix1 q))
    (cR : Fin 10000 → Fin 256 → ℝ) (hc : ∀ k q, agg (ix2 k q) + x (ix2 k q) = ((cR k q : ℝ) : EReal))
    (r : Fin 10000) (j : Fin 256) :
    G4_5 agg x (fun i => stat3 agg x (i 0) (i 1)) g b (ix2 r j)
      = x (ix2 r j) + ((((cR r j : EReal) - ((∑ i : Fin 10000, (cR i j : EReal)) * ((1 / 10000 : ℝ) : EReal)))
            * Ideal.rsqrt (((∑ i : Fin 10000, (cR i j : EReal) * (cR i j : EReal)) * ((1 / 10000 : ℝ) : EReal)
                - ((∑ i : Fin 10000, (cR i j : EReal)) * ((1 / 10000 : ℝ) : EReal)) * ((∑ i : Fin 10000, (cR i j : EReal)) * ((1 / 10000 : ℝ) : EReal)))
              + (Ideal.ofBits .f32 0x3727C5AC#32 : EReal))) * gamma (ix1 j) + beta (ix1 j))
          * Ideal.div (Ideal.ofBits .f32 0x3F800000#32 : EReal) ((Ideal.ofBits .f32 0x3F800000#32 : EReal)
              + Ideal.exp ((Ideal.ofBits .f32 0x00000000#32 : EReal) - ((((cR r j : EReal) - ((∑ i : Fin 10000, (cR i j : EReal)) * ((1 / 10000 : ℝ) : EReal)))
            * Ideal.rsqrt (((∑ i : Fin 10000, (cR i j : EReal) * (cR i j : EReal)) * ((1 / 10000 : ℝ) : EReal)
                - ((∑ i : Fin 10000, (cR i j : EReal)) * ((1 / 10000 : ℝ) : EReal)) * ((∑ i : Fin 10000, (cR i j : EReal)) * ((1 / 10000 : ℝ) : EReal)))
              + (Ideal.ofBits .f32 0x3727C5AC#32 : EReal))) * gamma (ix1 j) + beta (ix1 j)))) := by
  show bn4 (agg (ix2 r j)) (x (ix2 r j)) (stat3 agg x (0 : Fin 2) j) (stat3 agg x (1 : Fin 2) j) (g (ix2 (0 : Fin 1) j)) (b (ix2 (0 : Fin 1) j)) = _
  rw [stat3_row0 agg x cR hc j, stat3_row1 agg x cR hc j, hg j, hb j]
  unfold bn4 silu4 norm4 rstd4 mean4
  rw [hc r j, inv4_eq]

/-- The same with the one-row arrays spelt as the program builds them: the 256-vectors `gamma`, `beta` viewed 1 x 256. -/
theorem kfinal (agg x : S10000x256.Idx → EReal) (gamma beta : S256.Idx → EReal)
    (cR : Fin 10000 → Fin 256 → ℝ) (hc : ∀ k q, agg (ix2 k q) + x (ix2 k q) = ((cR k q : ℝ) : EReal))
    (r : Fin 10000) (j : Fin 256) :
    G4_5 agg x (fun i => stat3 agg x (i 0) (i 1)) (shapeCast S1x256 gamma shapeCasts_S256_S1x256) (shapeCast S1x256 beta shapeCasts_S256_S1x256) (ix2 r j)
      = x (ix2 r j) + ((((cR r j : EReal) - ((∑ i : Fin 10000, (cR i j : EReal)) * ((1 / 10000 : ℝ) : EReal)))
            * Ideal.rsqrt (((∑ i : Fin 10000, (cR i j : EReal) * (cR i j : EReal)) * ((1 / 10000 : ℝ) : EReal)
                - ((∑ i : Fin 10000, (cR i j : EReal)) * ((1 / 10000 : ℝ) : EReal)) * ((∑ i : Fin 10000, (cR i j : EReal)) * ((1 / 10000 : ℝ) : EReal)))
              + (Ideal.ofBits .f32 0x3727C5AC#32 : EReal))) * gamma (ix1 j) + beta (ix1 j))
          * Ideal.div (Ideal.ofBits .f32 0x3F800000#32 : EReal) ((Ideal.ofBits .f32 0x3F800000#32 : EReal)
              + Ideal.exp ((Ideal.ofBits .f32 0x00000000#32 : EReal) - ((((cR r j : EReal) - ((∑ i : Fin 10000, (cR i j : EReal)) * ((1 / 10000 : ℝ) : EReal)))
            * Ideal.rsqrt (((∑ i : Fin 10000, (cR i j : EReal) * (cR i j : EReal)) * ((1 / 10000 : ℝ) : EReal)
                - ((∑ i : Fin 10000, (cR i j : EReal)) * ((1 / 10000 : ℝ) : EReal)) * ((∑ i : Fin 10000, (cR i j : EReal)) * ((1 / 10000 : ℝ) : EReal)))
              + (Ideal.ofBits .f32 0x3727C5AC#32 : EReal))) * gamma (ix1 j) + beta (ix1 j)))) :=
  kfinal_rows agg x _ _ gamma beta (fun q => shapeCast_a_1a_apply gamma shapeCasts_S256_S1x256 (0 : Fin 1) q)
    (fun q => shapeCast_a_1a_apply beta shapeCasts_S256_S1x256 (0 : Fin 1) q) cR hc r j

end Cert.KernelIdeal.H
end
-- ==== Proof.KI.LibCompare.lean ====
/-
  Comparisons and conversions on the extended reals whose answers are fixed: nothing differs from
  itself (the "is it a NaN" test `x ≠ x` is always 0), a positive real is above zero, the signed
  integer word 0 converts to the real 0, and `10000 - 0 = 10000`.
-/
import Idealize.ShloMosaic.PureOps.Ideal

noncomputable section

namespace Cert.KernelIdeal.H.Math

open Idealize.ShloMosaic

/-- The test `x ≠ x` answers 0 at every extended real. -/
theorem cmp_one_self (x : EReal) : Ideal.cmp .one x x = 0#1 := by
  simp [Ideal.cmp]

/-- The unordered spelling of the same test. -/
theorem cmp_une_self (x : EReal) : Ideal.cmp .une x x = 0#1 := by
  simp [Ideal.cmp]

/-- A positive real is greater than zero: the test answers 1. -/
theorem cmp_ogt_coe_zero {r : ℝ} (h : 0 < r) : Ideal.cmp .ogt (r : EReal) 0 = 1#1 := by
  have h' : (0 : EReal) < (r : EReal) := by exact_mod_cast h
  simp [Ideal.cmp, h']

/-- The signed 32-bit word 0, converted, is the real 0. -/
theorem sitofp_zero : ((((0#32 : BitVec 32).toInt : ℤ) : ℝ) : EReal) = 0 := by
  simp

/-- `10000 - 0 = 10000`, the zero being the converted integer word. -/
theorem coe_10000_sub_sitofp_zero :
    ((10000 : ℝ) : EReal) - ((((0#32 : BitVec 32).toInt : ℤ) : ℝ) : EReal) = ((10000 : ℝ) : EReal) := by
  rw [sitofp_zero, sub_eq_add_neg, neg_zero, add_zero]

end Cert.KernelIdeal.H.Math
-- ==== Proof.KI.RefTail.lean ====
import proofs.«151930_g64080912056811_cont_9to1c4b_125_51_alg».proof.Proof.KI.RefRun
import proofs.«151930_g64080912056811_cont_9to1c4b_125_51_alg».proof.Proof.KI.LibCompare
import proofs.«151930_g64080912056811_cont_9to1c4b_125_51_alg».proof.Proof.KI.LibVariance
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

/-! # The reference's tail at an index

After the aggregation the reference adds the node features (`conv`), normalises each column with its mean and its
variance over the 10000 rows (sums over axis 0, the variance's divisor spelt 10000 less a converted integer 0 and
guarded by a comparison that always holds), scales and shifts by `gamma`, `beta`, applies `t · (1 / (1 + exp (-t)))`
and adds the features back. Every stage is pointwise, a broadcast or a column sum; read at row `r`, column `j` they
compose to one closed expression in the column's entries. -/

set_option maxRecDepth 16384

noncomputable section

namespace Cert.ReferenceIdeal.H

open Cert.ReferenceIdeal Cert.ReferenceIdeal.Gen Idealize.ShloMosaic Idealize.ShloMosaic.TcCoe Idealize.SL.Sem
open Idealize.ShloMosaic.ValueIdx
open Cert.KernelIdeal.H.Math
open scoped BigOperators

/-! ## The tail's stages read at an index -/

/-- A column's sum: the 10000 entries of the column (the initial value is zero). -/
theorem colsum_apply (c : FVec Ideal S10000x256 .f32) (j : Fin 256) :
    colsum c (ix1 j) = ∑ k : Fin 10000, c (ix2 k j) := by
  unfold colsum
  refine (Ideal.hostReduceAdd_single reducesTo_S10000x256_S256_d0 (by decide : S10000x256.Reduces [0] S256) c _ (ix1 j)).trans ?_
  rw [show (constant (F := Ideal) S_ .f32 0x00000000#32) (Shape.Idx.first h_S_) = Ideal.ofBits .f32 0x00000000#32 from rfl,
    Ideal.ofBits_zero_f32, zero_add]
  refine Finset.sum_congr rfl fun k _ => congrArg c (funext fun a => ?_)
  fin_cases a <;> rfl

/-- A row of 256 spread over the nodes reads the row's entry of the column. -/
theorem bc2_apply (v : FVec Ideal S256 .f32) (r : Fin 10000) (j : Fin 256) : bc2 v (ix2 r j) = v (ix1 j) := by
  unfold bc2
  refine (broadcastInDim_apply ![0, 1] _ _ (ix2 r j) (ix2 (0 : Fin 1) j) (fun a => ?_)).trans ?_
  · fin_cases a <;> rfl
  refine broadcastInDim_apply ![1] _ v (ix2 (0 : Fin 1) j) (ix1 j) (fun a => ?_)
  fin_cases a; rfl

/-- A scalar constant spread over a shape reads the constant's value. -/
theorem bcast_const_apply {T : Shape} (h : S_.BroadcastsInDim T ![]) (w : BitVec 32) (i : T.Idx) :
    broadcastInDim T ![] h (constant (F := Ideal) S_ .f32 w) i = Ideal.ofBits .f32 w := by
  rw [broadcastInDim_scalar_apply]; rfl

theorem mean_apply (c : FVec Ideal S10000x256 .f32) (j : Fin 256) :
    mean c (ix1 j) = Ideal.div (∑ k : Fin 10000, c (ix2 k j)) (Ideal.ofBits .f32 0x461C4000#32) := by
  unfold mean
  rw [hostDivf_apply, bcast_const_apply, colsum_apply]

/-- The centred entry: the entry less its column's mean (the mean taken on a one-row table). -/
theorem centred_apply (c : FVec Ideal S10000x256 .f32) (r : Fin 10000) (j : Fin 256) :
    centred c (ix2 r j) = c (ix2 r j) - Ideal.div (∑ k : Fin 10000, c (ix2 k j)) (Ideal.ofBits .f32 0x461C4000#32) := by
  unfold centred
  rw [subf_apply]
  refine congrArg (c (ix2 r j) - ·) ?_
  refine (broadcastInDim_apply ![0, 1] _ _ (ix2 r j) (ix2 (0 : Fin 1) j) (fun a => ?_)).trans ?_
  · fin_cases a <;> rfl
  rw [hostDivf_apply, bcast_const_apply]
  rw [broadcastInDim_apply ![1] bcast_S256_S1x256_1 (colsum c) (ix2 (0 : Fin 1) j) (ix1 j) (fun a => by fin_cases a; rfl), colsum_apply]

/-- The variance's divisor: 10000 less the converted integer 0. -/
theorem dofs_apply : dofs ix0 = Ideal.ofBits .f32 0x461C4000#32 - ((((0#32 : BitVec 32).toInt : ℤ) : ℝ) : EReal) := rfl

/-- The divisor is positive, so the variance is the quotient (the not-a-number branch is never taken). -/
theorem var_apply (c : FVec Ideal S10000x256 .f32) (j : Fin 256) :
    var c (ix1 j) = Ideal.div (∑ k : Fin 10000, (c (ix2 k j) - Ideal.div (∑ k : Fin 10000, c (ix2 k j)) (Ideal.ofBits .f32 0x461C4000#32))
          * (c (ix2 k j) - Ideal.div (∑ k : Fin 10000, c (ix2 k j)) (Ideal.ofBits .f32 0x461C4000#32)))
        (Ideal.ofBits .f32 0x461C4000#32 - ((((0#32 : BitVec 32).toInt : ℤ) : ℝ) : EReal)) := by
  unfold var
  rw [select_apply]
  have hcond : broadcastInDim S256 ![] bcast_S_S256 (cmpf .ogt dofs (constant (F := Ideal) S_ .f32 0x00000000#32)) (ix1 j) = 1#1 := by
    rw [broadcastInDim_scalar_apply]
    show Ideal.cmp .ogt (dofs ix0) (Ideal.ofBits .f32 0x00000000#32) = 1#1
    rw [dofs_apply, ofBits_10000, coe_10000_sub_sitofp_zero, Ideal.ofBits_zero_f32]
    exact cmp_ogt_coe_zero (by norm_num)
  rw [hcond, select_one, hostDivf_apply, colsum_apply, broadcastInDim_scalar_apply, dofs_apply]
  refine congrArg (Ideal.div · _) (Finset.sum_congr rfl fun k _ => ?_)
  rw [mulf_apply, centred_apply]

/-- Batch normalisation at an entry. -/
theorem normed_apply (c : FVec Ideal S10000x256 .f32) (gamma beta : FVec Ideal S256 .f32) (r : Fin 10000) (j : Fin 256) :
    normed c gamma beta (ix2 r j)
      = Ideal.div (c (ix2 r j) - mean c (ix1 j)) (Ideal.sqrt (var c (ix1 j) + Ideal.ofBits .f32 0x3727C5AC#32)) * gamma (ix1 j) + beta (ix1 j) := by
  unfold normed
  rw [addf_apply, mulf_apply, hostDivf_apply, subf_apply, bc2_apply, bc2_apply, bc2_apply, bc2_apply]
  rw [show Host.sqrt (addf (var c) (broadcastInDim S256 ![] bcast_S_S256 (constant S_ .f32 0x3727C5AC#32))) (ix1 j)
      = Ideal.sqrt (var c (ix1 j) + broadcastInDim S256 ![] bcast_S_S256 (constant (F := Ideal) S_ .f32 0x3727C5AC#32) (ix1 j)) from rfl,
    bcast_const_apply]

/-- The activation at an entry. -/
theorem silu_apply (t : FVec Ideal S10000x256 .f32) (i : S10000x256.Idx) :
    silu t i = t i * Ideal.div (Ideal.ofBits .f32 0x3F800000#32) (Ideal.ofBits .f32 0x3F800000#32 + Ideal.exp (-(t i))) := by
  unfold silu
  rw [mulf_apply, hostDivf_apply, addf_apply, bcast_const_apply]
  rfl

theorem out_apply (x n : FVec Ideal S10000x256 .f32) (i : S10000x256.Idx) : out x n i = x i + silu n i := rfl

/-- THE REFERENCE'S TAIL at row `r`, column `j`, when the convolution's output `c` is a real matrix: the features plus the
    activation of the normalised entry, the column's mean and variance written out over the 10000 rows. -/
theorem ref_tail (x c : FVec Ideal S10000x256 .f32) (gamma beta : FVec Ideal S256 .f32)
    (cR : Fin 10000 → Fin 256 → ℝ) (hc : ∀ k q, c (ix2 k q) = ((cR k q : ℝ) : EReal)) (r : Fin 10000) (j : Fin 256) :
    out x (normed c gamma beta) (ix2 r j)
      = x (ix2 r j) + ((Ideal.div ((cR r j : EReal) - (Ideal.div (∑ i : Fin 10000, (cR i j : EReal)) (Ideal.ofBits .f32 0x461C4000#32 : EReal)))
            (Ideal.sqrt ((Ideal.div (∑ i : Fin 10000, ((cR i j : EReal) - (Ideal.div (∑ i : Fin 10000, (cR i j : EReal)) (Ideal.ofBits .f32 0x461C4000#32 : EReal)))
                  * ((cR i j : EReal) - (Ideal.div (∑ i : Fin 10000, (cR i j : EReal)) (Ideal.ofBits .f32 0x461C4000#32 : EReal))))
                ((Ideal.ofBits .f32 0x461C4000#32 : EReal) - ((((0#32 : BitVec 32).toInt : ℤ) : ℝ) : EReal)))
              + (Ideal.ofBits .f32 0x3727C5AC#32 : EReal)))) * gamma (ix1 j) + beta (ix1 j))
          * Ideal.div (Ideal.ofBits .f32 0x3F800000#32 : EReal) ((Ideal.ofBits .f32 0x3F800000#32 : EReal)
              + Ideal.exp (-((Ideal.div ((cR r j : EReal) - (Ideal.div (∑ i : Fin 10000, (cR i j : EReal)) (Ideal.ofBits .f32 0x461C4000#32 : EReal)))
            (Ideal.sqrt ((Ideal.div (∑ i : Fin 10000, ((cR i j : EReal) - (Ideal.div (∑ i : Fin 10000, (cR i j : EReal)) (Ideal.ofBits .f32 0x461C4000#32 : EReal)))
                  * ((cR i j : EReal) - (Ideal.div (∑ i : Fin 10000, (cR i j : EReal)) (Ideal.ofBits .f32 0x461C4000#32 : EReal))))
                ((Ideal.ofBits .f32 0x461C4000#32 : EReal) - ((((0#32 : BitVec 32).toInt : ℤ) : ℝ) : EReal)))
              + (Ideal.ofBits .f32 0x3727C5AC#32 : EReal)))) * gamma (ix1 j) + beta (ix1 j)))) := by
  rw [out_apply, silu_apply, normed_apply, mean_apply, var_apply]
  simp only [hc]

end Cert.ReferenceIdeal.H
end
-- ==== Proof.KI.LibNormalise.lean ====
/-
  The last step of a batch normalisation over 10000 rows followed by `n · 1/(1 + e^{-n})` and a
  residual, spelled two ways, as one value. One side takes the mean and the second moment as products
  with `1/10000`, the variance as second moment minus squared mean, scales by the reciprocal square
  root and writes the negation `0 - n`; the other takes mean and variance as quotients by `10000`,
  the variance as the mean squared deviation, divides by the square root and writes `-n`. The column
  entries are reals (the variance identity needs it); the scale, the shift and the residual are any
  extended reals.
-/
import Idealize.ShloMosaic.PureOps.Ideal
import proofs.«151930_g64080912056811_cont_9to1c4b_125_51_alg».proof.Proof.KI.LibVariance
import proofs.«151930_g64080912056811_cont_9to1c4b_125_51_alg».proof.Proof.KI.LibFinite
import proofs.«151930_g64080912056811_cont_9to1c4b_125_51_alg».proof.Proof.KI.LibCompare

noncomputable section

namespace Cert.KernelIdeal.H.Math

open Idealize.ShloMosaic
open scoped BigOperators

/-- The normalised entry before scale and shift, the constants already read as reals. -/
theorem normalise_core_agree (c : Fin 10000 → ℝ) (r0 : Fin 10000) :
    (((c r0 : EReal) - ((∑ i : Fin 10000, (c i : EReal)) * ((1 / 10000 : ℝ) : EReal))) * Ideal.rsqrt (((∑ i : Fin 10000, (c i : EReal) * (c i : EReal)) * ((1 / 10000 : ℝ) : EReal) - ((∑ i : Fin 10000, (c i : EReal)) * ((1 / 10000 : ℝ) : EReal)) * ((∑ i : Fin 10000, (c i : EReal)) * ((1 / 10000 : ℝ) : EReal))) + ((10995116 / 2 ^ 40 : ℝ) : EReal)))
      = (Ideal.div ((c r0 : EReal) - (Ideal.div (∑ i : Fin 10000, (c i : EReal)) ((10000 : ℝ) : EReal))) (Ideal.sqrt ((Ideal.div (∑ i : Fin 10000, ((c i : EReal) - (Ideal.div (∑ i : Fin 10000, (c i : EReal)) ((10000 : ℝ) : EReal))) * ((c i : EReal) - (Ideal.div (∑ i : Fin 10000, (c i : EReal)) ((10000 : ℝ) : EReal)))) ((10000 : ℝ) : EReal)) + ((10995116 / 2 ^ 40 : ℝ) : EReal)))) := by
  have hcard : ((Fintype.card (Fin 10000) : ℕ) : ℝ) = 10000 := by simp
  rw [mul_rsqrt_moments_eq_div_sqrt_centered c 10000 (by norm_num) hcard eps_pos,
    div_eq_mul_inv_coe 10000 (∑ i : Fin 10000, (c i : EReal)) (by norm_num)]

/-- The whole pointwise value, the variance's divisor already `10000`. -/
theorem final_pointwise_agree (c : Fin 10000 → ℝ) (r0 : Fin 10000) (xx g b : EReal) :
    xx + ((((c r0 : EReal) - ((∑ i : Fin 10000, (c i : EReal)) * ((1 / 10000 : ℝ) : EReal))) * Ideal.rsqrt (((∑ i : Fin 10000, (c i : EReal) * (c i : EReal)) * ((1 / 10000 : ℝ) : EReal) - ((∑ i : Fin 10000, (c i : EReal)) * ((1 / 10000 : ℝ) : EReal)) * ((∑ i : Fin 10000, (c i : EReal)) * ((1 / 10000 : ℝ) : EReal))) + (Ideal.ofBits .f32 0x3727C5AC#32 : EReal))) * g + b) * Ideal.div (Ideal.ofBits .f32 0x3F800000#32 : EReal) ((Ideal.ofBits .f32 0x3F800000#32 : EReal) + Ideal.exp ((Ideal.ofBits .f32 0x00000000#32 : EReal) - ((((c r0 : EReal) - ((∑ i : Fin 10000, (c i : EReal)) * ((1 / 10000 : ℝ) : EReal))) * Ideal.rsqrt (((∑ i : Fin 10000, (c i : EReal) * (c i : EReal)) * ((1 / 10000 : ℝ) : EReal) - ((∑ i : Fin 10000, (c i : EReal)) * ((1 / 10000 : ℝ) : EReal)) * ((∑ i : Fin 10000, (c i : EReal)) * ((1 / 10000 : ℝ) : EReal))) + (Ideal.ofBits .f32 0x3727C5AC#32 : EReal))) * g + b)))
      = xx + ((Ideal.div ((c r0 : EReal) - (Ideal.div (∑ i : Fin 10000, (c i : EReal)) (Ideal.ofBits .f32 0x461C4000#32 : EReal))) (Ideal.sqrt ((Ideal.div (∑ i : Fin 10000, ((c i : EReal) - (Ideal.div (∑ i : Fin 10000, (c i : EReal)) (Ideal.ofBits .f32 0x461C4000#32 : EReal))) * ((c i : EReal) - (Ideal.div (∑ i : Fin 10000, (c i : EReal)) (Ideal.ofBits .f32 0x461C4000#32 : EReal)))) (Ideal.ofBits .f32 0x461C4000#32 : EReal)) + (Ideal.ofBits .f32 0x3727C5AC#32 : EReal)))) * g + b) * Ideal.div (Ideal.ofBits .f32 0x3F800000#32 : EReal) ((Ideal.ofBits .f32 0x3F800000#32 : EReal) + Ideal.exp (-((Ideal.div ((c r0 : EReal) - (Ideal.div (∑ i : Fin 10000, (c i : EReal)) (Ideal.ofBits .f32 0x461C4000#32 : EReal))) (Ideal.sqrt ((Ideal.div (∑ i : Fin 10000, ((c i : EReal) - (Ideal.div (∑ i : Fin 10000, (c i : EReal)) (Ideal.ofBits .f32 0x461C4000#32 : EReal))) * ((c i : EReal) - (Ideal.div (∑ i : Fin 10000, (c i : EReal)) (Ideal.ofBits .f32 0x461C4000#32 : EReal)))) (Ideal.ofBits .f32 0x461C4000#32 : EReal)) + (Ideal.ofBits .f32 0x3727C5AC#32 : EReal)))) * g + b))) := by
  rw [ofBits_eps, ofBits_10000, ofBits_zero, ereal_zero_sub, normalise_core_agree c r0]

/-- The whole pointwise value, the variance's divisor spelled `10000 - 0` with the converted integer 0. -/
theorem final_pointwise_agree_ddof (c : Fin 10000 → ℝ) (r0 : Fin 10000) (xx g b : EReal) :
    xx + ((((c r0 : EReal) - ((∑ i : Fin 10000, (c i : EReal)) * ((1 / 10000 : ℝ) : EReal))) * Ideal.rsqrt (((∑ i : Fin 10000, (c i : EReal) * (c i : EReal)) * ((1 / 10000 : ℝ) : EReal) - ((∑ i : Fin 10000, (c i : EReal)) * ((1 / 10000 : ℝ) : EReal)) * ((∑ i : Fin 10000, (c i : EReal)) * ((1 / 10000 : ℝ) : EReal))) + (Ideal.ofBits .f32 0x3727C5AC#32 : EReal))) * g + b) * Ideal.div (Ideal.ofBits .f32 0x3F800000#32 : EReal) ((Ideal.ofBits .f32 0x3F800000#32 : EReal) + Ideal.exp ((Ideal.ofBits .f32 0x00000000#32 : EReal) - ((((c r0 : EReal) - ((∑ i : Fin 10000, (c i : EReal)) * ((1 / 10000 : ℝ) : EReal))) * Ideal.rsqrt (((∑ i : Fin 10000, (c i : EReal) * (c i : EReal)) * ((1 / 10000 : ℝ) : EReal) - ((∑ i : Fin 10000, (c i : EReal)) * ((1 / 10000 : ℝ) : EReal)) * ((∑ i : Fin 10000, (c i : EReal)) * ((1 / 10000 : ℝ) : EReal))) + (Ideal.ofBits .f32 0x3727C5AC#32 : EReal))) * g + b)))
      = xx + ((Ideal.div ((c r0 : EReal) - (Ideal.div (∑ i : Fin 10000, (c i : EReal)) (Ideal.ofBits .f32 0x461C4000#32 : EReal))) (Ideal.sqrt ((Ideal.div (∑ i : Fin 10000, ((c i : EReal) - (Ideal.div (∑ i : Fin 10000, (c i : EReal)) (Ideal.ofBits .f32 0x461C4000#32 : EReal))) * ((c i : EReal) - (Ideal.div (∑ i : Fin 10000, (c i : EReal)) (Ideal.ofBits .f32 0x461C4000#32 : EReal)))) ((Ideal.ofBits .f32 0x461C4000#32 : EReal) - ((((0#32 : BitVec 32).toInt : ℤ) : ℝ) : EReal))) + (Ideal.ofBits .f32 0x3727C5AC#32 : EReal)))) * g + b) * Ideal.div (Ideal.ofBits .f32 0x3F800000#32 : EReal) ((Ideal.ofBits .f32 0x3F800000#32 : EReal) + Ideal.exp (-((Ideal.div ((c r0 : EReal) - (Ideal.div (∑ i : Fin 10000, (c i : EReal)) (Ideal.ofBits .f32 0x461C4000#32 : EReal))) (Ideal.sqrt ((Ideal.div (∑ i : Fin 10000, ((c i : EReal) - (Ideal.div (∑ i : Fin 10000, (c i : EReal)) (Ideal.ofBits .f32 0x461C4000#32 : EReal))) * ((c i : EReal) - (Ideal.div (∑ i : Fin 10000, (c i : EReal)) (Ideal.ofBits .f32 0x461C4000#32 : EReal)))) ((Ideal.ofBits .f32 0x461C4000#32 : EReal) - ((((0#32 : BitVec 32).toInt : ℤ) : ℝ) : EReal))) + (Ideal.ofBits .f32 0x3727C5AC#32 : EReal)))) * g + b))) := by
  rw [ofBits_eps, ofBits_10000, ofBits_zero, coe_10000_sub_sitofp_zero, ereal_zero_sub, normalise_core_agree c r0]

end Cert.KernelIdeal.H.Math
-- ==== Proof.KI.TailAgree.lean ====
import proofs.«151930_g64080912056811_cont_9to1c4b_125_51_alg».proof.Proof.KI.KFinal
import proofs.«151930_g64080912056811_cont_9to1c4b_125_51_alg».proof.Proof.KI.RefTail
import proofs.«151930_g64080912056811_cont_9to1c4b_125_51_alg».proof.Proof.KI.LibNormalise

/-! # The two tails agree entry by entry

The kernel normalises with the mean `S1 · (1/10000)` and the variance `S2 · (1/10000) - mean²` under a reciprocal square
root; the reference with the mean `S1 / 10000` and the centred variance under a square root and a quotient. When the
convolution's output is a real matrix the two expressions are equal entry by entry (the variance identity and
`x · rsqrt v = x / sqrt v` at positive `v`), so the results of the two programs' last stages agree wherever they are
given the same aggregate, features, scale and shift. -/

set_option maxRecDepth 16384

noncomputable section

namespace Cert.KernelIdeal.H

open Idealize.ShloMosaic Idealize.ShloMosaic.TcCoe
open Idealize.SL.Sem
open Idealize.ShloMosaic.ValueIdx
open Cert.KernelIdeal.Gen
open scoped BigOperators

/-- The kernel's result entry (regions 3 and 4 composed) is the reference's result entry, at every row `r` and column `j`,
    when `agg + x` is a real matrix. -/
theorem tail_agree (agg x : S10000x256.Idx → EReal) (gamma beta : S256.Idx → EReal)
    (cR : Fin 10000 → Fin 256 → ℝ) (hc : ∀ k q, agg (ix2 k q) + x (ix2 k q) = ((cR k q : ℝ) : EReal))
    (r : Fin 10000) (j : Fin 256) :
    G4_5 agg x (fun i => stat3 agg x (i 0) (i 1)) (shapeCast S1x256 gamma shapeCasts_S256_S1x256) (shapeCast S1x256 beta shapeCasts_S256_S1x256) (ix2 r j)
      = Cert.ReferenceIdeal.H.out x (Cert.ReferenceIdeal.H.normed (Cert.ReferenceIdeal.H.conv agg x) gamma beta) (ix2 r j) :=
  (kfinal agg x gamma beta cR hc r j).trans
    ((Math.final_pointwise_agree_ddof (fun i => cR i j) r (x (ix2 r j)) (gamma (ix1 j)) (beta (ix1 j))).trans
      (Cert.ReferenceIdeal.H.ref_tail x (Cert.ReferenceIdeal.H.conv agg x) gamma beta cR (fun k q => hc k q) r j).symm)

end Cert.KernelIdeal.H
end
-- ==== Proof.KI.RefHead.lean ====
/- The reference's linear layer on the concatenated edge row, read at one entry, over the extended reals: the row of edge e is
   [x at the destination node | x at the source node | the edge's attributes], 528 entries, and the layer is its dot product
   with column j of a 528-row weight matrix plus entry j of the bias. Split into its three groups of terms, this is the
   pre-activation the kernel's side assembles from its three projections. -/
import proofs.«151930_g64080912056811_cont_9to1c4b_125_51_alg».proof.Proof.KI.RefRun
import proofs.«151930_g64080912056811_cont_9to1c4b_125_51_alg».proof.Proof.KI.MsgK
import proofs.«151930_g64080912056811_cont_9to1c4b_125_51_alg».proof.Proof.KI.LibGatherRows
import proofs.«151930_g64080912056811_cont_9to1c4b_125_51_alg».proof.Proof.KI.LibSplitSum
import Idealize.ShloMosaic.Lib.Pipeline.Value
import Idealize.ShloMosaic.Lib.ValueIdx
import Idealize.ShloMosaic.PureOps.Ideal.Laws

set_option maxRecDepth 16384

noncomputable section

namespace Cert.ReferenceIdeal.H

open Cert.ReferenceIdeal Cert.ReferenceIdeal.Gen
open Idealize.ShloMosaic Idealize.ShloMosaic.TcCoe Idealize.SL.Sem
open Idealize.ShloMosaic.ValueIdx
open Cert.KernelIdeal.H.Math
open scoped BigOperators

/-! ## The dot product at an index -/

/-- The dimension numbers of the layer's dot product: 160000 x 528 times 528 x 256. -/
abbrev DL := dot_S160000x528_S528x256_S160000x256_1_0_0_1_n_n

/-- At output index (e, j) and contraction position k the left operand is read at (e, k) … -/
theorem DL_lhs (e : Fin 160000) (j : Fin 256) (k : DL.contr.Idx) :
    DL.lhsIdx (ix2 e j) k = ix2 e (contrEquiv1 DL 528 rfl rfl k) := by
  funext a
  match a with
  | ⟨0, _⟩ => rfl
  | ⟨1, _⟩ => rfl

/-- … and the right operand at (k, j). -/
theorem DL_rhs (e : Fin 160000) (j : Fin 256) (k : DL.contr.Idx) :
    DL.rhsIdx (ix2 e j) k = ix2 (contrEquiv1 DL 528 rfl rfl k) j := by
  funext a
  match a with
  | ⟨0, _⟩ => rfl
  | ⟨1, _⟩ => rfl

/-- The dot product at (e, j): the sum over the 528 contraction positions of the products. -/
theorem dot_apply (z : FVec Ideal S160000x528 .f32) (W : FVec Ideal S528x256 .f32) (e : Fin 160000) (j : Fin 256) :
    Host.dotGeneral DL none z W (ix2 e j) = ∑ k : Fin 528, z (ix2 e k) * W (ix2 k j) := by
  refine (Ideal.dotGeneral_apply DL none .single z W (ix2 e j)).trans ?_
  refine Fintype.sum_equiv (contrEquiv1 DL 528 rfl rfl) _ _ fun k => ?_
  rw [DL_lhs, DL_rhs]

/-- A vector of 256 entries laid along every one of the 160000 rows, through a one-row table: at (e, j) it reads entry j. -/
theorem bias_apply {α : Type} (b : S256.Idx → α) (e : Fin 160000) (j : Fin 256) :
    broadcastInDim S160000x256 ![0, 1] bcast_S1x256_S160000x256_0_1 (broadcastInDim S1x256 ![1] bcast_S256_S1x256_1 b) (ix2 e j)
      = b (ix1 j) := by
  refine (broadcastInDim_apply _ _ _ (ix2 e j) (ix2 (0 : Fin 1) j) fun a => ?_).trans ?_
  · match a with
    | ⟨0, _⟩ => rfl
    | ⟨1, _⟩ => rfl
  · refine broadcastInDim_apply _ _ b (ix2 (0 : Fin 1) j) (ix1 j) fun a => ?_
    match a with
    | ⟨0, _⟩ => rfl

/-! ## The concatenated row at an index -/

theorem pos : 0 < 10000 := by decide

/-- The gathered rows at (e, k): the node features at the row the wrapped index of edge e names. -/
theorem rows_apply (x : FVec Ideal S10000x256 .f32) (v : IVec S160000 32) (e : Fin 160000) (k : Fin 256) :
    rows x v (ix2 e k) = x (ix2 (nodeOf 10000 pos (col (wrap v)) e) k) := by
  unfold rows
  exact gather_rows_apply pos gather_S10000x256_S160000x1_S160000x256_1_0_n_n_0_1_1256_wf x (col (wrap v)) e k

/-- Entry (e, k) of the concatenated row: entries 0..255 are the destination node's features, 256..511 the source node's,
    512..527 the edge's attributes. -/
theorem zcat_apply (x : FVec Ideal S10000x256 .f32) (ei : IVec S2x160000 32) (ea : FVec Ideal S160000x16 .f32)
    (e : Fin 160000) (k : Fin 528) :
    zcat x ei ea (ix2 e k)
      = cat3 (fun k => x (ix2 (nodeOf 10000 pos (col (wrap (dst ei))) e) k))
          (fun k => x (ix2 (nodeOf 10000 pos (col (wrap (src ei))) e) k)) (fun k => ea (ix2 e k)) k := by
  unfold zcat cat3
  by_cases h1 : k.val < 256
  · rw [dif_pos h1]
    refine (concatenate_apply_piece (t := S160000x528) (1 : Fin 2) [⟨S160000x256, rows x (dst ei)⟩, ⟨S160000x256, rows x (src ei)⟩, ⟨S160000x16, ea⟩] concatenates_S160000x256_S160000x256_S160000x16_S160000x528_d1 (ix2 e k) 0 (show 0 < 3 from by decide) S160000x256 (rows x (dst ei)) rfl rfl 0 rfl
      (ix2 e (⟨k.val, h1⟩ : Fin 256)) (fun b hb => ?_) ?_).trans (rows_apply x (dst ei) e ⟨k.val, h1⟩)
    · match b with
      | ⟨0, _⟩ => rfl
      | ⟨1, _⟩ => exact absurd rfl hb
    · show 0 + k.val = k.val; omega
  · rw [dif_neg h1]
    by_cases h2 : k.val < 512
    · rw [dif_pos h2]
      refine (concatenate_apply_piece (t := S160000x528) (1 : Fin 2) [⟨S160000x256, rows x (dst ei)⟩, ⟨S160000x256, rows x (src ei)⟩, ⟨S160000x16, ea⟩] concatenates_S160000x256_S160000x256_S160000x16_S160000x528_d1 (ix2 e k) 1 (show 1 < 3 from by decide) S160000x256 (rows x (src ei)) rfl rfl 256 rfl
        (ix2 e (⟨k.val - 256, by omega⟩ : Fin 256)) (fun b hb => ?_) ?_).trans (rows_apply x (src ei) e ⟨k.val - 256, by omega⟩)
      · match b with
        | ⟨0, _⟩ => rfl
        | ⟨1, _⟩ => exact absurd rfl hb
      · show 256 + (k.val - 256) = k.val; omega
    · rw [dif_neg h2]
      have hk : k.val < 528 := k.isLt
      refine concatenate_apply_piece (t := S160000x528) (1 : Fin 2) [⟨S160000x256, rows x (dst ei)⟩, ⟨S160000x256, rows x (src ei)⟩, ⟨S160000x16, ea⟩] concatenates_S160000x256_S160000x256_S160000x16_S160000x528_d1 (ix2 e k) 2 (show 2 < 3 from by decide) S160000x16 ea rfl rfl 512 rfl
        (ix2 e (⟨k.val - 512, by omega⟩ : Fin 16)) (fun b hb => ?_) ?_
      · match b with
        | ⟨0, _⟩ => rfl
        | ⟨1, _⟩ => exact absurd rfl hb
      · show 512 + (k.val - 512) = k.val; omega

/-! ## The linear layer of the concatenated row -/

/-- THE LAYER AT (e, j): the 528-term dot product of the concatenated row with column j of the weights, plus entry j of the
    bias. -/
theorem lin_zcat (x : FVec Ideal S10000x256 .f32) (ei : IVec S2x160000 32) (ea : FVec Ideal S160000x16 .f32)
    (W : FVec Ideal S528x256 .f32) (b : FVec Ideal S256 .f32) (e : Fin 160000) (j : Fin 256) :
    lin (zcat x ei ea) W b (ix2 e j)
      = (∑ k : Fin 528, cat3 (fun k => x (ix2 (nodeOf 10000 pos (col (wrap (dst ei))) e) k))
            (fun k => x (ix2 (nodeOf 10000 pos (col (wrap (src ei))) e) k)) (fun k => ea (ix2 e k)) k * W (ix2 k j))
          + b (ix1 j) := by
  unfold lin
  refine (addf_apply _ _ (ix2 e j)).trans ?_
  rw [dot_apply, bias_apply]
  refine congrArg (· + b (ix1 j)) (Finset.sum_congr rfl fun k _ => ?_)
  rw [zcat_apply]

/-! ## The two programs name the same node of an edge -/

/-- The kernel's program and the reference wrap and lay out the edge table's rows by the same operations, so the node an
    edge's destination (source) index names is the same on both sides. -/
theorem nd_eq (ei : IVec S2x160000 32) :
    nodeOf 10000 Cert.KernelIdeal.H.pos10000 (Cert.KernelIdeal.H.idxCol (Cert.KernelIdeal.H.wrapIdx (Cert.KernelIdeal.H.dstOf ei)))
      = nodeOf 10000 pos (col (wrap (dst ei))) := rfl
theorem ns_eq (ei : IVec S2x160000 32) :
    nodeOf 10000 Cert.KernelIdeal.H.pos10000 (Cert.KernelIdeal.H.idxCol (Cert.KernelIdeal.H.wrapIdx (Cert.KernelIdeal.H.srcOf ei)))
      = nodeOf 10000 pos (col (wrap (src ei))) := rfl

/-- THE KERNEL'S PRE-ACTIVATION IS THE REFERENCE'S LAYER: the three partial dot products and the bias the kernel's side
    adds up are the 528-term dot product plus the bias, regrouped (addition of extended reals is commutative and
    associative). -/
theorem ZK_eq_lin (x : FVec Ideal S10000x256 .f32) (ei : IVec S2x160000 32) (ea : FVec Ideal S160000x16 .f32)
    (W : FVec Ideal S528x256 .f32) (b : FVec Ideal S256 .f32) (e : Fin 160000) (j : Fin 256) :
    Cert.KernelIdeal.H.ZK x ea W b
        (nodeOf 10000 Cert.KernelIdeal.H.pos10000 (Cert.KernelIdeal.H.idxCol (Cert.KernelIdeal.H.wrapIdx (Cert.KernelIdeal.H.dstOf ei))))
        (nodeOf 10000 Cert.KernelIdeal.H.pos10000 (Cert.KernelIdeal.H.idxCol (Cert.KernelIdeal.H.wrapIdx (Cert.KernelIdeal.H.srcOf ei)))) e j
      = lin (zcat x ei ea) W b (ix2 e j) := by
  rw [lin_zcat, nd_eq, ns_eq]
  exact (dot528_split_add_bias (fun k => x (ix2 (nodeOf 10000 pos (col (wrap (dst ei))) e) k))
    (fun k => x (ix2 (nodeOf 10000 pos (col (wrap (src ei))) e) k)) (fun k => ea (ix2 e k)) (fun k => W (ix2 k j)) (b (ix1 j))).symm

end Cert.ReferenceIdeal.H

end
-- ==== Proof.KI.RefRead.lean ====
/-
  The reference's edge stage read at an index, at the ideal instance: the logistic gate, the softplus core and their
  product are pointwise, so each is its scalar formula at the element. The constants are kept as the words the program
  prints (one: 0x3F800000, zero: 0x00000000). The softplus is printed with a guard `t - 0 ≠ t - 0`, which no extended
  real satisfies, so the guarded branch is never taken.
-/
import proofs.«151930_g64080912056811_cont_9to1c4b_125_51_alg».proof.Proof.KI.RefRun
import proofs.«151930_g64080912056811_cont_9to1c4b_125_51_alg».proof.Proof.KI.LibCompare
import Idealize.ShloMosaic.Lib.ValueIdx

noncomputable section

namespace Cert.ReferenceIdeal.H

open Cert.ReferenceIdeal Cert.ReferenceIdeal.Gen Idealize.ShloMosaic Idealize.ShloMosaic.ValueIdx Cert.KernelIdeal.H

/-- The all-zero edge array reads the zero word everywhere. -/
theorem zeroE_apply (i : S160000x256.Idx) : zeroE i = Ideal.ofBits .f32 0x00000000#32 := rfl

/-- The gate at an element: `1 / (1 + exp (-t))`. -/
theorem gate_apply (t : FVec Ideal S160000x256 .f32) (i : S160000x256.Idx) :
    gate t i = Ideal.div (Ideal.ofBits .f32 0x3F800000#32) (Ideal.ofBits .f32 0x3F800000#32 + Ideal.exp (-(t i))) := rfl

/-- The core at an element: `max t 0 + log1p (exp (-|t - 0|))`, the absolute value as `max a (-a)`. -/
theorem core_apply (t : FVec Ideal S160000x256 .f32) (i : S160000x256.Idx) :
    core t i = max (t i) (Ideal.ofBits .f32 0x00000000#32)
      + Ideal.log1p (Ideal.exp (-(max (t i - Ideal.ofBits .f32 0x00000000#32) (-(t i - Ideal.ofBits .f32 0x00000000#32))))) := by
  show Scalar.select (Ideal.cmp .une (t i - Ideal.ofBits .f32 0x00000000#32) (t i - Ideal.ofBits .f32 0x00000000#32))
      (t i + Ideal.ofBits .f32 0x00000000#32) _ = _
  rw [Math.cmp_une_self, select_zero]
  rfl

/-- The message at an element: gate times core. -/
theorem msg_apply (g c : FVec Ideal S160000x256 .f32) (i : S160000x256.Idx) : msg g c i = g i * c i := rfl

end Cert.ReferenceIdeal.H

end
-- ==== Proof.KI.Bridge.lean ====
/-
  The kernel's function of the argument arrays is the reference's, for finite arguments.

  Per edge, the kernel adds three partial dot products — the destination row against the first 256 rows of a weight matrix
  with the bias, the source row against the next 256, the edge attributes against the last 16 — where the reference takes
  one 528-term dot product of the concatenated row and then adds the bias: one sum, regrouped. The activations are spelt
  alike up to `0 - t` for `-t`, so the messages agree, and so do their sums per destination row. With every entry of
  `agg + x` a real number the two batch normalisations agree entry by entry.
-/
import proofs.«151930_g64080912056811_cont_9to1c4b_125_51_alg».proof.Proof.KI.ConvFinite
import proofs.«151930_g64080912056811_cont_9to1c4b_125_51_alg».proof.Proof.KI.TailAgree
import proofs.«151930_g64080912056811_cont_9to1c4b_125_51_alg».proof.Proof.KI.RefRun
import proofs.«151930_g64080912056811_cont_9to1c4b_125_51_alg».proof.Proof.KI.RefHead
import proofs.«151930_g64080912056811_cont_9to1c4b_125_51_alg».proof.Proof.KI.RefRead

noncomputable section

namespace Cert.KernelIdeal.H

open Idealize.ShloMosaic Idealize.ShloMosaic.ValueIdx
open Cert.KernelIdeal Cert.KernelIdeal.H.Math
open scoped BigOperators

variable (x : FVec Ideal S10000x256 .f32) (ei : IVec S2x160000 32) (ea : FVec Ideal S160000x16 .f32)
  (Wf : FVec Ideal S528x256 .f32) (bf : FVec Ideal S256 .f32) (Ws : FVec Ideal S528x256 .f32) (bs gamma beta : FVec Ideal S256 .f32)

/-- The reference's messages. -/
abbrev msgRef : FVec Ideal S160000x256 .f32 :=
  Cert.ReferenceIdeal.H.msg (Cert.ReferenceIdeal.H.gate (Cert.ReferenceIdeal.H.zf (Cert.ReferenceIdeal.H.zcat x ei ea) Wf bf))
    (Cert.ReferenceIdeal.H.core (Cert.ReferenceIdeal.H.zs (Cert.ReferenceIdeal.H.zcat x ei ea) Ws bs))

/-- The two activations are one function: `0 - t = -t` and `t - 0 = t` on every extended real. -/
theorem act2_eq (a b : EReal) :
    act2 a b = Ideal.div (Ideal.ofBits .f32 0x3F800000#32) (Ideal.ofBits .f32 0x3F800000#32 + Ideal.exp (-a))
      * (max b (Ideal.ofBits .f32 0x00000000#32) + Ideal.log1p (Ideal.exp (-(max (b - Ideal.ofBits .f32 0x00000000#32) (-(b - Ideal.ofBits .f32 0x00000000#32)))))) := by
  unfold act2
  rw [ofBits_zero, ereal_zero_sub, ereal_zero_sub, ereal_sub_zero]

/-- Edge by edge and column by column the kernel's message is the reference's. -/
theorem msg_eq : msgKer x ei ea Wf bf Ws bs = msgRef x ei ea Wf bf Ws bs := by
  funext i
  obtain ⟨e, j, rfl⟩ : ∃ (e : Fin 160000) (j : Fin 256), i = ix2 e j := ⟨i 0, i 1, eq_ix2 i⟩
  unfold msgKer
  rw [msgK x ea Wf Ws bf bs ei e j, act2_eq, Cert.ReferenceIdeal.H.ZK_eq_lin x ei ea Wf bf e j, Cert.ReferenceIdeal.H.ZK_eq_lin x ei ea Ws bs e j]
  show _ = Cert.ReferenceIdeal.H.msg _ _ _
  rw [Cert.ReferenceIdeal.H.msg_apply, Cert.ReferenceIdeal.H.gate_apply, Cert.ReferenceIdeal.H.core_apply]
  rfl

/-- So the aggregates agree: the same accumulating scatter of the same messages at the same index column. -/
theorem agg_eq : aggKer x ei ea Wf bf Ws bs = Cert.ReferenceIdeal.H.agg ei (msgRef x ei ea Wf bf Ws bs) := by
  unfold aggKer
  rw [msg_eq]
  rfl

/-- THE BRIDGE: for finite arguments the kernel's result array is the reference's. -/
theorem bridge (hx : ∀ i, ∃ r : ℝ, x i = (r : EReal)) (hea : ∀ i, ∃ r : ℝ, ea i = (r : EReal))
    (hWf : ∀ i, ∃ r : ℝ, Wf i = (r : EReal)) (hbf : ∀ i, ∃ r : ℝ, bf i = (r : EReal))
    (hWs : ∀ i, ∃ r : ℝ, Ws i = (r : EReal)) (hbs : ∀ i, ∃ r : ℝ, bs i = (r : EReal)) :
    resKer x ei ea Wf bf Ws bs gamma beta = Cert.ReferenceIdeal.H.RES x ei ea Wf bf Ws bs gamma beta := by
  choose cR hcR using fun k q => conv_real x ei ea Wf bf Ws bs hx hea hWf hbf hWs hbs k q
  funext i
  obtain ⟨r, j, rfl⟩ : ∃ (r : Fin 10000) (j : Fin 256), i = ix2 r j := ⟨i 0, i 1, eq_ix2 i⟩
  unfold resKer Cert.ReferenceIdeal.H.RES
  rw [← agg_eq x ei ea Wf bf Ws bs]
  exact tail_agree (aggKer x ei ea Wf bf Ws bs) x gamma beta cR hcR r j

end Cert.KernelIdeal.H

end
-- ==== Proof.lean ====
/-
  A graph convolution with gated messages, batch normalisation, SiLU and a residual, as five kernel regions against the plain
  jnp reference.

  The kernel projects node rows and edge attributes once — G = x·[Wf₁|Ws₁] + [bf|bs], H = x·[Wf₂|Ws₂], C = e·[Wf₃|Ws₃], the
  weight matrices cut into their first 256, next 256 and last 16 rows — and forms each edge's pre-activations as
  G[dst] + H[src] + C, where the reference multiplies the concatenated row [x[dst] | x[src] | e] by the whole matrices: the
  same 528-term sums regrouped, so the messages sigmoid(zf)·softplus(zs) and their sums over each destination node agree on
  all extended reals. The batch statistics are accumulated over five blocks of 2000 rows; the kernel normalises with
  E[c²] − E[c]² and a reciprocal square root, the reference with the centred sum of squares and a quotient: equal once every
  entry of the convolution is a real number, which the finite inputs give. The kernel's 1/10000 is the named constant.

  Frames: each region's body is run at every grid point from its windows' blocks (region 3 carrying its 2×256 accumulator in
  scratch between points), the host stretches between them are folded over the buffer contents, and no segment writes an
  argument array; the reference is a straight line of host operations.
-/
import proofs.«151930_g64080912056811_cont_9to1c4b_125_51_alg».proof.Defs
import proofs.«151930_g64080912056811_cont_9to1c4b_125_51_alg».proof.Proof.Gen.Kernel
import proofs.«151930_g64080912056811_cont_9to1c4b_125_51_alg».proof.Proof.Gen.KernelIdeal
import proofs.«151930_g64080912056811_cont_9to1c4b_125_51_alg».proof.Proof.Gen.ReferenceIdeal
import proofs.«151930_g64080912056811_cont_9to1c4b_125_51_alg».proof.Proof.Gen.Pre_finite_inputs
import proofs.«151930_g64080912056811_cont_9to1c4b_125_51_alg».proof.Proof.K.Run
import proofs.«151930_g64080912056811_cont_9to1c4b_125_51_alg».proof.Proof.KI.KernelValue
import proofs.«151930_g64080912056811_cont_9to1c4b_125_51_alg».proof.Proof.KI.RefRun
import proofs.«151930_g64080912056811_cont_9to1c4b_125_51_alg».proof.Proof.KI.PreFinite
import proofs.«151930_g64080912056811_cont_9to1c4b_125_51_alg».proof.Proof.KI.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.H.frame (F := Bits) m ρ

/-- So does the idealized kernel. -/
theorem frame_ki : Cert.frame_KernelIdeal := fun m ρ _ => Cert.KernelIdeal.H.frame (F := Ideal) m ρ

/-- And the reference, a straight line of host operations. -/
theorem frame_ri : Cert.frame_ReferenceIdeal := fun m ρ _ => Cert.ReferenceIdeal.H.frame m ρ

/-- The two occurrences of the kernel's literal `f32(1/10000)` are named `1/10000`, the value the table gives the name. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- From memories agreeing on the nine arguments both programs end with the same result array: the kernel's run names its
    result as one function of the arguments, the reference's run as another, and for finite arguments they are equal. -/
theorem algebraic : Cert.algebraic_KernelIdeal_ReferenceIdeal := by
  intro m ρ m' ρ' hpre hagree
  refine ⟨fun c => Cert.KernelIdeal.H.resKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c => ⟨(h c).1.trans (Cert.KernelIdeal.H.kernel_value m c), (h c).2⟩)
      (Cert.KernelIdeal.H.run_result (F := Ideal) m ρ)
  · refine (θ_run Cert.ReferenceIdeal.defs _ _).mono (fun r h c => ⟨(h c).1.trans ?_, (h c).2⟩) (Cert.ReferenceIdeal.H.run m' ρ')
    obtain ⟨h0, h1, h2, h3, h4, h5, h6, h7, h8⟩ := hagree c
    rw [h0, h1, h2, h3, h4, h5, h6, h7, h8]
    obtain ⟨fx, fea, fWf, fbf, fWs, fbs, -, -⟩ := Cert.KernelIdeal.H.Math.finite_of_pre _ _ _ _ _ _ _ _ _ (hpre c)
    exact (Cert.KernelIdeal.H.bridge _ _ _ _ _ _ _ _ _ fx fea fWf fbf fWs fbs).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
